-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S100000x58 : Shape := ⟨2, ![100000, 58]⟩
abbrev S2x1200000 : Shape := ⟨2, ![2, 1200000]⟩
abbrev S500x64 : Shape := ⟨2, ![500, 64]⟩
abbrev S64 : Shape := ⟨1, ![64]⟩
abbrev S64x1 : Shape := ⟨2, ![64, 1]⟩
abbrev S1 : Shape := ⟨1, ![1]⟩
abbrev S58x64 : Shape := ⟨2, ![58, 64]⟩
abbrev S2x64x64 : Shape := ⟨3, ![2, 64, 64]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S100000x58 : S_.BroadcastsInDim S100000x58 (![] : Fin 0 → Fin S100000x58.rank)
  reducesTo_S100000x58_S_d0_1 : S100000x58.ReducesTo [0, 1] S_
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S58x64 : S_.BroadcastsInDim S58x64 (![] : Fin 0 → Fin S58x64.rank)
  reducesTo_S58x64_S_d0_1 : S58x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S2x64x64 .f32) (main_arg13 : FVec F S2x64x64 .f32) (main_arg14 : FVec F S2x64x64 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64x64 .f32 := Host.absf main_arg12
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S2x64x64 .f32 := Host.absf main_arg13
  let main_cst_22 : FVec F S_ .f32 := constant S_ .f32 0x7F800000#32
  let main_v60 : FVec F S2x64x64 .f32 := broadcastInDim S2x64x64 ![] bcast_S_S2x64x64 main_cst_22
  let main_v61 : IVec S2x64x64 1 := cmpf .olt main_v59 main_v60
  let main_c_23 : IVec S_ 1 := constantI S_ 1 1#1
  let main_v62 : IVec S_ 1 := (fun x v => Host.reduce IntOp.andi x v reducesTo_S2x64x64_S_d0_1_2 h_S_) main_v61 main_c_23
  let main_v63 : IVec S_ 1 := andi main_v58 main_v62
  let main_v64 : FVec F S2x64x64 .f32 := Host.absf main_arg14
  let main_cst_24 : FVec F S_ .f32 := constant S_ .f32 0x7F800000#32
  let main_v65 : FVec F S2x64x64 .f32 := broadcastInDim S2x64x64 ![] bcast_S_S2x64x64 main_cst_24
  let main_v66 : IVec S2x64x64 1 := cmpf .olt main_v64 main_v65
  let main_c_25 : IVec S_ 1 := constantI S_ 1 1#1
  let main_v67 : IVec S_ 1 := (fun x v => Host.reduce IntOp.andi x v reducesTo_S2x64x64_S_d0_1_2 h_S_) main_v66 main_c_25
  fn_part4 (F := F) main_v63 main_v67

def fn_part2 {F : FTy → Type} [FloatOps F] (main_arg8 : FVec F S64 .f32) (main_arg9 : FVec F S64x1 .f32) (main_arg10 : FVec F S1 .f32) (main_arg11 : FVec F S2x64x64 .f32) (main_arg12 : FVec F S2x64x64 .f32) (main_arg13 : FVec F S2x64x64 .f32) (main_arg14 : FVec F S2x64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2x64x64 .f32 := Host.absf main_arg11
  let main_cst_18 : FVec F S_ .f32 := constant S_ .f32 0x7F800000#32
  let main_v50 : FVec F S2x64x64 .f32 := broadcastInDim S2x64x64 ![] bcast_S_S2x64x64 main_cst_18
  fn_part3 (F := F) main_arg12 main_arg13 main_arg14 main_v48 main_v49 main_v50

def fn_part1 {F : FTy → Type} [FloatOps F] (main_arg5 : FVec F S64x1 .f32) (main_arg6 : FVec F S1 .f32) (main_arg7 : FVec F S58x64 .f32) (main_arg8 : FVec F S64 .f32) (main_arg9 : FVec F S64x1 .f32) (main_arg10 : FVec F S1 .f32) (main_arg11 : FVec F S2x64x64 .f32) (main_arg12 : FVec F S2x64x64 .f32) (main_arg13 : FVec F S2x64x64 .f32) (main_arg14 : FVec F S2x64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S58x64 .f32 := Host.absf main_arg7
  let main_cst_10 : FVec F S_ .f32 := constant S_ .f32 0x7F800000#32
  let main_v30 : FVec F S58x64 .f32 := broadcastInDim S58x64 ![] bcast_S_S58x64 main_cst_10
  let main_v31 : IVec S58x64 1 := cmpf .olt main_v29 main_v30
  let main_c_11 : IVec S_ 1 := constantI S_ 1 1#1
  let main_v32 : IVec S_ 1 := (fun x v => Host.reduce IntOp.andi x v reducesTo_S58x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x500 .f32) (main_arg1 : FVec F S100000x58 .f32) (main_arg2 : IVec S2x1200000 32) (main_arg3 : FVec F S500x64 .f32) (main_arg4 : FVec F S64 .f32) (main_arg5 : FVec F S64x1 .f32) (main_arg6 : FVec F S1 .f32) (main_arg7 : FVec F S58x64 .f32) (main_arg8 : FVec F S64 .f32) (main_arg9 : FVec F S64x1 .f32) (main_arg10 : FVec F S1 .f32) (main_arg11 : FVec F S2x64x64 .f32) (main_arg12 : FVec F S2x64x64 .f32) (main_arg13 : FVec F S2x64x64 .f32) (main_arg14 : FVec F S2x64x64 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S100000x58 .f32 := Host.absf main_arg1
  let main_cst_0 : FVec F S_ .f32 := constant S_ .f32 0x7F800000#32
  let main_v5 : FVec F S100000x58 .f32 := broadcastInDim S100000x58 ![] bcast_S_S100000x58 main_cst_0
  let main_v6 : IVec S100000x58 1 := cmpf .olt main_v4 main_v5
  let main_c_1 : IVec S_ 1 := constantI S_ 1 1#1
  let main_v7 : IVec S_ 1 := (fun x v => Host.reduce IntOp.andi x v reducesTo_S100000x58_S_d0_1 h_S_) main_v6 main_c_1
  let main_v8 : IVec S_ 1 := andi main_v3 main_v7
  let main_v9 : FVec F S500x64 .f32 := Host.absf main_arg3
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x500 : Shape := ⟨2, ![100000, 500]⟩
abbrev S100000x58 : Shape := ⟨2, ![100000, 58]⟩
abbrev S2x1200000 : Shape := ⟨2, ![2, 1200000]⟩
abbrev S500x64 : Shape := ⟨2, ![500, 64]⟩
abbrev S64 : Shape := ⟨1, ![64]⟩
abbrev S64x1 : Shape := ⟨2, ![64, 1]⟩
abbrev S1 : Shape := ⟨1, ![1]⟩
abbrev S58x64 : Shape := ⟨2, ![58, 64]⟩
abbrev S2x64x64 : Shape := ⟨3, ![2, 64, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1x64 : Shape := ⟨2, ![1, 64]⟩
abbrev S100000x64 : Shape := ⟨2, ![100000, 64]⟩
abbrev S5000x500 : Shape := ⟨2, ![5000, 500]⟩
abbrev S5000x64 : Shape := ⟨2, ![5000, 64]⟩
abbrev S5000x58 : Shape := ⟨2, ![5000, 58]⟩
abbrev S1200000x64 : Shape := ⟨2, ![1200000, 64]⟩
abbrev S1x64x64 : Shape := ⟨3, ![1, 64, 64]⟩
abbrev S64x64 : Shape := ⟨2, ![64, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 153
  | .vmem => 56
  | .smem => 0
  | _ => 0

abbrev hbmTy0_0 (i : Nat) : BufTy := match i % 128 with
  | 0 => ⟨S100000x500, .f32⟩
  | 1 => ⟨S100000x58, .f32⟩
  | 2 => ⟨S2x1200000, .i32⟩
  | 3 => ⟨S500x64, .f32⟩
  | 4 => ⟨S64, .f32⟩
  | 5 => ⟨S64x1, .f32⟩
  | 6 => ⟨S1, .f32⟩
  | 7 => ⟨S58x64, .f32⟩
  | 8 => ⟨S64, .f32⟩
  | 9 => ⟨S64x1, .f32⟩
  | 10 => ⟨S1, .f32⟩
  | 11 => ⟨S2x64x64, .f32⟩
  | 12 => ⟨S2x64x64, .f32⟩
  | 13 => ⟨S2x64x64, .f32⟩
  | 14 => ⟨S2x64x64, .f32⟩
  | 15 => ⟨S1x1200000, .i32⟩
  | 16 => ⟨S1200000, .i32⟩
  | 17 => ⟨S1x1200000, .i32⟩
  | 18 => ⟨S1200000, .i32⟩
  | 19 => ⟨S_, .f32⟩
  | 20 => ⟨S1200000, .f32⟩
  | 21 => ⟨S_, .f32⟩
  | 22 => ⟨S100000, .f32⟩
  | 23 => ⟨S1200000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S1x64, .f32⟩
  | 56 => ⟨S100000x64, .f32⟩
  | 57 => ⟨S1x64, .f32⟩
  | 58 => ⟨S100000x64, .f32⟩
  | 59 => ⟨S_, .f32⟩
  | 60 => ⟨S100000x64, .f32⟩
  | 61 => ⟨S100000x64, .f32⟩
  | 62 => ⟨S1200000x1, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000x64, .f32⟩
  | 72 => ⟨S1200000x64, .f32⟩
  | 73 => ⟨S1200000x64, .f32⟩
  | 74 => ⟨S_, .f32⟩
  | 75 => ⟨S100000x64, .f32⟩
  | 76 => ⟨S1200000x1, .i32⟩
  | 77 => ⟨S100000x64, .f32⟩
  | 78 => ⟨S1x64x64, .f32⟩
  | 79 => ⟨S64x64, .f32⟩
  | 80 => ⟨S1x64x64, .f32⟩
  | 81 => ⟨S64x64, .f32⟩
  | 82 => ⟨S100000x64, .f32⟩
  | 83 => ⟨S1200000x1, .f32⟩
  | 84 => ⟨S_, .i32⟩
  | 85 => ⟨S1200000, .i32⟩
  | 86 => ⟨S1200000, .i1⟩
  | 87 => ⟨S_, .i32⟩
  | 88 => ⟨S1200000, .i32⟩
  | 89 => ⟨S1200000, .i32⟩
  | 90 => ⟨S1200000, .i32⟩
  | 91 => ⟨S1200000x1, .i32⟩
  | 92 => ⟨S1200000x64, .f32⟩
  | 93 => ⟨S1200000x64, .f32⟩
  | 94 => ⟨S1200000x64, .f32⟩
  | 95 => ⟨S_, .f32⟩
  | 96 => ⟨S100000x64, .f32⟩
  | 97 => ⟨S1200000x1, .i32⟩
  | 98 => ⟨S100000x64, .f32⟩
  | 99 => ⟨S1x64x64, .f32⟩
  | 100 => ⟨S64x64, .f32⟩
  | 101 => ⟨S1x64x64, .f32⟩
  | 102 => ⟨S64x64, .f32⟩
  | 103 => ⟨S100000x64, .f32⟩
  | 104 => ⟨S_, .f32⟩
  | 105 => ⟨S100000x64, .f32⟩
  | 106 => ⟨S100000x64, .f32⟩
  | 107 => ⟨S1200000x1, .f32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i32⟩
  | 114 => ⟨S1200000, .i32⟩
  | 115 => ⟨S1200000x1, .i32⟩
  | 116 => ⟨S1200000x64, .f32⟩
  | 117 => ⟨S1200000x64, .f32⟩
  | 118 => ⟨S1200000x64, .f32⟩
  | 119 => ⟨S_, .f32⟩
  | 120 => ⟨S100000x64, .f32⟩
  | 121 => ⟨S1200000x1, .i32⟩
  | 122 => ⟨S100000x64, .f32⟩
  | 123 => ⟨S1x64x64, .f32⟩
  | 124 => ⟨S64x64, .f32⟩
  | 125 => ⟨S1x64x64, .f32⟩
  | 126 => ⟨S64x64, .f32⟩
  | 127 => ⟨S100000x64, .f32⟩
  | _ => ⟨S100000x500, .f32⟩

abbrev hbmTy0_1 (i : Nat) : BufTy := match i % 128 with
  | 0 => ⟨S1200000x1, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S1200000x64, .f32⟩
  | 11 => ⟨S1200000x64, .f32⟩
  | 12 => ⟨S_, .f32⟩
  | 13 => ⟨S100000x64, .f32⟩
  | 14 => ⟨S1200000x1, .i32⟩
  | 15 => ⟨S100000x64, .f32⟩
  | 16 => ⟨S1x64x64, .f32⟩
  | 17 => ⟨S64x64, .f32⟩
  | 18 => ⟨S1x64x64, .f32⟩
  | 19 => ⟨S64x64, .f32⟩
  | 20 => ⟨S100000x64, .f32⟩
  | 21 => ⟨S1x1, .f32⟩
  | 22 => ⟨S1x1, .f32⟩
  | 23 => ⟨S100000x1, .f32⟩
  | 24 => ⟨S100000x1, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | .local _ .vmem, ⟨0, _⟩ => ⟨S5000x500, .f32⟩
  | .local _ .vmem, ⟨1, _⟩ => ⟨S5000x500, .f32⟩
  | .local _ .vmem, ⟨2, _⟩ => ⟨S500x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x58, .f32⟩
  | .local _ .vmem, ⟨7, _⟩ => ⟨S5000x58, .f32⟩
  | .local _ .vmem, ⟨8, _⟩ => ⟨S58x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S64x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x1, .f32⟩
  | .local _ .vmem, ⟨49, _⟩ => ⟨S1x1, .f32⟩
  | .local _ .vmem, ⟨50, _⟩ => ⟨S64x1, .f32⟩
  | .local _ .vmem, ⟨51, _⟩ => ⟨S1x1, .f32⟩
  | .local _ .vmem, ⟨52, _⟩ => ⟨S5000x1, .f32⟩
  | .local _ .vmem, ⟨53, _⟩ => ⟨S5000x1, .f32⟩
  | .local _ .vmem, ⟨54, _⟩ => ⟨S5000x1, .f32⟩
  | .local _ .vmem, ⟨55, _⟩ => ⟨S5000x1, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_c_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_18 : Ref sig .tc := ⟨.hbm, 129, rfl⟩
abbrev main_v92 : Ref sig .tc := ⟨.hbm, 130, rfl⟩
abbrev main_v93 : Ref sig .tc := ⟨.hbm, 131, rfl⟩
abbrev main_c_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111_0 : Ref sig .tc := ⟨.hbm, 151, rfl⟩
abbrev main_v111_1 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc6_stg7_0 : Ref sig .tc := ⟨.vmem, 54, rfl⟩
abbrev cc6_stg7_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc6_sem7_0 : DmaSem sig := 54
abbrev cc6_sem7_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x58 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S58x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S64_S1x64 : S64.ShapeCasts S1x64
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S5000x58_S5000x58_0_0 : ∀ a, (![0, 0] : Fin 2 → Nat) a + S5000x58.size a ≤ S5000x58.size a
  h_S5000x58 : 0 < S5000x58.numel
  inb_S58x64_S58x64_0_0 : ∀ a, (![0, 0] : Fin 2 → Nat) a + S58x64.size a ≤ S58x64.size a
  h_S58x64 : 0 < S58x64.numel
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  slices_S2x64x64_S1x64x64_0_0_0 : S2x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x500_S500x64_S5000x64_1_0_0_1_n_n_wf : DotDims.WF S5000x500 S500x64 S5000x64 [1] [0] [0] [1] [] []
  dot_S5000x58_S58x64_S5000x64_1_0_0_1_n_n_wf : DotDims.WF S5000x58 S58x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S100000x500.size a
  hwx0_0 : ∀ i : grid0.Coords, EltTy.bits .f32 = 32 ∨ (Rect.block (s := S100000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x58.size a ≤ S100000x58.size a
  hwx1_0 : ∀ i : grid1.Coords, EltTy.bits .f32 = 32 ∨ (Rect.block (s := S100000x58) S5000x58.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S58x64.size a ≤ S58x64.size a
  hwx1_1 : ∀ i : grid1.Coords, EltTy.bits .f32 = 32 ∨ (Rect.block (s := S58x64) S58x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x1.size a ≤ S64x1.size a
  hwx6_4 : ∀ i : grid6.Coords, EltTy.bits .f32 = 32 ∨ (Rect.block (s := S64x1) S64x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x1.size a ≤ S100000x1.size a
  hwx6_6 : ∀ i : grid6.Coords, EltTy.bits .f32 = 32 ∨ (Rect.block (s := S100000x1) S5000x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x500_S500x64_S5000x64_1_0_0_1_n_n : DotDims S5000x500 S500x64 S5000x64 where
  lhsContracting := [1]
  rhsContracting := [0]
  lhsNonContracting := [0]
  rhsNonContracting := [1]
  lhsBatch := []
  rhsBatch := []
  wf := dot_S5000x500_S500x64_S5000x64_1_0_0_1_n_n_wf
def dot_S5000x58_S58x64_S5000x64_1_0_0_1_n_n : DotDims S5000x58 S58x64 S5000x64 where
  lhsContracting := [1]
  rhsContracting := [0]
  lhsNonContracting := [0]
  rhsNonContracting := [1]
  lhsBatch := []
  rhsBatch := []
  wf := dot_S5000x58_S58x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x58.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S58x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v103) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v70) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v108) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg5) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S64x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v110) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v111_0) S5000x1.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v111_1) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x500 : Shape := ⟨2, ![100000, 500]⟩
abbrev S100000x58 : Shape := ⟨2, ![100000, 58]⟩
abbrev S2x1200000 : Shape := ⟨2, ![2, 1200000]⟩
abbrev S500x64 : Shape := ⟨2, ![500, 64]⟩
abbrev S64 : Shape := ⟨1, ![64]⟩
abbrev S64x1 : Shape := ⟨2, ![64, 1]⟩
abbrev S1 : Shape := ⟨1, ![1]⟩
abbrev S58x64 : Shape := ⟨2, ![58, 64]⟩
abbrev S2x64x64 : Shape := ⟨3, ![2, 64, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S1x64 : Shape := ⟨2, ![1, 64]⟩
abbrev S1200000x64 : Shape := ⟨2, ![1200000, 64]⟩
abbrev S1x64x64 : Shape := ⟨3, ![1, 64, 64]⟩
abbrev S64x64 : Shape := ⟨2, ![64, 64]⟩
abbrev S100000x1 : Shape := ⟨2, ![100000, 1]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S100000x500, .f32⟩
  | 1 => ⟨S100000x58, .f32⟩
  | 2 => ⟨S2x1200000, .i32⟩
  | 3 => ⟨S500x64, .f32⟩
  | 4 => ⟨S64, .f32⟩
  | 5 => ⟨S64x1, .f32⟩
  | 6 => ⟨S1, .f32⟩
  | 7 => ⟨S58x64, .f32⟩
  | 8 => ⟨S64, .f32⟩
  | 9 => ⟨S64x1, .f32⟩
  | 10 => ⟨S1, .f32⟩
  | 11 => ⟨S2x64x64, .f32⟩
  | 12 => ⟨S2x64x64, .f32⟩
  | 13 => ⟨S2x64x64, .f32⟩
  | 14 => ⟨S2x64x64, .f32⟩
  | 15 => ⟨S1x1200000, .i32⟩
  | 16 => ⟨S1200000, .i32⟩
  | 17 => ⟨S1x1200000, .i32⟩
  | 18 => ⟨S1200000, .i32⟩
  | 19 => ⟨S_, .f32⟩
  | 20 => ⟨S1200000, .f32⟩
  | 21 => ⟨S_, .f32⟩
  | 22 => ⟨S100000, .f32⟩
  | 23 => ⟨S1200000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1200000, .i32⟩
  | 38 => ⟨S1200000, .i1⟩
  | 39 => ⟨S_, .i32⟩
  | 40 => ⟨S1200000, .i32⟩
  | 41 => ⟨S1200000, .i32⟩
  | 42 => ⟨S1200000, .i32⟩
  | 43 => ⟨S1200000x1, .i32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1x1200000, .i32⟩
  | 70 => ⟨S1200000, .i32⟩
  | 71 => ⟨S1x1200000, .i32⟩
  | 72 => ⟨S1200000, .i32⟩
  | 73 => ⟨S_, .f32⟩
  | 74 => ⟨S100000x64, .f32⟩
  | 75 => ⟨S100000x64, .f32⟩
  | 76 => ⟨S1200000x1, .f32⟩
  | 77 => ⟨S_, .i32⟩
  | 78 => ⟨S1200000, .i32⟩
  | 79 => ⟨S1200000, .i1⟩
  | 80 => ⟨S_, .i32⟩
  | 81 => ⟨S1200000, .i32⟩
  | 82 => ⟨S1200000, .i32⟩
  | 83 => ⟨S1200000, .i32⟩
  | 84 => ⟨S1200000x1, .i32⟩
  | 85 => ⟨S1200000x64, .f32⟩
  | 86 => ⟨S1200000x64, .f32⟩
  | 87 => ⟨S1200000x64, .f32⟩
  | 88 => ⟨S_, .f32⟩
  | 89 => ⟨S100000x64, .f32⟩
  | 90 => ⟨S1200000x1, .i32⟩
  | 91 => ⟨S100000x64, .f32⟩
  | 92 => ⟨S_, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x64, .f32⟩
  | 109 => ⟨S1x64x64, .f32⟩
  | 110 => ⟨S64x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S1200000x1, .f32⟩
  | 120 => ⟨S_, .i32⟩
  | 121 => ⟨S1200000, .i32⟩
  | 122 => ⟨S1200000, .i1⟩
  | 123 => ⟨S_, .i32⟩
  | 124 => ⟨S1200000, .i32⟩
  | 125 => ⟨S1200000, .i32⟩
  | 126 => ⟨S1200000, .i32⟩
  | 127 => ⟨S1200000x1, .i32⟩
  | _ => ⟨S100000x500, .f32⟩

abbrev hbmTy0_1 (i : Nat) : BufTy := match i % 128 with
  | 0 => ⟨S1200000x64, .f32⟩
  | 1 => ⟨S1200000x64, .f32⟩
  | 2 => ⟨S1200000x64, .f32⟩
  | 3 => ⟨S_, .f32⟩
  | 4 => ⟨S100000x64, .f32⟩
  | 5 => ⟨S1200000x1, .i32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S1x64x64, .f32⟩
  | 14 => ⟨S64x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | 24 => ⟨S1x64x64, .f32⟩
  | 25 => ⟨S64x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S1x1200000, .i32⟩
  | 35 => ⟨S1200000, .i32⟩
  | 36 => ⟨S1x1200000, .i32⟩
  | 37 => ⟨S1200000, .i32⟩
  | 38 => ⟨S_, .f32⟩
  | 39 => ⟨S100000x64, .f32⟩
  | 40 => ⟨S100000x64, .f32⟩
  | 41 => ⟨S1200000x1, .f32⟩
  | 42 => ⟨S_, .i32⟩
  | 43 => ⟨S1200000, .i32⟩
  | 44 => ⟨S1200000, .i1⟩
  | 45 => ⟨S_, .i32⟩
  | 46 => ⟨S1200000, .i32⟩
  | 47 => ⟨S1200000, .i32⟩
  | 48 => ⟨S1200000, .i32⟩
  | 49 => ⟨S1200000x1, .i32⟩
  | 50 => ⟨S1200000x64, .f32⟩
  | 51 => ⟨S1200000x64, .f32⟩
  | 52 => ⟨S1200000x64, .f32⟩
  | 53 => ⟨S_, .f32⟩
  | 54 => ⟨S100000x64, .f32⟩
  | 55 => ⟨S1200000x1, .i32⟩
  | 56 => ⟨S100000x64, .f32⟩
  | 57 => ⟨S_, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S1x64x64, .f32⟩
  | 64 => ⟨S64x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x64x64, .f32⟩
  | 75 => ⟨S64x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1200000x1, .f32⟩
  | 85 => ⟨S_, .i32⟩
  | 86 => ⟨S1200000, .i32⟩
  | 87 => ⟨S1200000, .i1⟩
  | 88 => ⟨S_, .i32⟩
  | 89 => ⟨S1200000, .i32⟩
  | 90 => ⟨S1200000, .i32⟩
  | 91 => ⟨S1200000, .i32⟩
  | 92 => ⟨S1200000x1, .i32⟩
  | 93 => ⟨S1200000x64, .f32⟩
  | 94 => ⟨S1200000x64, .f32⟩
  | 95 => ⟨S1200000x64, .f32⟩
  | 96 => ⟨S_, .f32⟩
  | 97 => ⟨S100000x64, .f32⟩
  | 98 => ⟨S1200000x1, .i32⟩
  | 99 => ⟨S100000x64, .f32⟩
  | 100 => ⟨S_, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S_, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x1, .f32⟩
  | _ => ⟨S100000x500, .f32⟩

abbrev hbmTy0_2 (i : Nat) : BufTy := match i % 128 with
  | 0 => ⟨S1x1, .f32⟩
  | 1 => ⟨S100000x1, .f32⟩
  | 2 => ⟨S100000x1, .f32⟩
  | 3 => ⟨S100000x1, .f32⟩
  | 4 => ⟨S1x1, .f32⟩
  | 5 => ⟨S100000x1, .f32⟩
  | 6 => ⟨S100000x1, .f32⟩
  | _ => ⟨S100000x500, .f32⟩

abbrev hbmTy (i : Nat) : BufTy := match i / 128 with
  | 0 => hbmTy0_0 i
  | 1 => hbmTy0_1 i
  | 2 => hbmTy0_2 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_cst : Ref sig .tc := ⟨.hbm, 59, rfl⟩
abbrev main_call1_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_cst : Ref sig .tc := ⟨.hbm, 66, rfl⟩
abbrev main_call2_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_8 : Ref sig .tc := ⟨.hbm, 77, rfl⟩
abbrev main_v46 : Ref sig .tc := ⟨.hbm, 78, rfl⟩
abbrev main_v47 : Ref sig .tc := ⟨.hbm, 79, rfl⟩
abbrev main_c_9 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_15 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call3_cst : Ref sig .tc := ⟨.hbm, 116, rfl⟩
abbrev main_call3_v0 : Ref sig .tc := ⟨.hbm, 117, rfl⟩
abbrev main_v77 : Ref sig .tc := ⟨.hbm, 118, rfl⟩
abbrev main_v78 : Ref sig .tc := ⟨.hbm, 119, rfl⟩
abbrev main_c_16 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_18 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_21 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_22 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_23 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_call4_cst : Ref sig .tc := ⟨.hbm, 159, rfl⟩
abbrev main_call4_v0 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_c_25 : Ref sig .tc := ⟨.hbm, 170, rfl⟩
abbrev main_v118 : Ref sig .tc := ⟨.hbm, 171, rfl⟩
abbrev main_v119 : Ref sig .tc := ⟨.hbm, 172, rfl⟩
abbrev main_c_26 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_27 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_28 : Ref sig .tc := ⟨.hbm, 185, rfl⟩
abbrev main_v130 : Ref sig .tc := ⟨.hbm, 186, rfl⟩
abbrev main_v131 : Ref sig .tc := ⟨.hbm, 187, rfl⟩
abbrev main_cst_29 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_30 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_31 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_32 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_call5_cst : Ref sig .tc := ⟨.hbm, 209, rfl⟩
abbrev main_call5_v0 : Ref sig .tc := ⟨.hbm, 210, rfl⟩
abbrev main_v149 : Ref sig .tc := ⟨.hbm, 211, rfl⟩
abbrev main_v150 : Ref sig .tc := ⟨.hbm, 212, rfl⟩
abbrev main_c_33 : Ref sig .tc := ⟨.hbm, 213, rfl⟩
abbrev main_v151 : Ref sig .tc := ⟨.hbm, 214, rfl⟩
abbrev main_v152 : Ref sig .tc := ⟨.hbm, 215, rfl⟩
abbrev main_c_34 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_cst_35 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_36 : Ref sig .tc := ⟨.hbm, 228, rfl⟩
abbrev main_v163 : Ref sig .tc := ⟨.hbm, 229, rfl⟩
abbrev main_v164 : Ref sig .tc := ⟨.hbm, 230, rfl⟩
abbrev main_cst_37 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_38 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_39 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_cst_40 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_call6_cst : Ref sig .tc := ⟨.hbm, 252, rfl⟩
abbrev main_call6_v0 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x500_S500x64_S100000x64_1_0_0_1_n_n_wf : DotDims.WF S100000x500 S500x64 S100000x64 [1] [0] [0] [1] [] []
  dot_S100000x58_S58x64_S100000x64_1_0_0_1_n_n_wf : DotDims.WF S100000x58 S58x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def dot_S100000x58_S58x64_S100000x64_1_0_0_1_n_n : DotDims S100000x58 S58x64 S100000x64 where
  lhsContracting := [1]
  rhsContracting := [0]
  lhsNonContracting := [0]
  rhsNonContracting := [1]
  lhsBatch := []
  rhsBatch := []
  wf := dot_S100000x58_S58x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its two results named: every weakly fair execution of @main terminates, nothing
  faulting, the two result buffers end at the contents of the last segment boundary (the fold of @main's host stretches
  and region write-backs from the launch memory), and the argument arrays end as launched.
-/
import proofs.«111039_j16252156248255_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its sixteen segments, read against the final state at the last boundary's contents: the two
    results by name, each argument walked back to the launch memory. -/
theorem run_named : θ_run defs (onTc (τ := τ) (main (F := F))) ⟨m, fun _ => 0, ρ⟩ (fun r => ∀ c : Dev nD,
      r.2.mem ((c.tc : Thread nD τ).loc main_v111_0) = W16 m ρ c (Proc.devRef .tc main_v111_0)
      ∧ r.2.mem ((c.tc : Thread nD τ).loc main_v111_1) = W16 m ρ c (Proc.devRef .tc main_v111_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v111_0 (by decide)),
       h c _ (mem_uc main_v111_1 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Gen

end
-- ==== Proof.FoldKeep.lean ====
/- Buffers carried unchanged between segment boundaries of the idealized kernel's run: no host operation of the
   stretches in between writes the buffer, and a region writes back its input windows' arrays as it found them. -/
import proofs.«111039_j16252156248255_1_alg».proof.Proof.Gen.KernelIdeal.Frame
import Idealize.ShloMosaic.Lib.StableHlo.Run
import Idealize.ShloMosaic.PureOps.Ideal

set_option maxRecDepth 16384

noncomputable section

namespace Cert.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer that no operation of a host stretch writes is the same before and after the stretch. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0

theorem keep_arg3_3_0 (c : Dev nD) : W3 m ρ c (Proc.devRef .tc main_arg3) = W0 m ρ c (Proc.devRef .tc main_arg3) :=
  calc W3 m ρ c (Proc.devRef .tc main_arg3)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0

theorem keep_arg4_2_0 (c : Dev nD) : W2 m ρ c (Proc.devRef .tc main_arg4) = W0 m ρ c (Proc.devRef .tc main_arg4) :=
  calc W2 m ρ c (Proc.devRef .tc main_arg4)
    _ = W1 m ρ c (Proc.devRef .tc main_arg4) := by host_keep hostOps0_1
    _ = W0 m ρ c (Proc.devRef .tc main_arg4) := by host_keep hostOps0

theorem keep_arg8_4_0 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0

theorem keep_arg1_5_0 (c : Dev nD) : W5 m ρ c (Proc.devRef .tc main_arg1) = W0 m ρ c (Proc.devRef .tc main_arg1) :=
  calc W5 m ρ c (Proc.devRef .tc main_arg1)
    _ = W4 m ρ c (Proc.devRef .tc main_arg1) := by host_keep hostOps1
    _ = W3 m ρ c (Proc.devRef .tc main_arg1) := W4_of_ne m ρ c main_arg1 (by decide)
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0

theorem keep_arg7_5_0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0

theorem keep_arg11_6_0 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0

theorem keep_arg11_8_6 (c : Dev nD) : W8 m ρ c (Proc.devRef .tc main_arg11) = W6 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := by host_keep hostOps2

theorem keep_arg12_6_0 (c : Dev nD) : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0

theorem keep_arg12_8_6 (c : Dev nD) : W8 m ρ c (Proc.devRef .tc main_arg12) = W6 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := by host_keep hostOps2

theorem keep_arg13_16_12 (c : Dev nD) : W16 m ρ c (Proc.devRef .tc main_arg13) = W12 m ρ c (Proc.devRef .tc main_arg13) :=
  calc W16 m ρ c (Proc.devRef .tc main_arg13)
    _ = W15 m ρ c (Proc.devRef .tc main_arg13) := W16_of_ne m ρ c main_arg13 (by decide)
    _ = W14 m ρ c (Proc.devRef .tc main_arg13) := by host_keep hostOps6
    _ = W13 m ρ c (Proc.devRef .tc main_arg13) := W14_of_ne m ρ c main_arg13 (by decide)
    _ = W12 m ρ c (Proc.devRef .tc main_arg13) := by host_keep hostOps5

theorem keep_arg13_12_10 (c : Dev nD) : W12 m ρ c (Proc.devRef .tc main_arg13) = W10 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := by host_keep hostOps4

theorem keep_arg14_16_12 (c : Dev nD) : W16 m ρ c (Proc.devRef .tc main_arg14) = W12 m ρ c (Proc.devRef .tc main_arg14) :=
  calc W16 m ρ c (Proc.devRef .tc main_arg14)
    _ = W15 m ρ c (Proc.devRef .tc main_arg14) := W16_of_ne m ρ c main_arg14 (by decide)
    _ = W14 m ρ c (Proc.devRef .tc main_arg14) := by host_keep hostOps6
    _ = W13 m ρ c (Proc.devRef .tc main_arg14) := W14_of_ne m ρ c main_arg14 (by decide)
    _ = W12 m ρ c (Proc.devRef .tc main_arg14) := by host_keep hostOps5

theorem keep_arg14_12_10 (c : Dev nD) : W12 m ρ c (Proc.devRef .tc main_arg14) = W10 m ρ c (Proc.devRef .tc main_arg14) :=
  calc W12 m ρ c (Proc.devRef .tc main_arg14)
    _ = W11 m ρ c (Proc.devRef .tc main_arg14) := W12_of_ne m ρ c main_arg14 (by decide)
    _ = W10 m ρ c (Proc.devRef .tc main_arg14) := by host_keep hostOps4

theorem keep_arg6_16_14 (c : Dev nD) : W16 m ρ c (Proc.devRef .tc main_arg6) = W14 m ρ c (Proc.devRef .tc main_arg6) :=
  calc W16 m ρ c (Proc.devRef .tc main_arg6)
    _ = W15 m ρ c (Proc.devRef .tc main_arg6) := W16_of_ne m ρ c main_arg6 (by decide)
    _ = W14 m ρ c (Proc.devRef .tc main_arg6) := by host_keep hostOps6

theorem keep_arg10_16_14 (c : Dev nD) : W16 m ρ c (Proc.devRef .tc main_arg10) = W14 m ρ c (Proc.devRef .tc main_arg10) :=
  calc W16 m ρ c (Proc.devRef .tc main_arg10)
    _ = W15 m ρ c (Proc.devRef .tc main_arg10) := W16_of_ne m ρ c main_arg10 (by decide)
    _ = W14 m ρ c (Proc.devRef .tc main_arg10) := by host_keep hostOps6

theorem keep_arg5_16_15 (c : Dev nD) : W16 m ρ c (Proc.devRef .tc main_arg5) = W15 m ρ c (Proc.devRef .tc main_arg5) :=
  calc W16 m ρ c (Proc.devRef .tc main_arg5)
    _ = W15 m ρ c (Proc.devRef .tc main_arg5) := (W16_arr m ρ c 2).trans (((dat6 (V15 m ρ) c).arrAt_in 2 rfl _).trans (A_eq6 (V15 m ρ) c 2))

theorem keep_arg9_16_15 (c : Dev nD) : W16 m ρ c (Proc.devRef .tc main_arg9) = W15 m ρ c (Proc.devRef .tc main_arg9) :=
  calc W16 m ρ c (Proc.devRef .tc main_arg9)
    _ = W15 m ρ c (Proc.devRef .tc main_arg9) := (W16_arr m ρ c 4).trans (((dat6 (V15 m ρ) c).arrAt_in 4 rfl _).trans (A_eq6 (V15 m ρ) c 4))

theorem keep_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := by host_keep hostOps0_1

theorem keep_v1_6_2 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by host_keep hostOps1
    _ = W3 m ρ c (Proc.devRef .tc main_v1) := W4_of_ne m ρ c main_v1 (by decide)
    _ = W2 m ρ c (Proc.devRef .tc main_v1) := by host_keep hostOps0_2

theorem keep_v1_8_6 (c : Dev nD) : W8 m ρ c (Proc.devRef .tc main_v1) = W6 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keep hostOps2

theorem keep_v1_10_8 (c : Dev nD) : W10 m ρ c (Proc.devRef .tc main_v1) = W8 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keep hostOps3

theorem keep_v1_12_10 (c : Dev nD) : W12 m ρ c (Proc.devRef .tc main_v1) = W10 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := by host_keep hostOps4

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := by host_keep hostOps0_1

theorem keep_v3_6_2 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keep hostOps1
    _ = W3 m ρ c (Proc.devRef .tc main_v3) := W4_of_ne m ρ c main_v3 (by decide)
    _ = W2 m ρ c (Proc.devRef .tc main_v3) := by host_keep hostOps0_2

theorem keep_v3_8_6 (c : Dev nD) : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keep hostOps2

theorem keep_v3_10_8 (c : Dev nD) : W10 m ρ c (Proc.devRef .tc main_v3) = W8 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps3

theorem keep_v3_12_10 (c : Dev nD) : W12 m ρ c (Proc.devRef .tc main_v3) = W10 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by host_keep hostOps4

theorem keep_v28_6_3 (c : Dev nD) : W6 m ρ c (Proc.devRef .tc main_v28) = W3 m ρ c (Proc.devRef .tc main_v28) :=
  calc W6 m ρ c (Proc.devRef .tc main_v28)
    _ = W5 m ρ c (Proc.devRef .tc main_v28) := W6_of_ne m ρ c main_v28 (by decide)
    _ = W4 m ρ c (Proc.devRef .tc main_v28) := by host_keep hostOps1
    _ = W3 m ρ c (Proc.devRef .tc main_v28) := W4_of_ne m ρ c main_v28 (by decide)

theorem keep_v28_8_6 (c : Dev nD) : W8 m ρ c (Proc.devRef .tc main_v28) = W6 m ρ c (Proc.devRef .tc main_v28) :=
  calc W8 m ρ c (Proc.devRef .tc main_v28)
    _ = W7 m ρ c (Proc.devRef .tc main_v28) := W8_of_ne m ρ c main_v28 (by decide)
    _ = W6 m ρ c (Proc.devRef .tc main_v28) := by host_keep hostOps2

theorem keep_v28_10_8 (c : Dev nD) : W10 m ρ c (Proc.devRef .tc main_v28) = W8 m ρ c (Proc.devRef .tc main_v28) :=
  calc W10 m ρ c (Proc.devRef .tc main_v28)
    _ = W9 m ρ c (Proc.devRef .tc main_v28) := W10_of_ne m ρ c main_v28 (by decide)
    _ = W8 m ρ c (Proc.devRef .tc main_v28) := by host_keep hostOps3

theorem keep_v28_12_10 (c : Dev nD) : W12 m ρ c (Proc.devRef .tc main_v28) = W10 m ρ c (Proc.devRef .tc main_v28) :=
  calc W12 m ρ c (Proc.devRef .tc main_v28)
    _ = W11 m ρ c (Proc.devRef .tc main_v28) := W12_of_ne m ρ c main_v28 (by decide)
    _ = W10 m ρ c (Proc.devRef .tc main_v28) := by host_keep hostOps4

theorem keep_v30_6_4 (c : Dev nD) : W6 m ρ c (Proc.devRef .tc main_v30) = W4 m ρ c (Proc.devRef .tc main_v30) :=
  calc W6 m ρ c (Proc.devRef .tc main_v30)
    _ = W5 m ρ c (Proc.devRef .tc main_v30) := W6_of_ne m ρ c main_v30 (by decide)
    _ = W4 m ρ c (Proc.devRef .tc main_v30) := by host_keep hostOps1

theorem keep_v32_10_6 (c : Dev nD) : W10 m ρ c (Proc.devRef .tc main_v32) = W6 m ρ c (Proc.devRef .tc main_v32) :=
  calc W10 m ρ c (Proc.devRef .tc main_v32)
    _ = W9 m ρ c (Proc.devRef .tc main_v32) := W10_of_ne m ρ c main_v32 (by decide)
    _ = W8 m ρ c (Proc.devRef .tc main_v32) := by host_keep hostOps3
    _ = W7 m ρ c (Proc.devRef .tc main_v32) := W8_of_ne m ρ c main_v32 (by decide)
    _ = W6 m ρ c (Proc.devRef .tc main_v32) := by host_keep hostOps2

theorem keep_v34_9_7 (c : Dev nD) : W9 m ρ c (Proc.devRef .tc main_v34) = W7 m ρ c (Proc.devRef .tc main_v34) :=
  calc W9 m ρ c (Proc.devRef .tc main_v34)
    _ = W8 m ρ c (Proc.devRef .tc main_v34) := by host_keep hostOps3
    _ = W7 m ρ c (Proc.devRef .tc main_v34) := (W8_arr m ρ c 1).trans (((dat2 (V7 m ρ) c).arrAt_in 1 rfl _).trans (A_eq2 (V7 m ρ) c 1))

theorem keep_v70_15_10 (c : Dev nD) : W15 m ρ c (Proc.devRef .tc main_v70) = W10 m ρ c (Proc.devRef .tc main_v70) :=
  calc W15 m ρ c (Proc.devRef .tc main_v70)
    _ = W14 m ρ c (Proc.devRef .tc main_v70) := by host_keep hostOps6
    _ = W13 m ρ c (Proc.devRef .tc main_v70) := W14_of_ne m ρ c main_v70 (by decide)
    _ = W12 m ρ c (Proc.devRef .tc main_v70) := by host_keep hostOps5
    _ = W11 m ρ c (Proc.devRef .tc main_v70) := W12_of_ne m ρ c main_v70 (by decide)
    _ = W10 m ρ c (Proc.devRef .tc main_v70) := by host_keep hostOps4

theorem keep_v72_13_11 (c : Dev nD) : W13 m ρ c (Proc.devRef .tc main_v72) = W11 m ρ c (Proc.devRef .tc main_v72) :=
  calc W13 m ρ c (Proc.devRef .tc main_v72)
    _ = W12 m ρ c (Proc.devRef .tc main_v72) := by host_keep hostOps5
    _ = W11 m ρ c (Proc.devRef .tc main_v72) := (W12_arr m ρ c 1).trans (((dat4 (V11 m ρ) c).arrAt_in 1 rfl _).trans (A_eq4 (V11 m ρ) c 1))

theorem keep_v108_15_14 (c : Dev nD) : W15 m ρ c (Proc.devRef .tc main_v108) = W14 m ρ c (Proc.devRef .tc main_v108) :=
  calc W15 m ρ c (Proc.devRef .tc main_v108)
    _ = W14 m ρ c (Proc.devRef .tc main_v108) := by host_keep hostOps6

end Cert.KernelValue

end
-- ==== Proof.Stages.lean ====
/-
  The dense stages of the network, each as ONE function of whole arrays, spelt with the host operations of the
  reference program (so that the reference's own terms are these functions by unfolding):

  * `linRelu x w b`      : max (x · w + b, 0), rows of `x` against the columns of `w`, the bias row `b` repeated down the rows;
  * `combine p q a x w₁ w₂` : with h = (3/5-word) · a,  max (p·h + q·(h · w₁) + p·x + q·(x · w₂), 0), the sum taken left to right,
                             `p` and `q` the two scalar words of the layer;
  * `project h w b`      : h · w + b, the one bias entry repeated down the rows.

  Nothing here is evaluated: the scalar words stay words.
-/
import proofs.«111039_j16252156248255_1_alg».proof.ReferenceIdeal
import proofs.«111039_j16252156248255_1_alg».proof.Proof.Gen.ReferenceIdeal
import Idealize.ShloMosaic.PureOps.Ideal

noncomputable section

namespace Cert.Stages

open Idealize.ShloMosaic Cert.ReferenceIdeal Cert.ReferenceIdeal.Gen

variable {F : FTy → Type} [FloatOps F]

/-- The all-zero array of the hidden layer's shape, as the host spells it. -/
def zeros64 : FVec F S100000x64 .f32 :=
  broadcastInDim S100000x64 ![] bcast_S_S100000x64 (constant S_ .f32 0x00000000#32)

/-- A scalar word repeated over the hidden layer's shape. -/
def splat64 (w : BitVec 32) : FVec F S100000x64 .f32 :=
  broadcastInDim S100000x64 ![] bcast_S_S100000x64 (constant S_ .f32 w)

/-- max (x · w + b, 0) for the 500 input features. -/
def linRelu500 (x : FVec F S100000x500 .f32) (w : FVec F S500x64 .f32) (b : FVec F S1x64 .f32) : FVec F S100000x64 .f32 :=
  maximumf (addf (Host.dotGeneral dot_S100000x500_S500x64_S100000x64_1_0_0_1_n_n none x w)
    (broadcastInDim S100000x64 ![0, 1] bcast_S1x64_S100000x64_0_1 b)) zeros64

/-- max (x · w + b, 0) for the 58 structural features. -/
def linRelu58 (x : FVec F S100000x58 .f32) (w : FVec F S58x64 .f32) (b : FVec F S1x64 .f32) : FVec F S100000x64 .f32 :=
  maximumf (addf (Host.dotGeneral dot_S100000x58_S58x64_S100000x64_1_0_0_1_n_n none x w)
    (broadcastInDim S100000x64 ![0, 1] bcast_S1x64_S100000x64_0_1 b)) zeros64

/-- One propagation layer's dense half: h = (0x3F19999A-word) · a, then
    max (p · h + q · (h · w₁) + p · x + q · (x · w₂), 0), summed left to right. -/
def combine (p q : BitVec 32) (a x : FVec F S100000x64 .f32) (w₁ w₂ : FVec F S64x64 .f32) : FVec F S100000x64 .f32 :=
  maximumf
    (addf
      (addf
        (addf (mulf (splat64 p) (mulf (splat64 0x3F19999A#32) a))
          (mulf (splat64 q)
            (Host.dotGeneral dot_S100000x64_S64x64_S100000x64_1_0_0_1_n_n none (mulf (splat64 0x3F19999A#32) a) w₁)))
        (mulf (splat64 p) x))
      (mulf (splat64 q) (Host.dotGeneral dot_S100000x64_S64x64_S100000x64_1_0_0_1_n_n none x w₂)))
    zeros64

/-- h · w + b for one output column. -/
def project (h : FVec F S100000x64 .f32) (w : FVec F S64x1 .f32) (b : FVec F S1x1 .f32) : FVec F S100000x1 .f32 :=
  addf (Host.dotGeneral dot_S100000x64_S64x1_S100000x1_1_0_0_1_n_n none h w)
    (broadcastInDim S100000x1 ![0, 1] bcast_S1x1_S100000x1_0_1 b)

/-! ## The sparse half, as the host spells it (never opened: both programs apply the same operations) -/

/-- Row 0 of the edge list: the source node of every edge. -/
def srcOf (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000

/-- Row 1 of the edge list: the destination node of every edge. -/
def dstOf (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- A negative node index counted from the end: i ↦ if i < 0 then i + 100000 else i. -/
def wrapIdx (i : (⟨S1200000, .i32⟩ : BufTy).Contents (Elt F)) : (⟨S1200000, .i32⟩ : BufTy).Contents (Elt F) :=
  select (cmpi .slt i (broadcastInDim S1200000 ![] bcast_S_S1200000 (constantI S_ 32 0#32)))
    (addi i (broadcastInDim S1200000 ![] bcast_S_S1200000 (constantI S_ 32 100000#32))) i

/-- The number of edges into each node. -/
def degree (dst : (⟨S1200000, .i32⟩ : BufTy).Contents (Elt F)) : FVec F S100000 .f32 :=
  Host.scatterAdd scatter_S100000_S1200000x1_S1200000_n_0_0_1
    (broadcastInDim S100000 ![] bcast_S_S100000 (constant S_ .f32 0x00000000#32))
    (broadcastInDim S1200000x1 ![0] bcast_S1200000_S1200000x1_0 dst)
    (broadcastInDim S1200000 ![] bcast_S_S1200000 (constant S_ .f32 0x3F800000#32))

/-- deg ↦ if deg > 0 then rsqrt (max (deg, 0x2B8CBCCC-word)) else 0, node by node. -/
def invSqrtDegree (dst : (⟨S1200000, .i32⟩ : BufTy).Contents (Elt F)) : FVec F S100000 .f32 :=
  select (cmpf .ogt (degree dst) (broadcastInDim S100000 ![] bcast_S_S100000 (constant S_ .f32 0x00000000#32)))
    (Host.rsqrt (maximumf (degree dst) (broadcastInDim S100000 ![] bcast_S_S100000 (constant S_ .f32 0x2B8CBCCC#32))))
    (broadcastInDim S100000 ![] bcast_S_S100000 (id (constant S_ .f32 0x00000000#32)))

/-- The weight of every edge: the two end nodes' inverse square-root degrees multiplied. -/
def edgeWeight (src dst : (⟨S1200000, .i32⟩ : BufTy).Contents (Elt F)) : FVec F S1200000 .f32 :=
  mulf
    (Host.gather gather_S100000_S1200000x1_S1200000_n_0_n_n_0_1_1 (invSqrtDegree dst)
      (broadcastInDim S1200000x1 ![0] bcast_S1200000_S1200000x1_0 (wrapIdx src)))
    (Host.gather gather_S100000_S1200000x1_S1200000_n_0_n_n_0_1_1 (invSqrtDegree dst)
      (broadcastInDim S1200000x1 ![0] bcast_S1200000_S1200000x1_0 (wrapIdx dst)))

/-- One neighbourhood sum: every edge's weight times its source node's row, added into its destination node's row. -/
def aggregate (src dst : (⟨S1200000, .i32⟩ : BufTy).Contents (Elt F)) (nrm : FVec F S1200000 .f32)
    (x : FVec F S100000x64 .f32) : FVec F S100000x64 .f32 :=
  Host.scatterAdd scatter_S100000x64_S1200000x1_S1200000x64_1_0_0_1 zeros64
    (broadcastInDim S1200000x1 ![0] bcast_S1200000_S1200000x1_0 dst)
    (mulf
      (broadcastInDim S1200000x64 ![0, 1] bcast_S1200000x1_S1200000x64_0_1
        (broadcastInDim S1200000x1 ![0] bcast_S1200000_S1200000x1_0 nrm))
      (Host.gather gather_S100000x64_S1200000x1_S1200000x64_1_0_n_n_0_1_164 x
        (broadcastInDim S1200000x1 ![0] bcast_S1200000_S1200000x1_0 (wrapIdx src))))

/-- The first and the second 64×64 layer matrix of a stacked pair. -/
def layer0 (w : FVec F S2x64x64 .f32) : FVec F S64x64 .f32 :=
  shapeCast _ (extractStridedSlice S1x64x64 ![0, 0, 0] w slices_S2x64x64_S1x64x64_0_0_0) shapeCasts_S1x64x64_S64x64
def layer1 (w : FVec F S2x64x64 .f32) : FVec F S64x64 .f32 :=
  shapeCast _ (extractStridedSlice S1x64x64 ![1, 0, 0] w slices_S2x64x64_S1x64x64_1_0_0) shapeCasts_S1x64x64_S64x64

/-- A bias vector as one row; a single bias as a 1×1 array. -/
def biasRow (b : FVec F S64 .f32) : FVec F S1x64 .f32 := broadcastInDim S1x64 ![1] bcast_S64_S1x64_1 b
def biasOne (b : FVec F S1 .f32) : FVec F S1x1 .f32 := broadcastInDim S1x1 ![1] bcast_S1_S1x1_1 b

/-- Two propagation layers over the node features `x₀`: the residual input is the 0x3ECCCCCD-word times `x₀` in both. -/
def stack (e : (⟨S2x1200000, .i32⟩ : BufTy).Contents (Elt F)) (x₀ : FVec F S100000x64 .f32) (w₁ w₂ : FVec F S2x64x64 .f32) :
    FVec F S100000x64 .f32 :=
  combine 0x3F20E136#32 0x3EBE3D94#32
    (aggregate (srcOf e) (dstOf e) (edgeWeight (srcOf e) (dstOf e))
      (combine 0x3EB75EED#32 0x3F245089#32
        (aggregate (srcOf e) (dstOf e) (edgeWeight (srcOf e) (dstOf e)) x₀)
        (mulf (splat64 0x3ECCCCCD#32) x₀) (layer0 w₁) (layer0 w₂)))
    (mulf (splat64 0x3ECCCCCD#32) x₀) (layer1 w₁) (layer1 w₂)

/-- The network's two results as functions of its fifteen arguments. -/
def result0 (x : FVec F S100000x500 .f32) (e : (⟨S2x1200000, .i32⟩ : BufTy).Contents (Elt F)) (w : FVec F S500x64 .f32)
    (b : FVec F S64 .f32) (wo : FVec F S64x1 .f32) (bo : FVec F S1 .f32) (w₁ w₂ : FVec F S2x64x64 .f32) : FVec F S100000x1 .f32 :=
  project (stack e (linRelu500 x w (biasRow b)) w₁ w₂) wo (biasOne bo)
def result1 (x : FVec F S100000x58 .f32) (e : (⟨S2x1200000, .i32⟩ : BufTy).Contents (Elt F)) (w : FVec F S58x64 .f32)
    (b : FVec F S64 .f32) (wo : FVec F S64x1 .f32) (bo : FVec F S1 .f32) (w₁ w₂ : FVec F S2x64x64 .f32) : FVec F S100000x1 .f32 :=
  project (stack e (linRelu58 x w (biasRow b)) w₁ w₂) wo (biasOne bo)

end Cert.Stages

end
-- ==== Proof.FoldSteps.lean ====
/-
  What the host stretches between the regions of the idealized kernel compute, each from an arbitrary valuation `V` of the
  buffers it starts from: every result a later region or stretch reads, as a stage of Stages.lean applied to `V` at the
  stretch's operands.
-/
import proofs.«111039_j16252156248255_1_alg».proof.Proof.Gen.KernelIdeal.Launch
import proofs.«111039_j16252156248255_1_alg».proof.Proof.Stages
import Idealize.ShloMosaic.Lib.StableHlo.Run
import Idealize.ShloMosaic.PureOps.Ideal

set_option maxRecDepth 16384

noncomputable section

namespace Cert.KernelValue

open Idealize.ShloMosaic Idealize.ShloMosaic.TcCoe Idealize.SL.Sem Idealize.ShloMosaic.StableHlo
open Cert.KernelIdeal Cert.KernelIdeal.Gen

variable (V : Valuation τ sig (Elt Ideal))

/-! ## The first stretch: the edge list's two rows; the in-degree's two tests -/

theorem ops0_v1 : StableHlo.after (hostOps0 (F := Ideal)) V (Proc.devRef .tc main_v1) = Cert.Stages.srcOf (F := Ideal) (V (Proc.devRef .tc main_arg2)) := by
  after_results_simp <;> rfl

theorem ops0_v3 : StableHlo.after (hostOps0 (F := Ideal)) V (Proc.devRef .tc main_v3) = Cert.Stages.dstOf (F := Ideal) (V (Proc.devRef .tc main_arg2)) := by
  after_results_simp <;> rfl

theorem ops0_v9 :
    StableHlo.after (hostOps0 (F := Ideal)) V (Proc.devRef .tc main_v9)
      = cmpf .ogt (Cert.Stages.degree (F := Ideal) (Cert.Stages.dstOf (V (Proc.devRef .tc main_arg2))))
          (broadcastInDim S100000 ![] bcast_S_S100000 (constant (F := Ideal) S_ .f32 0x00000000#32)) := by
  after_results_simp <;> rfl

theorem ops0_v12 :
    StableHlo.after (hostOps0 (F := Ideal)) V (Proc.devRef .tc main_v12)
      = Host.rsqrt (maximumf (Cert.Stages.degree (F := Ideal) (Cert.Stages.dstOf (V (Proc.devRef .tc main_arg2))))
          (broadcastInDim S100000 ![] bcast_S_S100000 (constant (F := Ideal) S_ .f32 0x2B8CBCCC#32))) := by
  after_results_simp <;> rfl

theorem ops0_cst_3 : StableHlo.after (hostOps0 (F := Ideal)) V (Proc.devRef .tc main_cst_3) = constant (F := Ideal) S_ .f32 0x00000000#32 := by
  after_results_simp <;> rfl

/-! ## The second stretch: the choice "degree positive ? its inverse square root : 0", node by node -/

theorem ops0_1_v13 :
    StableHlo.after (hostOps0_1 (F := Ideal)) V (Proc.devRef .tc main_v13)
      = select (V (Proc.devRef .tc main_v9)) (V (Proc.devRef .tc main_v12))
          (broadcastInDim S100000 ![] bcast_S_S100000 (id (V (Proc.devRef .tc main_cst_3)))) := by
  after_results_simp <;> rfl

/-! ## The third stretch: every edge's weight; the first bias as a row -/

theorem ops0_2_v28 :
    StableHlo.after (hostOps0_2 (F := Ideal)) V (Proc.devRef .tc main_v28)
      = (mulf
          (Host.gather gather_S100000_S1200000x1_S1200000_n_0_n_n_0_1_1 (V (Proc.devRef .tc main_v13))
            (broadcastInDim S1200000x1 ![0] bcast_S1200000_S1200000x1_0 (Cert.Stages.wrapIdx (F := Ideal) (V (Proc.devRef .tc main_v1)))))
          (Host.gather gather_S100000_S1200000x1_S1200000_n_0_n_n_0_1_1 (V (Proc.devRef .tc main_v13))
            (broadcastInDim S1200000x1 ![0] bcast_S1200000_S1200000x1_0 (Cert.Stages.wrapIdx (F := Ideal) (V (Proc.devRef .tc main_v3))))) : FVec Ideal S1200000 .f32) := by
  after_results_simp <;> rfl

theorem ops0_2_v29 : StableHlo.after (hostOps0_2 (F := Ideal)) V (Proc.devRef .tc main_v29) = shapeCast S1x64 (V (Proc.devRef .tc main_arg4)) shapeCasts_S64_S1x64 := by
  after_results_simp <;> rfl

/-! ## Between the first two regions: the second bias as a row -/

theorem ops1_v31 : StableHlo.after (hostOps1 (F := Ideal)) V (Proc.devRef .tc main_v31) = shapeCast S1x64 (V (Proc.devRef .tc main_arg8)) shapeCasts_S64_S1x64 := by
  after_results_simp <;> rfl

/-! ## Before the first stack's first layer -/

theorem ops2_v34 : StableHlo.after (hostOps2 (F := Ideal)) V (Proc.devRef .tc main_v34) = mulf (Cert.Stages.splat64 (F := Ideal) 0x3ECCCCCD#32) (V (Proc.devRef .tc main_v30)) := by
  after_results_simp <;> rfl

theorem ops2_v47 :
    StableHlo.after (hostOps2 (F := Ideal)) V (Proc.devRef .tc main_v47)
      = Cert.Stages.aggregate (F := Ideal) (V (Proc.devRef .tc main_v1)) (V (Proc.devRef .tc main_v3)) (V (Proc.devRef .tc main_v28)) (V (Proc.devRef .tc main_v30)) := by
  after_results_simp <;> rfl

theorem ops2_v49 : StableHlo.after (hostOps2 (F := Ideal)) V (Proc.devRef .tc main_v49) = Cert.Stages.layer0 (F := Ideal) (V (Proc.devRef .tc main_arg11)) := by
  after_results_simp <;> rfl

theorem ops2_v51 : StableHlo.after (hostOps2 (F := Ideal)) V (Proc.devRef .tc main_v51) = Cert.Stages.layer0 (F := Ideal) (V (Proc.devRef .tc main_arg12)) := by
  after_results_simp <;> rfl

/-! ## Before the first stack's second layer -/

theorem ops3_v65 :
    StableHlo.after (hostOps3 (F := Ideal)) V (Proc.devRef .tc main_v65)
      = Cert.Stages.aggregate (F := Ideal) (V (Proc.devRef .tc main_v1)) (V (Proc.devRef .tc main_v3)) (V (Proc.devRef .tc main_v28)) (V (Proc.devRef .tc main_v52)) := by
  after_results_simp <;> rfl

theorem ops3_v67 : StableHlo.after (hostOps3 (F := Ideal)) V (Proc.devRef .tc main_v67) = Cert.Stages.layer1 (F := Ideal) (V (Proc.devRef .tc main_arg11)) := by
  after_results_simp <;> rfl

theorem ops3_v69 : StableHlo.after (hostOps3 (F := Ideal)) V (Proc.devRef .tc main_v69) = Cert.Stages.layer1 (F := Ideal) (V (Proc.devRef .tc main_arg12)) := by
  after_results_simp <;> rfl

/-! ## Before the second stack's first layer -/

theorem ops4_v72 : StableHlo.after (hostOps4 (F := Ideal)) V (Proc.devRef .tc main_v72) = mulf (Cert.Stages.splat64 (F := Ideal) 0x3ECCCCCD#32) (V (Proc.devRef .tc main_v32)) := by
  after_results_simp <;> rfl

theorem ops4_v85 :
    StableHlo.after (hostOps4 (F := Ideal)) V (Proc.devRef .tc main_v85)
      = Cert.Stages.aggregate (F := Ideal) (V (Proc.devRef .tc main_v1)) (V (Proc.devRef .tc main_v3)) (V (Proc.devRef .tc main_v28)) (V (Proc.devRef .tc main_v32)) := by
  after_results_simp <;> rfl

theorem ops4_v87 : StableHlo.after (hostOps4 (F := Ideal)) V (Proc.devRef .tc main_v87) = Cert.Stages.layer0 (F := Ideal) (V (Proc.devRef .tc main_arg13)) := by
  after_results_simp <;> rfl

theorem ops4_v89 : StableHlo.after (hostOps4 (F := Ideal)) V (Proc.devRef .tc main_v89) = Cert.Stages.layer0 (F := Ideal) (V (Proc.devRef .tc main_arg14)) := by
  after_results_simp <;> rfl

/-! ## Before the second stack's second layer -/

theorem ops5_v103 :
    StableHlo.after (hostOps5 (F := Ideal)) V (Proc.devRef .tc main_v103)
      = Cert.Stages.aggregate (F := Ideal) (V (Proc.devRef .tc main_v1)) (V (Proc.devRef .tc main_v3)) (V (Proc.devRef .tc main_v28)) (V (Proc.devRef .tc main_v90)) := by
  after_results_simp <;> rfl

theorem ops5_v105 : StableHlo.after (hostOps5 (F := Ideal)) V (Proc.devRef .tc main_v105) = Cert.Stages.layer1 (F := Ideal) (V (Proc.devRef .tc main_arg13)) := by
  after_results_simp <;> rfl

theorem ops5_v107 : StableHlo.after (hostOps5 (F := Ideal)) V (Proc.devRef .tc main_v107) = Cert.Stages.layer1 (F := Ideal) (V (Proc.devRef .tc main_arg14)) := by
  after_results_simp <;> rfl

/-! ## Before the last region: the two output biases as 1×1 arrays -/

theorem ops6_v109 : StableHlo.after (hostOps6 (F := Ideal)) V (Proc.devRef .tc main_v109) = shapeCast S1x1 (V (Proc.devRef .tc main_arg6)) shapeCasts_S1_S1x1 := by
  after_results_simp <;> rfl

theorem ops6_v110 : StableHlo.after (hostOps6 (F := Ideal)) V (Proc.devRef .tc main_v110) = shapeCast S1x1 (V (Proc.devRef .tc main_arg10)) shapeCasts_S1_S1x1 := by
  after_results_simp <;> rfl

end Cert.KernelValue

end
-- ==== Proof.BiasLayout.lean ====
/-
  A bias vector laid out as a row, two ways that give the same array: a shape cast of the 64-entry vector to 1×64
  reads entry `q` at (0, q) because the row-major positions agree, and the host's broadcast along the second axis
  reads entry `q` at (0, q) by definition. Likewise the single bias as a 1×1 array.
-/
import proofs.«111039_j16252156248255_1_alg».proof.KernelIdeal
import proofs.«111039_j16252156248255_1_alg».proof.Proof.Stages
import Idealize.ShloMosaic.Lib.Pipeline.Value
import Idealize.ShloMosaic.Lib.ValueIdx
import Idealize.ShloMosaic.PureOps.Ideal

noncomputable section

namespace Cert.KernelValue

open Idealize.ShloMosaic Idealize.ShloMosaic.ValueIdx

/-- The 64-entry bias cast to one row is the host's broadcast of it along the row. -/
theorem biasRow_eq (b : FVec Ideal Cert.KernelIdeal.S64 .f32) (h : Cert.KernelIdeal.S64.ShapeCasts Cert.KernelIdeal.S1x64) :
    shapeCast Cert.KernelIdeal.S1x64 b h = Cert.Stages.biasRow (F := Ideal) b := by
  funext j
  obtain ⟨p, q, rfl⟩ : ∃ (p : Fin 1) (q : Fin 64), j = ix2 p q := ⟨j 0, j 1, eq_ix2 j⟩
  have hp : p.val < 1 := p.isLt
  unfold Cert.Stages.biasRow
  refine (shapeCast_apply b h (ix2 p q) (ix1 q) ?_).trans (broadcastInDim_apply _ _ b (ix2 p q) (ix1 q) (fun a => match a with
    | ⟨0, _⟩ => by show q.val = if (64 : Nat) = 1 then 0 else q.val; rw [if_neg (by decide)])).symm
  rw [Shape.rowMajor_val_one, Shape.rowMajor_val_two]
  show q.val = p.val * 64 + q.val
  omega

/-- The single bias cast to a 1×1 array is the host's broadcast of it. -/
theorem biasOne_eq (b : FVec Ideal Cert.KernelIdeal.S1 .f32) (h : Cert.KernelIdeal.S1.ShapeCasts Cert.KernelIdeal.S1x1) :
    shapeCast Cert.KernelIdeal.S1x1 b h = Cert.Stages.biasOne (F := Ideal) b := by
  funext j
  obtain ⟨p, q, rfl⟩ : ∃ (p : Fin 1) (q : Fin 1), j = ix2 p q := ⟨j 0, j 1, eq_ix2 j⟩
  have hp : p.val < 1 := p.isLt
  have hq : q.val < 1 := q.isLt
  unfold Cert.Stages.biasOne
  refine (shapeCast_apply b h (ix2 p q) (ix1 q) ?_).trans (broadcastInDim_apply _ _ b (ix2 p q) (ix1 q) (fun a => match a with
    | ⟨0, _⟩ => by show q.val = if (1 : Nat) = 1 then 0 else q.val; rw [if_pos rfl]; omega)).symm
  rw [Shape.rowMajor_val_one, Shape.rowMajor_val_two]
  show q.val = p.val * 1 + q.val
  omega

end Cert.KernelValue

end
-- ==== Proof.RegionLinear0.lean ====
/-
  The first dense layer's region, read as one function of whole arrays: after the run the result array holds
  max (x · w + b, 0) — row i of the 500 feature columns of x against column j of w, plus entry j of the bias row,
  clipped below at zero — of the three arrays as the region finds them (`Cert.Stages.linRelu500`).

  The road: the host's stage and the body's arithmetic are each read at an index (r, q) as the same expression of
  their operands (a dot product over the 500 features, a row broadcast, a maximum with zero; at the ideal values
  the narrowing of the operands is the identity and the matrix product into a zero accumulator is the plain sum);
  block t of the features and of the result is rows 5000 t … 5000 t + 4999 of its array, the weight and bias
  blocks are the whole arrays at every point; so what point t writes back is block t of the stage function, and
  the twenty blocks cover the 100000 rows (row i by the point i / 5000).
-/
import proofs.«111039_j16252156248255_1_alg».proof.Proof.Gen.KernelIdeal.Frame
import proofs.«111039_j16252156248255_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelValue.RegionLinear0

open Idealize.ShloMosaic Idealize.ShloMosaic.TcCoe Idealize.SL.Sem
open Idealize.ShloMosaic.ValueIdx
open Cert.KernelIdeal Cert.KernelIdeal.Gen

/-! ## The two contractions' index functions -/

theorem hostDot_lhs0 (i : (⟨2, ![100000, 64]⟩ : Shape).Idx) (p : Cert.ReferenceIdeal.dot_S100000x500_S500x64_S100000x64_1_0_0_1_n_n.contr.Idx) :
    (Cert.ReferenceIdeal.dot_S100000x500_S500x64_S100000x64_1_0_0_1_n_n.lhsIdx i p 0).val = (i 0).val := by
  unfold DotDims.lhsIdx
  rw [dif_neg (show ¬(0 : Fin 2) ∈ Cert.ReferenceIdeal.dot_S100000x500_S500x64_S100000x64_1_0_0_1_n_n.lhsBatch by decide), dif_pos (show (0 : Fin 2) ∈ Cert.ReferenceIdeal.dot_S100000x500_S500x64_S100000x64_1_0_0_1_n_n.lhsNonContracting by decide)]
  rfl
theorem hostDot_lhs1 (i : (⟨2, ![100000, 64]⟩ : Shape).Idx) (p : Cert.ReferenceIdeal.dot_S100000x500_S500x64_S100000x64_1_0_0_1_n_n.contr.Idx) :
    (Cert.ReferenceIdeal.dot_S100000x500_S500x64_S100000x64_1_0_0_1_n_n.lhsIdx i p 1).val = (p ⟨0, by decide⟩).val :=
  Cert.ReferenceIdeal.dot_S100000x500_S500x64_S100000x64_1_0_0_1_n_n.lhsIdx_val_of_single rfl i p
theorem hostDot_rhs0 (i : (⟨2, ![100000, 64]⟩ : Shape).Idx) (p : Cert.ReferenceIdeal.dot_S100000x500_S500x64_S100000x64_1_0_0_1_n_n.contr.Idx) :
    (Cert.ReferenceIdeal.dot_S100000x500_S500x64_S100000x64_1_0_0_1_n_n.rhsIdx i p 0).val = (p ⟨0, by decide⟩).val :=
  Cert.ReferenceIdeal.dot_S100000x500_S500x64_S100000x64_1_0_0_1_n_n.rhsIdx_val_of_single rfl i p
theorem hostDot_rhs1 (i : (⟨2, ![100000, 64]⟩ : Shape).Idx) (p : Cert.ReferenceIdeal.dot_S100000x500_S500x64_S100000x64_1_0_0_1_n_n.contr.Idx) :
    (Cert.ReferenceIdeal.dot_S100000x500_S500x64_S100000x64_1_0_0_1_n_n.rhsIdx i p 1).val = (i 1).val := by
  unfold DotDims.rhsIdx
  rw [dif_neg (show ¬(1 : Fin 2) ∈ Cert.ReferenceIdeal.dot_S100000x500_S500x64_S100000x64_1_0_0_1_n_n.rhsBatch by decide), dif_pos (show (1 : Fin 2) ∈ Cert.ReferenceIdeal.dot_S100000x500_S500x64_S100000x64_1_0_0_1_n_n.rhsNonContracting by decide)]
  rfl

/-- The contraction's operand indices at output `(r, q)` and feature `k` are `(r, k)` and `(k, q)`. -/
theorem hostDot_idx (r : Fin 100000) (q : Fin 64) (k : Fin 500) :
    Cert.ReferenceIdeal.dot_S100000x500_S500x64_S100000x64_1_0_0_1_n_n.lhsIdx (ix2 r q) ((contrEquiv1 Cert.ReferenceIdeal.dot_S100000x500_S500x64_S100000x64_1_0_0_1_n_n 500 rfl rfl).symm k) = ix2 r k
    ∧ Cert.ReferenceIdeal.dot_S100000x500_S500x64_S100000x64_1_0_0_1_n_n.rhsIdx (ix2 r q) ((contrEquiv1 Cert.ReferenceIdeal.dot_S100000x500_S500x64_S100000x64_1_0_0_1_n_n 500 rfl rfl).symm k) = ix2 k q := by
  have hk := contrEquiv1_symm_val Cert.ReferenceIdeal.dot_S100000x500_S500x64_S100000x64_1_0_0_1_n_n 500 rfl rfl k
  constructor
  · funext a; apply Fin.ext
    match a with
    | ⟨0, _⟩ => exact hostDot_lhs0 _ _
    | ⟨1, _⟩ => exact (hostDot_lhs1 _ _).trans hk
  · funext a; apply Fin.ext
    match a with
    | ⟨0, _⟩ => exact (hostDot_rhs0 _ _).trans hk
    | ⟨1, _⟩ => exact hostDot_rhs1 _ _

theorem kerDot_lhs0 (i : (⟨2, ![5000, 64]⟩ : Shape).Idx) (p : dot_S5000x500_S500x64_S5000x64_1_0_0_1_n_n.contr.Idx) :
    (dot_S5000x500_S500x64_S5000x64_1_0_0_1_n_n.lhsIdx i p 0).val = (i 0).val := by
  unfold DotDims.lhsIdx
  rw [dif_neg (show ¬(0 : Fin 2) ∈ dot_S5000x500_S500x64_S5000x64_1_0_0_1_n_n.lhsBatch by decide), dif_pos (show (0 : Fin 2) ∈ dot_S5000x500_S500x64_S5000x64_1_0_0_1_n_n.lhsNonContracting by decide)]
  rfl
theorem kerDot_lhs1 (i : (⟨2, ![5000, 64]⟩ : Shape).Idx) (p : dot_S5000x500_S500x64_S5000x64_1_0_0_1_n_n.contr.Idx) :
    (dot_S5000x500_S500x64_S5000x64_1_0_0_1_n_n.lhsIdx i p 1).val = (p ⟨0, by decide⟩).val :=
  dot_S5000x500_S500x64_S5000x64_1_0_0_1_n_n.lhsIdx_val_of_single rfl i p
theorem kerDot_rhs0 (i : (⟨2, ![5000, 64]⟩ : Shape).Idx) (p : dot_S5000x500_S500x64_S5000x64_1_0_0_1_n_n.contr.Idx) :
    (dot_S5000x500_S500x64_S5000x64_1_0_0_1_n_n.rhsIdx i p 0).val = (p ⟨0, by decide⟩).val :=
  dot_S5000x500_S500x64_S5000x64_1_0_0_1_n_n.rhsIdx_val_of_single rfl i p
theorem kerDot_rhs1 (i : (⟨2, ![5000, 64]⟩ : Shape).Idx) (p : dot_S5000x500_S500x64_S5000x64_1_0_0_1_n_n.contr.Idx) :
    (dot_S5000x500_S500x64_S5000x64_1_0_0_1_n_n.rhsIdx i p 1).val = (i 1).val := by
  unfold DotDims.rhsIdx
  rw [dif_neg (show ¬(1 : Fin 2) ∈ dot_S5000x500_S500x64_S5000x64_1_0_0_1_n_n.rhsBatch by decide), dif_pos (show (1 : Fin 2) ∈ dot_S5000x500_S500x64_S5000x64_1_0_0_1_n_n.rhsNonContracting by decide)]
  rfl

/-- The contraction's operand indices at output `(r, q)` and feature `k` are `(r, k)` and `(k, q)`. -/
theorem kerDot_idx (r : Fin 5000) (q : Fin 64) (k : Fin 500) :
    dot_S5000x500_S500x64_S5000x64_1_0_0_1_n_n.lhsIdx (ix2 r q) ((contrEquiv1 dot_S5000x500_S500x64_S5000x64_1_0_0_1_n_n 500 rfl rfl).symm k) = ix2 r k
    ∧ dot_S5000x500_S500x64_S5000x64_1_0_0_1_n_n.rhsIdx (ix2 r q) ((contrEquiv1 dot_S5000x500_S500x64_S5000x64_1_0_0_1_n_n 500 rfl rfl).symm k) = ix2 k q := by
  have hk := contrEquiv1_symm_val dot_S5000x500_S500x64_S5000x64_1_0_0_1_n_n 500 rfl rfl k
  constructor
  · funext a; apply Fin.ext
    match a with
    | ⟨0, _⟩ => exact kerDot_lhs0 _ _
    | ⟨1, _⟩ => exact (kerDot_lhs1 _ _).trans hk
  · funext a; apply Fin.ext
    match a with
    | ⟨0, _⟩ => exact (kerDot_rhs0 _ _).trans hk
    | ⟨1, _⟩ => exact kerDot_rhs1 _ _

/-! ## The host's stage at an index -/

/-- The host's dot product at row `r`, column `q`: the sum over the 500 features. -/
theorem hostDot_apply (x : FVec Ideal Cert.ReferenceIdeal.S100000x500 .f32) (w : FVec Ideal Cert.ReferenceIdeal.S500x64 .f32)
    (r : Fin 100000) (q : Fin 64) :
    Host.dotGeneral Cert.ReferenceIdeal.dot_S100000x500_S500x64_S100000x64_1_0_0_1_n_n none x w (ix2 r q) = ∑ k : Fin 500, x (ix2 r k) * w (ix2 k q) := by
  simp only [Host.dotGeneral]
  rw [Ideal.dotGeneral_apply, ← Equiv.sum_comp (contrEquiv1 Cert.ReferenceIdeal.dot_S100000x500_S500x64_S100000x64_1_0_0_1_n_n 500 rfl rfl).symm]
  refine Finset.sum_congr rfl fun k _ => ?_
  rw [(hostDot_idx r q k).1, (hostDot_idx r q k).2]

/-- The kernel's matrix product into a zero accumulator at row `r`, column `q` of a block. -/
theorem kerDot_apply (x : FVec Ideal S5000x500 .bf16) (w : FVec Ideal S500x64 .bf16) (r : Fin 5000) (q : Fin 64) :
    matmul dot_S5000x500_S500x64_S5000x64_1_0_0_1_n_n none x w (constant S5000x64 .f32 0x00000000#32) (ix2 r q) = ∑ k : Fin 500, x (ix2 r k) * w (ix2 k q) := by
  simp only [matmul]
  rw [Ideal.matmul_constant_zero_apply, ← Equiv.sum_comp (contrEquiv1 dot_S5000x500_S500x64_S5000x64_1_0_0_1_n_n 500 rfl rfl).symm]
  refine Finset.sum_congr rfl fun k _ => ?_
  rw [(kerDot_idx r q k).1, (kerDot_idx r q k).2]

/-- The host's stage at row `r`, column `q`: the dot product plus the bias entry of column `q`, clipped below at zero. -/
theorem linRelu500_apply (x : FVec Ideal Cert.ReferenceIdeal.S100000x500 .f32) (w : FVec Ideal Cert.ReferenceIdeal.S500x64 .f32)
    (b : FVec Ideal Cert.ReferenceIdeal.S1x64 .f32) (r : Fin 100000) (q : Fin 64) :
    Cert.Stages.linRelu500 (F := Ideal) x w b (ix2 r q)
      = max ((∑ k : Fin 500, x (ix2 r k) * w (ix2 k q)) + b (ix2 0 q)) 0 := by
  unfold Cert.Stages.linRelu500 Cert.Stages.zeros64
  rw [maximumf_apply, addf_apply, hostDot_apply]
  rw [broadcastInDim_apply _ _ b (ix2 r q) (ix2 0 q) (fun a => match a with
    | ⟨0, _⟩ => by show 0 = if (1 : Nat) = 1 then 0 else r.val; rw [if_pos rfl]
    | ⟨1, _⟩ => by show q.val = if (64 : Nat) = 1 then 0 else q.val; rw [if_neg (by decide)])]
  rw [broadcastInDim_apply _ _ (constant (F := Ideal) Cert.ReferenceIdeal.S_ .f32 0x00000000#32) (ix2 r q) ix0 (fun a => a.elim0)]
  rw [constant_apply, Ideal.ofBits_zero_f32]

/-! ## The body's arithmetic at an index -/

/-- What the body stores at row `r`, column `q` of its block: the same expression of the three loaded blocks. -/
theorem pay_apply (x0 : Vec Ideal S5000x500 .f32) (x1 : Vec Ideal S500x64 .f32) (x2 : Vec Ideal S1x64 .f32) (r : Fin 5000) (q : Fin 64) :
    k0_pay1 (F := Ideal) x0 x1 x2 (ix2 r q) = max ((∑ k : Fin 500, x0 (ix2 r k) * x1 (ix2 k q)) + x2 (ix2 0 q)) 0 := by
  unfold k0_pay1
  rw [maximumf_apply, addf_apply, kerDot_apply, shapeCast_self, broadcast_apply]
  rw [broadcastTo_apply x2 _ (ix2 r q) (ix2 0 q) (fun a => match a with
    | ⟨0, _⟩ => by show 0 = if (1 : Nat) = 1 then 0 else r.val; rw [if_pos rfl]
    | ⟨1, _⟩ => by show q.val = if (64 : Nat) = 1 then 0 else q.val; rw [if_neg (by decide)])]
  simp only [truncf_apply]
  show _ = max _ 0
  rw [← Ideal.ofBits_zero_f32]
  rfl

/-! ## From blocks to the array -/

theorem hz : (![0, 0] : Fin 2 → Nat) = fun _ => 0 := funext fun a => by fin_cases a <;> rfl

/-- The printed index maps over the grid: the row blocks of the features and of the result move with the point,
    the weights and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the feature block at point `t` is row `5000 t + r` of the feature array. -/
theorem xblk_apply (V : (c : Dev nD) → (b : Ref sig .tc) → Buf (Elt Ideal) ((c : Thread nD τ).loc b)) (c : Dev nD) (t : Fin cfg0.N) (r : Fin 5000) (k : Fin 500)
    (R : Fin 100000) (hR : R.val = 5000 * t.val + r.val) :
    (iblk0 V c 0 t : Vec Ideal S5000x500 .f32) (ix2 r k) = (V c (Pipeline.arrRef spec0 0) : S100000x500.Idx → EReal) (ix2 R k) := by
  obtain ⟨e0, e1, -⟩ := idx_facts t
  have hemb : ((cfg0.win 0).blk t).view.emb (ix2 r k) = ix2 R k := by
    funext a; apply Fin.ext
    match a with
    | ⟨0, _⟩ => show win0_0.index t (0 : Fin 2) * 5000 + 1 * r.val = R.val; omega
    | ⟨1, _⟩ => show win0_0.index t (1 : Fin 2) * 500 + 1 * k.val = k.val; omega
  unfold iblk0
  rw [View.read_apply, hemb]
  rfl

/-- The weight block at every point is the weight array. -/
theorem wblk_apply (V : (c : Dev nD) → (b : Ref sig .tc) → Buf (Elt Ideal) ((c : Thread nD τ).loc b)) (c : Dev nD) (t : Fin cfg0.N) (k : Fin 500) (q : Fin 64) :
    (iblk0 V c 1 t : Vec Ideal S500x64 .f32) (ix2 k q) = (V c (Pipeline.arrRef spec0 1) : S500x64.Idx → EReal) (ix2 k q) := by
  obtain ⟨-, -, e0, e1, -⟩ := idx_facts t
  have hemb : ((cfg0.win 1).blk t).view.emb (ix2 k q) = ix2 k q := by
    funext a; apply Fin.ext
    match a with
    | ⟨0, _⟩ => show win0_1.index t (0 : Fin 2) * 500 + 1 * k.val = k.val; omega
    | ⟨1, _⟩ => show win0_1.index t (1 : Fin 2) * 64 + 1 * q.val = q.val; omega
  unfold iblk0
  rw [View.read_apply, hemb]
  rfl

/-- The bias block at every point is the bias row. -/
theorem bblk_apply (V : (c : Dev nD) → (b : Ref sig .tc) → Buf (Elt Ideal) ((c : Thread nD τ).loc b)) (c : Dev nD) (t : Fin cfg0.N) (q : Fin 64) :
    (iblk0 V c 2 t : Vec Ideal S1x64 .f32) (ix2 0 q) = (V c (Pipeline.arrRef spec0 2) : S1x64.Idx → EReal) (ix2 0 q) := by
  obtain ⟨-, -, -, -, e0, e1, -⟩ := idx_facts t
  have hemb : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  unfold iblk0
  rw [View.read_apply, hemb]
  rfl

/-- What point `t` writes back is block `t` of the stage function of the three arrays as the region finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal)
          (Cert.Stages.linRelu500 (F := Ideal) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x500) hz, View.ld_unit_zero (S := S500x64) hz, View.ld_unit_zero (S := S1x64) hz]
  funext j
  obtain ⟨r, q, rfl⟩ : ∃ (r : Fin 5000) (q : Fin 64), j = ix2 r q := ⟨j 0, j 1, eq_ix2 j⟩
  obtain ⟨-, -, -, -, -, -, e0, e1⟩ := idx_facts t
  have ht : t.val < 20 := t.isLt
  have hemb : ((cfg0.win 3).blk t).view.emb (ix2 r q) = ix2 (⟨5000 * t.val + r.val, by omega⟩ : Fin 100000) q := by
    funext a; apply Fin.ext
    match a with
    | ⟨0, _⟩ => show win0_3.index t (0 : Fin 2) * 5000 + 1 * r.val = 5000 * t.val + r.val; omega
    | ⟨1, _⟩ => show win0_3.index t (1 : Fin 2) * 64 + 1 * q.val = q.val; omega
  rw [View.read_apply, hemb]
  refine (pay_apply _ _ _ r q).trans ((linRelu500_apply _ _ _ _ q).trans ?_).symm
  rw [bblk_apply V c t q]
  refine congrArg (fun s => max (s + _) 0) (Finset.sum_congr rfl fun k _ => ?_)
  rw [xblk_apply V c t r k ⟨5000 * t.val + r.val, by omega⟩ rfl, wblk_apply V c t k q]

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v30).slice (win0_3.rect t)).set ↔ _
  rw [View.set_slice_whole, Rect.mem_set_unit]
  exact Iff.rfl

/-- Row `i 0` of the result is written back by the point `i 0 / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 5000 < 20 := by omega
  obtain ⟨-, -, -, -, -, -, e0, e1⟩ := idx_facts ⟨(i 0).val / 5000, hN⟩
  refine ⟨⟨(i 0).val / 5000, hN⟩, flush0_3 _, ?_⟩
  rw [mem_blk]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    have e0' : win0_3.index ⟨(i 0).val / 5000, hN⟩ (0 : Fin 2) = (i 0).val / 5000 := e0
    omega
  | ⟨1, _⟩ =>
    show win0_3.index ⟨(i 0).val / 5000, hN⟩ (1 : Fin 2) * 64 ≤ (i 1).val ∧ (i 1).val < win0_3.index ⟨(i 0).val / 5000, hN⟩ (1 : Fin 2) * 64 + 64
    omega

end Cert.KernelValue.RegionLinear0

namespace Cert.KernelValue

open Idealize.ShloMosaic Idealize.ShloMosaic.TcCoe Idealize.SL.Sem
open Cert.KernelIdeal Cert.KernelIdeal.Gen

/-- The first linear layer's region: its result array after the run is the stage function of the feature array,
    the weights and the bias row as the region finds them. -/
theorem region0_value (V : (c : Dev nD) → (b : Ref sig .tc) → Buf (Elt Ideal) ((c : Thread nD τ).loc b)) (c : Dev nD) :
    (dat0 (F := Ideal) V c).arrAt 3 cfg0.N
      = Cert.Stages.linRelu500 (F := Ideal) (V c (Pipeline.arrRef spec0 0)) (V c (Pipeline.arrRef spec0 1)) (V c (Pipeline.arrRef spec0 2)) :=
  (dat0 (F := Ideal) V c).arrAt_eq_of_cover 3 _ (fun t _ => RegionLinear0.flushed_eq V c t) RegionLinear0.cover

end Cert.KernelValue

end
-- ==== Proof.RegionLinear1.lean ====
/-
  The second dense layer's region, read as one function of whole arrays: after the run the result array holds
  max (x · w + b, 0) — row i of the 58 feature columns of x against column j of w, plus entry j of the bias row,
  clipped below at zero — of the three arrays as the region finds them (`Cert.Stages.linRelu58`).

  The road: the host's stage and the body's arithmetic are each read at an index (r, q) as the same expression of
  their operands (a dot product over the 58 features, a row broadcast, a maximum with zero; at the ideal values
  the narrowing of the operands is the identity and the matrix product into a zero accumulator is the plain sum);
  block t of the features and of the result is rows 5000 t … 5000 t + 4999 of its array, the weight and bias
  blocks are the whole arrays at every point; so what point t writes back is block t of the stage function, and
  the twenty blocks cover the 100000 rows (row i by the point i / 5000).
-/
import proofs.«111039_j16252156248255_1_alg».proof.Proof.Gen.KernelIdeal.Frame
import proofs.«111039_j16252156248255_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelValue.RegionLinear1

open Idealize.ShloMosaic Idealize.ShloMosaic.TcCoe Idealize.SL.Sem
open Idealize.ShloMosaic.ValueIdx
open Cert.KernelIdeal Cert.KernelIdeal.Gen

/-! ## The two contractions' index functions -/

theorem hostDot_lhs0 (i : (⟨2, ![100000, 64]⟩ : Shape).Idx) (p : Cert.ReferenceIdeal.dot_S100000x58_S58x64_S100000x64_1_0_0_1_n_n.contr.Idx) :
    (Cert.ReferenceIdeal.dot_S100000x58_S58x64_S100000x64_1_0_0_1_n_n.lhsIdx i p 0).val = (i 0).val := by
  unfold DotDims.lhsIdx
  rw [dif_neg (show ¬(0 : Fin 2) ∈ Cert.ReferenceIdeal.dot_S100000x58_S58x64_S100000x64_1_0_0_1_n_n.lhsBatch by decide), dif_pos (show (0 : Fin 2) ∈ Cert.ReferenceIdeal.dot_S100000x58_S58x64_S100000x64_1_0_0_1_n_n.lhsNonContracting by decide)]
  rfl
theorem hostDot_lhs1 (i : (⟨2, ![100000, 64]⟩ : Shape).Idx) (p : Cert.ReferenceIdeal.dot_S100000x58_S58x64_S100000x64_1_0_0_1_n_n.contr.Idx) :
    (Cert.ReferenceIdeal.dot_S100000x58_S58x64_S100000x64_1_0_0_1_n_n.lhsIdx i p 1).val = (p ⟨0, by decide⟩).val :=
  Cert.ReferenceIdeal.dot_S100000x58_S58x64_S100000x64_1_0_0_1_n_n.lhsIdx_val_of_single rfl i p
theorem hostDot_rhs0 (i : (⟨2, ![100000, 64]⟩ : Shape).Idx) (p : Cert.ReferenceIdeal.dot_S100000x58_S58x64_S100000x64_1_0_0_1_n_n.contr.Idx) :
    (Cert.ReferenceIdeal.dot_S100000x58_S58x64_S100000x64_1_0_0_1_n_n.rhsIdx i p 0).val = (p ⟨0, by decide⟩).val :=
  Cert.ReferenceIdeal.dot_S100000x58_S58x64_S100000x64_1_0_0_1_n_n.rhsIdx_val_of_single rfl i p
theorem hostDot_rhs1 (i : (⟨2, ![100000, 64]⟩ : Shape).Idx) (p : Cert.ReferenceIdeal.dot_S100000x58_S58x64_S100000x64_1_0_0_1_n_n.contr.Idx) :
    (Cert.ReferenceIdeal.dot_S100000x58_S58x64_S100000x64_1_0_0_1_n_n.rhsIdx i p 1).val = (i 1).val := by
  unfold DotDims.rhsIdx
  rw [dif_neg (show ¬(1 : Fin 2) ∈ Cert.ReferenceIdeal.dot_S100000x58_S58x64_S100000x64_1_0_0_1_n_n.rhsBatch by decide), dif_pos (show (1 : Fin 2) ∈ Cert.ReferenceIdeal.dot_S100000x58_S58x64_S100000x64_1_0_0_1_n_n.rhsNonContracting by decide)]
  rfl

/-- The contraction's operand indices at output `(r, q)` and feature `k` are `(r, k)` and `(k, q)`. -/
theorem hostDot_idx (r : Fin 100000) (q : Fin 64) (k : Fin 58) :
    Cert.ReferenceIdeal.dot_S100000x58_S58x64_S100000x64_1_0_0_1_n_n.lhsIdx (ix2 r q) ((contrEquiv1 Cert.ReferenceIdeal.dot_S100000x58_S58x64_S100000x64_1_0_0_1_n_n 58 rfl rfl).symm k) = ix2 r k
    ∧ Cert.ReferenceIdeal.dot_S100000x58_S58x64_S100000x64_1_0_0_1_n_n.rhsIdx (ix2 r q) ((contrEquiv1 Cert.ReferenceIdeal.dot_S100000x58_S58x64_S100000x64_1_0_0_1_n_n 58 rfl rfl).symm k) = ix2 k q := by
  have hk := contrEquiv1_symm_val Cert.ReferenceIdeal.dot_S100000x58_S58x64_S100000x64_1_0_0_1_n_n 58 rfl rfl k
  constructor
  · funext a; apply Fin.ext
    match a with
    | ⟨0, _⟩ => exact hostDot_lhs0 _ _
    | ⟨1, _⟩ => exact (hostDot_lhs1 _ _).trans hk
  · funext a; apply Fin.ext
    match a with
    | ⟨0, _⟩ => exact (hostDot_rhs0 _ _).trans hk
    | ⟨1, _⟩ => exact hostDot_rhs1 _ _

theorem kerDot_lhs0 (i : (⟨2, ![5000, 64]⟩ : Shape).Idx) (p : dot_S5000x58_S58x64_S5000x64_1_0_0_1_n_n.contr.Idx) :
    (dot_S5000x58_S58x64_S5000x64_1_0_0_1_n_n.lhsIdx i p 0).val = (i 0).val := by
  unfold DotDims.lhsIdx
  rw [dif_neg (show ¬(0 : Fin 2) ∈ dot_S5000x58_S58x64_S5000x64_1_0_0_1_n_n.lhsBatch by decide), dif_pos (show (0 : Fin 2) ∈ dot_S5000x58_S58x64_S5000x64_1_0_0_1_n_n.lhsNonContracting by decide)]
  rfl
theorem kerDot_lhs1 (i : (⟨2, ![5000, 64]⟩ : Shape).Idx) (p : dot_S5000x58_S58x64_S5000x64_1_0_0_1_n_n.contr.Idx) :
    (dot_S5000x58_S58x64_S5000x64_1_0_0_1_n_n.lhsIdx i p 1).val = (p ⟨0, by decide⟩).val :=
  dot_S5000x58_S58x64_S5000x64_1_0_0_1_n_n.lhsIdx_val_of_single rfl i p
theorem kerDot_rhs0 (i : (⟨2, ![5000, 64]⟩ : Shape).Idx) (p : dot_S5000x58_S58x64_S5000x64_1_0_0_1_n_n.contr.Idx) :
    (dot_S5000x58_S58x64_S5000x64_1_0_0_1_n_n.rhsIdx i p 0).val = (p ⟨0, by decide⟩).val :=
  dot_S5000x58_S58x64_S5000x64_1_0_0_1_n_n.rhsIdx_val_of_single rfl i p
theorem kerDot_rhs1 (i : (⟨2, ![5000, 64]⟩ : Shape).Idx) (p : dot_S5000x58_S58x64_S5000x64_1_0_0_1_n_n.contr.Idx) :
    (dot_S5000x58_S58x64_S5000x64_1_0_0_1_n_n.rhsIdx i p 1).val = (i 1).val := by
  unfold DotDims.rhsIdx
  rw [dif_neg (show ¬(1 : Fin 2) ∈ dot_S5000x58_S58x64_S5000x64_1_0_0_1_n_n.rhsBatch by decide), dif_pos (show (1 : Fin 2) ∈ dot_S5000x58_S58x64_S5000x64_1_0_0_1_n_n.rhsNonContracting by decide)]
  rfl

/-- The contraction's operand indices at output `(r, q)` and feature `k` are `(r, k)` and `(k, q)`. -/
theorem kerDot_idx (r : Fin 5000) (q : Fin 64) (k : Fin 58) :
    dot_S5000x58_S58x64_S5000x64_1_0_0_1_n_n.lhsIdx (ix2 r q) ((contrEquiv1 dot_S5000x58_S58x64_S5000x64_1_0_0_1_n_n 58 rfl rfl).symm k) = ix2 r k
    ∧ dot_S5000x58_S58x64_S5000x64_1_0_0_1_n_n.rhsIdx (ix2 r q) ((contrEquiv1 dot_S5000x58_S58x64_S5000x64_1_0_0_1_n_n 58 rfl rfl).symm k) = ix2 k q := by
  have hk := contrEquiv1_symm_val dot_S5000x58_S58x64_S5000x64_1_0_0_1_n_n 58 rfl rfl k
  constructor
  · funext a; apply Fin.ext
    match a with
    | ⟨0, _⟩ => exact kerDot_lhs0 _ _
    | ⟨1, _⟩ => exact (kerDot_lhs1 _ _).trans hk
  · funext a; apply Fin.ext
    match a with
    | ⟨0, _⟩ => exact (kerDot_rhs0 _ _).trans hk
    | ⟨1, _⟩ => exact kerDot_rhs1 _ _

/-! ## The host's stage at an index -/

/-- The host's dot product at row `r`, column `q`: the sum over the 58 features. -/
theorem hostDot_apply (x : FVec Ideal Cert.ReferenceIdeal.S100000x58 .f32) (w : FVec Ideal Cert.ReferenceIdeal.S58x64 .f32)
    (r : Fin 100000) (q : Fin 64) :
    Host.dotGeneral Cert.ReferenceIdeal.dot_S100000x58_S58x64_S100000x64_1_0_0_1_n_n none x w (ix2 r q) = ∑ k : Fin 58, x (ix2 r k) * w (ix2 k q) := by
  simp only [Host.dotGeneral]
  rw [Ideal.dotGeneral_apply, ← Equiv.sum_comp (contrEquiv1 Cert.ReferenceIdeal.dot_S100000x58_S58x64_S100000x64_1_0_0_1_n_n 58 rfl rfl).symm]
  refine Finset.sum_congr rfl fun k _ => ?_
  rw [(hostDot_idx r q k).1, (hostDot_idx r q k).2]

/-- The kernel's matrix product into a zero accumulator at row `r`, column `q` of a block. -/
theorem kerDot_apply (x : FVec Ideal S5000x58 .bf16) (w : FVec Ideal S58x64 .bf16) (r : Fin 5000) (q : Fin 64) :
    matmul dot_S5000x58_S58x64_S5000x64_1_0_0_1_n_n none x w (constant S5000x64 .f32 0x00000000#32) (ix2 r q) = ∑ k : Fin 58, x (ix2 r k) * w (ix2 k q) := by
  simp only [matmul]
  rw [Ideal.matmul_constant_zero_apply, ← Equiv.sum_comp (contrEquiv1 dot_S5000x58_S58x64_S5000x64_1_0_0_1_n_n 58 rfl rfl).symm]
  refine Finset.sum_congr rfl fun k _ => ?_
  rw [(kerDot_idx r q k).1, (kerDot_idx r q k).2]

/-- The host's stage at row `r`, column `q`: the dot product plus the bias entry of column `q`, clipped below at zero. -/
theorem linRelu58_apply (x : FVec Ideal Cert.ReferenceIdeal.S100000x58 .f32) (w : FVec Ideal Cert.ReferenceIdeal.S58x64 .f32)
    (b : FVec Ideal Cert.ReferenceIdeal.S1x64 .f32) (r : Fin 100000) (q : Fin 64) :
    Cert.Stages.linRelu58 (F := Ideal) x w b (ix2 r q)
      = max ((∑ k : Fin 58, x (ix2 r k) * w (ix2 k q)) + b (ix2 0 q)) 0 := by
  unfold Cert.Stages.linRelu58 Cert.Stages.zeros64
  rw [maximumf_apply, addf_apply, hostDot_apply]
  rw [broadcastInDim_apply _ _ b (ix2 r q) (ix2 0 q) (fun a => match a with
    | ⟨0, _⟩ => by show 0 = if (1 : Nat) = 1 then 0 else r.val; rw [if_pos rfl]
    | ⟨1, _⟩ => by show q.val = if (64 : Nat) = 1 then 0 else q.val; rw [if_neg (by decide)])]
  rw [broadcastInDim_apply _ _ (constant (F := Ideal) Cert.ReferenceIdeal.S_ .f32 0x00000000#32) (ix2 r q) ix0 (fun a => a.elim0)]
  rw [constant_apply, Ideal.ofBits_zero_f32]

/-! ## The body's arithmetic at an index -/

/-- What the body stores at row `r`, column `q` of its block: the same expression of the three loaded blocks. -/
theorem pay_apply (x0 : Vec Ideal S5000x58 .f32) (x1 : Vec Ideal S58x64 .f32) (x2 : Vec Ideal S1x64 .f32) (r : Fin 5000) (q : Fin 64) :
    k1_pay1 (F := Ideal) x0 x1 x2 (ix2 r q) = max ((∑ k : Fin 58, x0 (ix2 r k) * x1 (ix2 k q)) + x2 (ix2 0 q)) 0 := by
  unfold k1_pay1
  rw [maximumf_apply, addf_apply, kerDot_apply, shapeCast_self, broadcast_apply]
  rw [broadcastTo_apply x2 _ (ix2 r q) (ix2 0 q) (fun a => match a with
    | ⟨0, _⟩ => by show 0 = if (1 : Nat) = 1 then 0 else r.val; rw [if_pos rfl]
    | ⟨1, _⟩ => by show q.val = if (64 : Nat) = 1 then 0 else q.val; rw [if_neg (by decide)])]
  simp only [truncf_apply]
  show _ = max _ 0
  rw [← Ideal.ofBits_zero_f32]
  rfl

/-! ## From blocks to the array -/

theorem hz : (![0, 0] : Fin 2 → Nat) = fun _ => 0 := funext fun a => by fin_cases a <;> rfl

/-- The printed index maps over the grid: the row blocks of the features and of the result move with the point,
    the weights and the bias row stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of the feature block at point `t` is row `5000 t + r` of the feature array. -/
theorem xblk_apply (V : (c : Dev nD) → (b : Ref sig .tc) → Buf (Elt Ideal) ((c : Thread nD τ).loc b)) (c : Dev nD) (t : Fin cfg1.N) (r : Fin 5000) (k : Fin 58)
    (R : Fin 100000) (hR : R.val = 5000 * t.val + r.val) :
    (iblk1 V c 0 t : Vec Ideal S5000x58 .f32) (ix2 r k) = (V c (Pipeline.arrRef spec1 0) : S100000x58.Idx → EReal) (ix2 R k) := by
  obtain ⟨e0, e1, -⟩ := idx_facts t
  have hemb : ((cfg1.win 0).blk t).view.emb (ix2 r k) = ix2 R k := by
    funext a; apply Fin.ext
    match a with
    | ⟨0, _⟩ => show win1_0.index t (0 : Fin 2) * 5000 + 1 * r.val = R.val; omega
    | ⟨1, _⟩ => show win1_0.index t (1 : Fin 2) * 58 + 1 * k.val = k.val; omega
  unfold iblk1
  rw [View.read_apply, hemb]
  rfl

/-- The weight block at every point is the weight array. -/
theorem wblk_apply (V : (c : Dev nD) → (b : Ref sig .tc) → Buf (Elt Ideal) ((c : Thread nD τ).loc b)) (c : Dev nD) (t : Fin cfg1.N) (k : Fin 58) (q : Fin 64) :
    (iblk1 V c 1 t : Vec Ideal S58x64 .f32) (ix2 k q) = (V c (Pipeline.arrRef spec1 1) : S58x64.Idx → EReal) (ix2 k q) := by
  obtain ⟨-, -, e0, e1, -⟩ := idx_facts t
  have hemb : ((cfg1.win 1).blk t).view.emb (ix2 k q) = ix2 k q := by
    funext a; apply Fin.ext
    match a with
    | ⟨0, _⟩ => show win1_1.index t (0 : Fin 2) * 58 + 1 * k.val = k.val; omega
    | ⟨1, _⟩ => show win1_1.index t (1 : Fin 2) * 64 + 1 * q.val = q.val; omega
  unfold iblk1
  rw [View.read_apply, hemb]
  rfl

/-- The bias block at every point is the bias row. -/
theorem bblk_apply (V : (c : Dev nD) → (b : Ref sig .tc) → Buf (Elt Ideal) ((c : Thread nD τ).loc b)) (c : Dev nD) (t : Fin cfg1.N) (q : Fin 64) :
    (iblk1 V c 2 t : Vec Ideal S1x64 .f32) (ix2 0 q) = (V c (Pipeline.arrRef spec1 2) : S1x64.Idx → EReal) (ix2 0 q) := by
  obtain ⟨-, -, -, -, e0, e1, -⟩ := idx_facts t
  have hemb : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 64 + 1 * q.val = q.val; omega
  unfold iblk1
  rw [View.read_apply, hemb]
  rfl

/-- What point `t` writes back is block `t` of the stage function of the three arrays as the region finds them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal)
          (Cert.Stages.linRelu58 (F := Ideal) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x58) hz, View.ld_unit_zero (S := S58x64) hz, View.ld_unit_zero (S := S1x64) hz]
  funext j
  obtain ⟨r, q, rfl⟩ : ∃ (r : Fin 5000) (q : Fin 64), j = ix2 r q := ⟨j 0, j 1, eq_ix2 j⟩
  obtain ⟨-, -, -, -, -, -, e0, e1⟩ := idx_facts t
  have ht : t.val < 20 := t.isLt
  have hemb : ((cfg1.win 3).blk t).view.emb (ix2 r q) = ix2 (⟨5000 * t.val + r.val, by omega⟩ : Fin 100000) q := by
    funext a; apply Fin.ext
    match a with
    | ⟨0, _⟩ => show win1_3.index t (0 : Fin 2) * 5000 + 1 * r.val = 5000 * t.val + r.val; omega
    | ⟨1, _⟩ => show win1_3.index t (1 : Fin 2) * 64 + 1 * q.val = q.val; omega
  rw [View.read_apply, hemb]
  refine (pay_apply _ _ _ r q).trans ((linRelu58_apply _ _ _ _ q).trans ?_).symm
  rw [bblk_apply V c t q]
  refine congrArg (fun s => max (s + _) 0) (Finset.sum_congr rfl fun k _ => ?_)
  rw [xblk_apply V c t r k ⟨5000 * t.val + r.val, by omega⟩ rfl, wblk_apply V c t k q]

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v32).slice (win1_3.rect t)).set ↔ _
  rw [View.set_slice_whole, Rect.mem_set_unit]
  exact Iff.rfl

/-- Row `i 0` of the result is written back by the point `i 0 / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 5000 < 20 := by omega
  obtain ⟨-, -, -, -, -, -, e0, e1⟩ := idx_facts ⟨(i 0).val / 5000, hN⟩
  refine ⟨⟨(i 0).val / 5000, hN⟩, flush1_3 _, ?_⟩
  rw [mem_blk]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    have e0' : win1_3.index ⟨(i 0).val / 5000, hN⟩ (0 : Fin 2) = (i 0).val / 5000 := e0
    omega
  | ⟨1, _⟩ =>
    show win1_3.index ⟨(i 0).val / 5000, hN⟩ (1 : Fin 2) * 64 ≤ (i 1).val ∧ (i 1).val < win1_3.index ⟨(i 0).val / 5000, hN⟩ (1 : Fin 2) * 64 + 64
    omega

end Cert.KernelValue.RegionLinear1

namespace Cert.KernelValue

open Idealize.ShloMosaic Idealize.ShloMosaic.TcCoe Idealize.SL.Sem
open Cert.KernelIdeal Cert.KernelIdeal.Gen

/-- The second linear layer's region (the structural features): its result array after the run is the stage function of the feature array,
    the weights and the bias row as the region finds them. -/
theorem region1_value (V : (c : Dev nD) → (b : Ref sig .tc) → Buf (Elt Ideal) ((c : Thread nD τ).loc b)) (c : Dev nD) :
    (dat1 (F := Ideal) V c).arrAt 3 cfg1.N
      = Cert.Stages.linRelu58 (F := Ideal) (V c (Pipeline.arrRef spec1 0)) (V c (Pipeline.arrRef spec1 1)) (V c (Pipeline.arrRef spec1 2)) :=
  (dat1 (F := Ideal) V c).arrAt_eq_of_cover 3 _ (fun t _ => RegionLinear1.flushed_eq V c t) RegionLinear1.cover

end Cert.KernelValue

end
-- ==== Proof.RegionCombineCore.lean ====
/-
  The dense half of a propagation layer, read one element at a time.

  Two readings of the same arithmetic.  The whole-array stage function `Cert.Stages.combine p q a x w₁ w₂` at an
  index (r, c) of the 100000 × 64 array, and a row block's payload at an index (r', c) of the 5000 × 64 block, are both

      max ( ((P · (C · a) + Q · ∑ₖ (C · a[r, k]) · w₁[k, c]) + P · x) + Q · ∑ₖ x[r, k] · w₂[k, c] , Z )

  with P, Q, C, Z the extended reals of the words p, q, 0x3F19999A and the zero word, the sum over the 64 hidden
  features, taken in the same order on both sides.  A block whose rows are rows 5000·t … 5000·t + 4999 of the arrays,
  against the whole weight matrices, therefore computes block t of the stage function: no law of arithmetic is used,
  only that each operation reads the same elements.
-/
import proofs.«111039_j16252156248255_1_alg».proof.Proof.Gen.KernelIdeal.Skeleton
import proofs.«111039_j16252156248255_1_alg».proof.Proof.Stages
import Idealize.ShloMosaic.Lib.KernelVsHost

set_option maxRecDepth 16384

noncomputable section

namespace Cert.KernelValue.RegionCombine

open Idealize.ShloMosaic Idealize.ShloMosaic.ValueIdx

/-! ## Indices of the operands of a product, by coordinates -/

/-- Row `r` of the array, feature `k`. -/
abbrev arrL (i : Cert.ReferenceIdeal.S100000x64.Idx) (k : Fin 64) : Cert.ReferenceIdeal.S100000x64.Idx := fun a => match a with
  | ⟨0, _⟩ => ⟨(i 0).val, (i 0).isLt⟩
  | ⟨1, _⟩ => ⟨k.val, k.isLt⟩
/-- Feature `k` of the weights, column `c`. -/
abbrev arrR (i : Cert.ReferenceIdeal.S100000x64.Idx) (k : Fin 64) : Cert.ReferenceIdeal.S64x64.Idx := fun a => match a with
  | ⟨0, _⟩ => ⟨k.val, k.isLt⟩
  | ⟨1, _⟩ => ⟨(i 1).val, (i 1).isLt⟩
/-- Row `r'` of the block, feature `k`. -/
abbrev blkL (j : Cert.KernelIdeal.S5000x64.Idx) (k : Fin 64) : Cert.KernelIdeal.S5000x64.Idx := fun a => match a with
  | ⟨0, _⟩ => ⟨(j 0).val, (j 0).isLt⟩
  | ⟨1, _⟩ => ⟨k.val, k.isLt⟩
/-- Feature `k` of the weights, column `c`. -/
abbrev blkR (j : Cert.KernelIdeal.S5000x64.Idx) (k : Fin 64) : Cert.KernelIdeal.S64x64.Idx := fun a => match a with
  | ⟨0, _⟩ => ⟨k.val, k.isLt⟩
  | ⟨1, _⟩ => ⟨(j 1).val, (j 1).isLt⟩

/-! ## The two products at an index -/

theorem arrDot_lhs0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide),
    dif_pos (show (0 : Fin Cert.ReferenceIdeal.S100000x64.rank) ∈ Cert.ReferenceIdeal.dot_S100000x64_S64x64_S100000x64_1_0_0_1_n_n.lhsNonContracting by decide)]
  rfl
theorem arrDot_lhs1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem arrDot_rhs0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem arrDot_rhs1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide),
    dif_pos (show (1 : Fin Cert.ReferenceIdeal.S64x64.rank) ∈ Cert.ReferenceIdeal.dot_S100000x64_S64x64_S100000x64_1_0_0_1_n_n.rhsNonContracting by decide)]
  rfl

/-- The host's product of a 100000 × 64 array with a 64 × 64 matrix, at (r, c): the sum over the 64 features. -/
theorem arrDot_apply (l : FVec Ideal Cert.ReferenceIdeal.S100000x64 .f32) (r : FVec Ideal Cert.ReferenceIdeal.S64x64 .f32)
    (i : Cert.ReferenceIdeal.S100000x64.Idx) :
    Host.dotGeneral Cert.ReferenceIdeal.dot_S100000x64_S64x64_S100000x64_1_0_0_1_n_n none l r i = ∑ k : Fin 64, l (arrL i k) * r (arrR i k) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((contrEquiv1 Cert.ReferenceIdeal.dot_S100000x64_S64x64_S100000x64_1_0_0_1_n_n 64 rfl rfl).symm k) = arrL i k :=
    funext fun a => Fin.ext (by
      match a with
      | ⟨0, _⟩ => exact arrDot_lhs0 _ _
      | ⟨1, _⟩ => exact (arrDot_lhs1 _ _).trans hk)
  have er : Cert.ReferenceIdeal.dot_S100000x64_S64x64_S100000x64_1_0_0_1_n_n.rhsIdx i ((contrEquiv1 Cert.ReferenceIdeal.dot_S100000x64_S64x64_S100000x64_1_0_0_1_n_n 64 rfl rfl).symm k) = arrR i k :=
    funext fun a => Fin.ext (by
      match a with
      | ⟨0, _⟩ => exact (arrDot_rhs0 _ _).trans hk
      | ⟨1, _⟩ => exact arrDot_rhs1 _ _)
  rw [el, er]

theorem blkDot_lhs0 (j : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx j q 0).val = (j 0).val := by
  unfold DotDims.lhsIdx
  rw [dif_neg (show ¬(0 : Fin Cert.KernelIdeal.S5000x64.rank) ∈ Cert.KernelIdeal.dot_S5000x64_S64x64_S5000x64_1_0_0_1_n_n.lhsBatch by decide),
    dif_pos (show (0 : Fin Cert.KernelIdeal.S5000x64.rank) ∈ Cert.KernelIdeal.dot_S5000x64_S64x64_S5000x64_1_0_0_1_n_n.lhsNonContracting by decide)]
  rfl
theorem blkDot_lhs1 (j : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx j q 1).val = (q ⟨0, by decide⟩).val :=
  Cert.KernelIdeal.dot_S5000x64_S64x64_S5000x64_1_0_0_1_n_n.lhsIdx_val_of_single rfl j q
theorem blkDot_rhs0 (j : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx j q 0).val = (q ⟨0, by decide⟩).val :=
  Cert.KernelIdeal.dot_S5000x64_S64x64_S5000x64_1_0_0_1_n_n.rhsIdx_val_of_single rfl j q
theorem blkDot_rhs1 (j : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx j q 1).val = (j 1).val := by
  unfold DotDims.rhsIdx
  rw [dif_neg (show ¬(1 : Fin Cert.KernelIdeal.S64x64.rank) ∈ Cert.KernelIdeal.dot_S5000x64_S64x64_S5000x64_1_0_0_1_n_n.rhsBatch by decide),
    dif_pos (show (1 : Fin Cert.KernelIdeal.S64x64.rank) ∈ Cert.KernelIdeal.dot_S5000x64_S64x64_S5000x64_1_0_0_1_n_n.rhsNonContracting by decide)]
  rfl

/-- The matrix unit's product of a 5000 × 64 block with a 64 × 64 matrix into a zero accumulator, at (r', c): the same sum. -/
theorem blkDot_apply {φ₁ φ₂ : FTy} (l : FVec Ideal Cert.KernelIdeal.S5000x64 φ₁) (r : FVec Ideal Cert.KernelIdeal.S64x64 φ₂)
    (j : Cert.KernelIdeal.S5000x64.Idx) :
    matmul Cert.KernelIdeal.dot_S5000x64_S64x64_S5000x64_1_0_0_1_n_n none l r (constant Cert.KernelIdeal.S5000x64 .f32 0x00000000#32) j
      = ∑ k : Fin 64, l (blkL j k) * r (blkR j k) := by
  simp only [matmul]
  rw [Ideal.matmul_constant_zero_apply, ← Equiv.sum_comp (contrEquiv1 Cert.KernelIdeal.dot_S5000x64_S64x64_S5000x64_1_0_0_1_n_n 64 rfl rfl).symm]
  refine Finset.sum_congr rfl fun k _ => ?_
  have hk := contrEquiv1_symm_val Cert.KernelIdeal.dot_S5000x64_S64x64_S5000x64_1_0_0_1_n_n 64 rfl rfl k
  have el : Cert.KernelIdeal.dot_S5000x64_S64x64_S5000x64_1_0_0_1_n_n.lhsIdx j ((contrEquiv1 Cert.KernelIdeal.dot_S5000x64_S64x64_S5000x64_1_0_0_1_n_n 64 rfl rfl).symm k) = blkL j k :=
    funext fun a => Fin.ext (by
      match a with
      | ⟨0, _⟩ => exact blkDot_lhs0 _ _
      | ⟨1, _⟩ => exact (blkDot_lhs1 _ _).trans hk)
  have er : Cert.KernelIdeal.dot_S5000x64_S64x64_S5000x64_1_0_0_1_n_n.rhsIdx j ((contrEquiv1 Cert.KernelIdeal.dot_S5000x64_S64x64_S5000x64_1_0_0_1_n_n 64 rfl rfl).symm k) = blkR j k :=
    funext fun a => Fin.ext (by
      match a with
      | ⟨0, _⟩ => exact (blkDot_rhs0 _ _).trans hk
      | ⟨1, _⟩ => exact blkDot_rhs1 _ _)
  rw [el, er]

/-! ## The stage function at an index -/

/-- A scalar word repeated over the array reads, everywhere, the extended real of the word. -/
theorem splat64_apply (w : BitVec 32) (i : Cert.ReferenceIdeal.S100000x64.Idx) :
    Cert.Stages.splat64 (F := Ideal) w i = Ideal.ofBits .f32 w := rfl

/-- The all-zero array reads the extended real of the zero word. -/
theorem zeros64_apply (i : Cert.ReferenceIdeal.S100000x64.Idx) :
    Cert.Stages.zeros64 (F := Ideal) i = Ideal.ofBits .f32 0x00000000#32 := rfl

/-- The layer's dense half at (r, c): with h = C · a,
    max (((P · h + Q · ∑ₖ h[r, k] · w₁[k, c]) + P · x) + Q · ∑ₖ x[r, k] · w₂[k, c], Z). -/
theorem combine_apply (p q : BitVec 32) (a x : FVec Ideal Cert.ReferenceIdeal.S100000x64 .f32) (w₁ w₂ : FVec Ideal Cert.ReferenceIdeal.S64x64 .f32)
    (i : Cert.ReferenceIdeal.S100000x64.Idx) :
    Cert.Stages.combine (F := Ideal) p q a x w₁ w₂ i
      = max (((Ideal.ofBits .f32 p * (Ideal.ofBits .f32 0x3F19999A#32 * a i)
              + Ideal.ofBits .f32 q * ∑ k : Fin 64, (Ideal.ofBits .f32 0x3F19999A#32 * a (arrL i k)) * w₁ (arrR i k))
            + Ideal.ofBits .f32 p * x i)
          + Ideal.ofBits .f32 q * ∑ k : Fin 64, x (arrL i k) * w₂ (arrR i k))
        (Ideal.ofBits .f32 0x00000000#32) := by
  unfold Cert.Stages.combine
  simp only [maximumf_apply, addf_apply, mulf_apply, arrDot_apply, splat64_apply, zeros64_apply]

/-! ## A row block's payload at an index -/

/-- The body's arithmetic on a row block, for any two scalar words of the layer: the block scaled by the word
    0x3F19999A, the two products by the matrix unit into zero accumulators, the four terms added left to right,
    the maximum with zero. -/
def pay (p q : BitVec 32) (v0 v2 : Vec Ideal Cert.KernelIdeal.S5000x64 .f32) (v8 v11 : Vec Ideal Cert.KernelIdeal.S64x64 .f32) :
    FVec Ideal Cert.KernelIdeal.S5000x64 .f32 :=
  maximumf
    (addf
      (addf
        (addf
          (mulf (broadcast Cert.KernelIdeal.S5000x64 (Scalar.ofBits .f32 p))
            (mulf (broadcast Cert.KernelIdeal.S5000x64 (Scalar.ofBits .f32 0x3F19999A#32)) v0))
          (mulf (broadcast Cert.KernelIdeal.S5000x64 (Scalar.ofBits .f32 q))
            (matmul Cert.KernelIdeal.dot_S5000x64_S64x64_S5000x64_1_0_0_1_n_n none
              (truncf .bf16 (mulf (broadcast Cert.KernelIdeal.S5000x64 (Scalar.ofBits .f32 0x3F19999A#32)) v0) Cert.KernelIdeal.Gen.bitsLt_bf16_f32)
              (truncf .bf16 v8 Cert.KernelIdeal.Gen.bitsLt_bf16_f32) (constant Cert.KernelIdeal.S5000x64 .f32 0x00000000#32))))
        (mulf (broadcast Cert.KernelIdeal.S5000x64 (Scalar.ofBits .f32 p)) v2))
      (mulf (broadcast Cert.KernelIdeal.S5000x64 (Scalar.ofBits .f32 q))
        (matmul Cert.KernelIdeal.dot_S5000x64_S64x64_S5000x64_1_0_0_1_n_n none (truncf .bf16 v2 Cert.KernelIdeal.Gen.bitsLt_bf16_f32) (truncf .bf16 v11 Cert.KernelIdeal.Gen.bitsLt_bf16_f32)
          (constant Cert.KernelIdeal.S5000x64 .f32 0x00000000#32))))
    (broadcast Cert.KernelIdeal.S5000x64 (Scalar.ofBits .f32 0x00000000#32))

/-- The printed payloads of the four layers are that term at their words (the casts to the same shape drop out). -/
theorem k2_pay1_eq (v0 v2 : Vec Ideal Cert.KernelIdeal.S5000x64 .f32) (v8 v11 : Vec Ideal Cert.KernelIdeal.S64x64 .f32) :
    Cert.KernelIdeal.Gen.k2_pay1 (F := Ideal) v0 v2 v8 v11 = pay 0x3EB75EED#32 0x3F245089#32 v0 v2 v8 v11 := by
  unfold Cert.KernelIdeal.Gen.k2_pay1 pay
  simp only [shapeCast_self]
theorem k3_pay1_eq (v0 v2 : Vec Ideal Cert.KernelIdeal.S5000x64 .f32) (v8 v11 : Vec Ideal Cert.KernelIdeal.S64x64 .f32) :
    Cert.KernelIdeal.Gen.k3_pay1 (F := Ideal) v0 v2 v8 v11 = pay 0x3F20E136#32 0x3EBE3D94#32 v0 v2 v8 v11 := by
  unfold Cert.KernelIdeal.Gen.k3_pay1 pay
  simp only [shapeCast_self]
theorem k4_pay1_eq (v0 v2 : Vec Ideal Cert.KernelIdeal.S5000x64 .f32) (v8 v11 : Vec Ideal Cert.KernelIdeal.S64x64 .f32) :
    Cert.KernelIdeal.Gen.k4_pay1 (F := Ideal) v0 v2 v8 v11 = pay 0x3EB75EED#32 0x3F245089#32 v0 v2 v8 v11 := by
  unfold Cert.KernelIdeal.Gen.k4_pay1 pay
  simp only [shapeCast_self]
theorem k5_pay1_eq (v0 v2 : Vec Ideal Cert.KernelIdeal.S5000x64 .f32) (v8 v11 : Vec Ideal Cert.KernelIdeal.S64x64 .f32) :
    Cert.KernelIdeal.Gen.k5_pay1 (F := Ideal) v0 v2 v8 v11 = pay 0x3F20E136#32 0x3EBE3D94#32 v0 v2 v8 v11 := by
  unfold Cert.KernelIdeal.Gen.k5_pay1 pay
  simp only [shapeCast_self]

/-- The payload at (r', c): the same expression as the stage function's, over the block's rows. -/
theorem pay_apply (p q : BitVec 32) (v0 v2 : Vec Ideal Cert.KernelIdeal.S5000x64 .f32) (v8 v11 : Vec Ideal Cert.KernelIdeal.S64x64 .f32)
    (j : Cert.KernelIdeal.S5000x64.Idx) :
    pay p q v0 v2 v8 v11 j
      = max (((Ideal.ofBits .f32 p * (Ideal.ofBits .f32 0x3F19999A#32 * v0 j)
              + Ideal.ofBits .f32 q * ∑ k : Fin 64, (Ideal.ofBits .f32 0x3F19999A#32 * v0 (blkL j k)) * v8 (blkR j k))
            + Ideal.ofBits .f32 p * v2 j)
          + Ideal.ofBits .f32 q * ∑ k : Fin 64, v2 (blkL j k) * v11 (blkR j k))
        (Ideal.ofBits .f32 0x00000000#32) := by
  unfold pay
  simp only [maximumf_apply, addf_apply, mulf_apply, blkDot_apply, truncf_apply, broadcast_apply]
  rfl

/-! ## A block of the arrays against the whole weights -/

/-- When the two row blocks hold rows 5000·t … of the arrays `a`, `x` and the two weight blocks hold the whole
    weight matrices, the payload at (r', c) is the stage function at (5000·t + r', c). -/
theorem pay_eq_combine (p q : BitVec 32) (t : Nat)
    (a x : FVec Ideal Cert.ReferenceIdeal.S100000x64 .f32) (w₁ w₂ : FVec Ideal Cert.ReferenceIdeal.S64x64 .f32)
    (v0 v2 : Vec Ideal Cert.KernelIdeal.S5000x64 .f32) (v8 v11 : Vec Ideal Cert.KernelIdeal.S64x64 .f32)
    (h0 : ∀ (y : Cert.KernelIdeal.S5000x64.Idx) (z : Cert.ReferenceIdeal.S100000x64.Idx), (z 0).val = 5000 * t + (y 0).val → (z 1).val = (y 1).val → v0 y = a z)
    (h2 : ∀ (y : Cert.KernelIdeal.S5000x64.Idx) (z : Cert.ReferenceIdeal.S100000x64.Idx), (z 0).val = 5000 * t + (y 0).val → (z 1).val = (y 1).val → v2 y = x z)
    (h8 : ∀ (y : Cert.KernelIdeal.S64x64.Idx) (z : Cert.ReferenceIdeal.S64x64.Idx), (z 0).val = (y 0).val → (z 1).val = (y 1).val → v8 y = w₁ z)
    (h11 : ∀ (y : Cert.KernelIdeal.S64x64.Idx) (z : Cert.ReferenceIdeal.S64x64.Idx), (z 0).val = (y 0).val → (z 1).val = (y 1).val → v11 y = w₂ z)
    (j : Cert.KernelIdeal.S5000x64.Idx) (i : Cert.ReferenceIdeal.S100000x64.Idx) (hi0 : (i 0).val = 5000 * t + (j 0).val) (hi1 : (i 1).val = (j 1).val) :
    pay p q v0 v2 v8 v11 j = Cert.Stages.combine (F := Ideal) p q a x w₁ w₂ i := by
  have e1 : ∀ k : Fin 64, v0 (blkL j k) = a (arrL i k) := fun k => h0 _ _ hi0 rfl
  have e2 : ∀ k : Fin 64, v2 (blkL j k) = x (arrL i k) := fun k => h2 _ _ hi0 rfl
  have e3 : ∀ k : Fin 64, v8 (blkR j k) = w₁ (arrR i k) := fun k => h8 _ _ rfl hi1
  have e4 : ∀ k : Fin 64, v11 (blkR j k) = w₂ (arrR i k) := fun k => h11 _ _ rfl hi1
  rw [pay_apply, combine_apply, h0 j i hi0 hi1, h2 j i hi0 hi1]
  simp only [e1, e2, e3, e4]

end Cert.KernelValue.RegionCombine

end
-- ==== Proof.RegionCombine2.lean ====
/-
  Region 2 (one propagation layer's dense half) as ONE function of its input arrays.

  The region runs over 20 row blocks of 5000 rows.  At point t the two activation windows hold rows 5000·t … 5000·t + 4999
  of their arrays and the two weight windows hold the whole 64 × 64 matrices; what the point writes back is therefore
  block t of the stage function of the whole arrays (one element at a time: the block's payload reads exactly the elements
  the stage function reads).  The 20 blocks tile the 100000 rows, row r lying in block r / 5000, so the output array ends
  as the stage function.
-/
import proofs.«111039_j16252156248255_1_alg».proof.Proof.Gen.KernelIdeal.Frame
import proofs.«111039_j16252156248255_1_alg».proof.Proof.RegionCombineCore
import Idealize.ShloMosaic.Lib.Pipeline.Value

set_option maxRecDepth 16384

noncomputable section

namespace Cert.KernelValue

open Idealize.ShloMosaic Idealize.ShloMosaic.TcCoe Idealize.SL.Sem
open Cert.KernelIdeal Cert.KernelIdeal.Gen
open Idealize.ShloMosaic.Pipeline (Dat)

namespace RegionCombine2

theorem zero_offsets : (![0, 0] : Fin 2 → Nat) = fun _ => 0 := funext fun a => by fin_cases a <;> rfl

/-- The block indices at a point, decided over the 20 points: the activation windows and the output move down the rows
    with the point, the weight windows stay at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section
variable (V : (c : Dev nD) → (b : Ref sig .tc) → Buf (Elt Ideal) ((c : Thread nD τ).loc b))

/-- The first activation window's block at point t: rows 5000·t … of its array. -/
theorem block0_apply (c : Dev nD) (t : Fin cfg2.N) (y : S5000x64.Idx) (z : Cert.ReferenceIdeal.S100000x64.Idx)
    (h0 : (z 0).val = 5000 * t.val + (y 0).val) (h1 : (z 1).val = (y 1).val) :
    (iblk2 V c 0 t : Vec Ideal S5000x64 .f32) y = ((V c (Pipeline.arrRef spec2 0)) : FVec Ideal Cert.ReferenceIdeal.S100000x64 .f32) z := by
  obtain ⟨e0, e1, -⟩ := block_indices t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 5000 + 1 * (y 0).val = (z 0).val; rw [e0, h0]; omega
  | ⟨1, _⟩ => show win2_0.index t (1 : Fin 2) * 64 + 1 * (y 1).val = (z 1).val; rw [e1, h1]; omega

/-- The second activation window's block at point t: rows 5000·t … of its array. -/
theorem block1_apply (c : Dev nD) (t : Fin cfg2.N) (y : S5000x64.Idx) (z : Cert.ReferenceIdeal.S100000x64.Idx)
    (h0 : (z 0).val = 5000 * t.val + (y 0).val) (h1 : (z 1).val = (y 1).val) :
    (iblk2 V c 1 t : Vec Ideal S5000x64 .f32) y = ((V c (Pipeline.arrRef spec2 1)) : FVec Ideal Cert.ReferenceIdeal.S100000x64 .f32) z := by
  obtain ⟨-, -, e0, e1, -⟩ := block_indices t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 5000 + 1 * (y 0).val = (z 0).val; rw [e0, h0]; omega
  | ⟨1, _⟩ => show win2_1.index t (1 : Fin 2) * 64 + 1 * (y 1).val = (z 1).val; rw [e1, h1]; omega

/-- The first weight window's block at every point: the whole matrix. -/
theorem block2_apply (c : Dev nD) (t : Fin cfg2.N) (y : S64x64.Idx) (z : Cert.ReferenceIdeal.S64x64.Idx)
    (h0 : (z 0).val = (y 0).val) (h1 : (z 1).val = (y 1).val) :
    (iblk2 V c 2 t : Vec Ideal S64x64 .f32) y = ((V c (Pipeline.arrRef spec2 2)) : FVec Ideal Cert.ReferenceIdeal.S64x64 .f32) z := by
  obtain ⟨-, -, -, -, e0, e1, -⟩ := block_indices t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 64 + 1 * (y 0).val = (z 0).val; rw [e0, h0]; omega
  | ⟨1, _⟩ => show win2_2.index t (1 : Fin 2) * 64 + 1 * (y 1).val = (z 1).val; rw [e1, h1]; omega

/-- The second weight window's block at every point: the whole matrix. -/
theorem block3_apply (c : Dev nD) (t : Fin cfg2.N) (y : S64x64.Idx) (z : Cert.ReferenceIdeal.S64x64.Idx)
    (h0 : (z 0).val = (y 0).val) (h1 : (z 1).val = (y 1).val) :
    (iblk2 V c 3 t : Vec Ideal S64x64 .f32) y = ((V c (Pipeline.arrRef spec2 3)) : FVec Ideal Cert.ReferenceIdeal.S64x64 .f32) z := by
  obtain ⟨-, -, -, -, -, -, e0, e1, -⟩ := block_indices t
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 64 + 1 * (y 0).val = (z 0).val; rw [e0, h0]; omega
  | ⟨1, _⟩ => show win2_3.index t (1 : Fin 2) * 64 + 1 * (y 1).val = (z 1).val; rw [e1, h1]; omega

/-- What point t writes back is block t of the stage function of the arrays as the region finds them. -/
theorem flushed_eq (c : Dev nD) (t : Fin cfg2.N) :
    (dat2 (F := Ideal) V c).flushed 4 t = ((cfg2.win 4).blk t).view.read (Elt Ideal)
      (Cert.Stages.combine (F := Ideal) 0x3EB75EED#32 0x3F245089#32 (V c (Pipeline.arrRef spec2 0)) (V c (Pipeline.arrRef spec2 1))
          (V c (Pipeline.arrRef spec2 2)) (V c (Pipeline.arrRef spec2 3))) := by
  show (cfg2.win 4).cut (grid2.coords t) ((dat2 (F := Ideal) V c).after 4 t) = _
  rw [after2_4]
  unfold out2_4
  rw [View.canon_unit_zero zero_offsets]
  simp only [View.ld_unit_zero (S := S5000x64) zero_offsets, View.ld_unit_zero (S := S64x64) zero_offsets]
  obtain ⟨-, -, -, -, -, -, -, -, e0, e1⟩ := block_indices t
  funext j
  refine (congrFun (RegionCombine.k2_pay1_eq _ _ _ _) j).trans ?_
  refine RegionCombine.pay_eq_combine _ _ t.val _ _ _ _ _ _ _ _
    (block0_apply V c t) (block1_apply V c t) (block2_apply V c t) (block3_apply V c t) j _ ?_ ?_
  · show win2_4.index t (0 : Fin 2) * 5000 + 1 * (j 0).val = 5000 * t.val + (j 0).val
    rw [e0]; omega
  · show win2_4.index t (1 : Fin 2) * 64 + 1 * (j 1).val = (j 1).val
    rw [e1]; omega

end

/-- An index of the output array is in point t's block iff each coordinate is in the block's range on its axis. -/
theorem mem_block (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole (Pipeline.arrRef spec2 4)).slice (win2_4.rect t)).set ↔ _
  rw [View.set_slice_whole, Rect.mem_set_unit]
  exact Iff.rfl

/-- Every row lies in a block: row r in block r / 5000. -/
theorem covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : grid2.N = 20 := N_2
  have ht : (i 0).val / 5000 < cfg2.N := by show (i 0).val / 5000 < grid2.N; rw [hN]; omega
  obtain ⟨-, -, -, -, -, -, -, -, e0, e1⟩ := block_indices ⟨(i 0).val / 5000, ht⟩
  refine ⟨⟨(i 0).val / 5000, ht⟩, flush2_4 _, ?_⟩
  rw [mem_block]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val
      ∧ (i 1).val < win2_4.index ⟨(i 0).val / 5000, ht⟩ (1 : Fin 2) * 64 + 64
    rw [e1]; omega

end RegionCombine2

/-- Region 2's output array after the region: the layer's dense half of the four input arrays. -/
theorem region2_value (V : (c : Dev nD) → (b : Ref sig .tc) → Buf (Elt Ideal) ((c : Thread nD τ).loc b)) (c : Dev nD) :
    (dat2 (F := Ideal) V c).arrAt 4 cfg2.N
      = Cert.Stages.combine (F := Ideal) 0x3EB75EED#32 0x3F245089#32 (V c (Pipeline.arrRef spec2 0)) (V c (Pipeline.arrRef spec2 1))
          (V c (Pipeline.arrRef spec2 2)) (V c (Pipeline.arrRef spec2 3)) :=
  (dat2 (F := Ideal) V c).arrAt_eq_of_cover 4 _ (fun t _ => RegionCombine2.flushed_eq V c t) RegionCombine2.covered

end Cert.KernelValue

end
-- ==== Proof.RegionCombine3.lean ====
/-
  Region 3 (one propagation layer's dense half) as ONE function of its input arrays.

  The region runs over 20 row blocks of 5000 rows.  At point t the two activation windows hold rows 5000·t … 5000·t + 4999
  of their arrays and the two weight windows hold the whole 64 × 64 matrices; what the point writes back is therefore
  block t of the stage function of the whole arrays (one element at a time: the block's payload reads exactly the elements
  the stage function reads).  The 20 blocks tile the 100000 rows, row r lying in block r / 5000, so the output array ends
  as the stage function.
-/
import proofs.«111039_j16252156248255_1_alg».proof.Proof.Gen.KernelIdeal.Frame
import proofs.«111039_j16252156248255_1_alg».proof.Proof.RegionCombineCore
import Idealize.ShloMosaic.Lib.Pipeline.Value

set_option maxRecDepth 16384

noncomputable section

namespace Cert.KernelValue

open Idealize.ShloMosaic Idealize.ShloMosaic.TcCoe Idealize.SL.Sem
open Cert.KernelIdeal Cert.KernelIdeal.Gen
open Idealize.ShloMosaic.Pipeline (Dat)

namespace RegionCombine3

theorem zero_offsets : (![0, 0] : Fin 2 → Nat) = fun _ => 0 := funext fun a => by fin_cases a <;> rfl

/-- The block indices at a point, decided over the 20 points: the activation windows and the output move down the rows
    with the point, the weight windows stay at block 0. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section
variable (V : (c : Dev nD) → (b : Ref sig .tc) → Buf (Elt Ideal) ((c : Thread nD τ).loc b))

/-- The first activation window's block at point t: rows 5000·t … of its array. -/
theorem block0_apply (c : Dev nD) (t : Fin cfg3.N) (y : S5000x64.Idx) (z : Cert.ReferenceIdeal.S100000x64.Idx)
    (h0 : (z 0).val = 5000 * t.val + (y 0).val) (h1 : (z 1).val = (y 1).val) :
    (iblk3 V c 0 t : Vec Ideal S5000x64 .f32) y = ((V c (Pipeline.arrRef spec3 0)) : FVec Ideal Cert.ReferenceIdeal.S100000x64 .f32) z := by
  obtain ⟨e0, e1, -⟩ := block_indices t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * (y 0).val = (z 0).val; rw [e0, h0]; omega
  | ⟨1, _⟩ => show win3_0.index t (1 : Fin 2) * 64 + 1 * (y 1).val = (z 1).val; rw [e1, h1]; omega

/-- The second activation window's block at point t: rows 5000·t … of its array. -/
theorem block1_apply (c : Dev nD) (t : Fin cfg3.N) (y : S5000x64.Idx) (z : Cert.ReferenceIdeal.S100000x64.Idx)
    (h0 : (z 0).val = 5000 * t.val + (y 0).val) (h1 : (z 1).val = (y 1).val) :
    (iblk3 V c 1 t : Vec Ideal S5000x64 .f32) y = ((V c (Pipeline.arrRef spec3 1)) : FVec Ideal Cert.ReferenceIdeal.S100000x64 .f32) z := by
  obtain ⟨-, -, e0, e1, -⟩ := block_indices t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 5000 + 1 * (y 0).val = (z 0).val; rw [e0, h0]; omega
  | ⟨1, _⟩ => show win3_1.index t (1 : Fin 2) * 64 + 1 * (y 1).val = (z 1).val; rw [e1, h1]; omega

/-- The first weight window's block at every point: the whole matrix. -/
theorem block2_apply (c : Dev nD) (t : Fin cfg3.N) (y : S64x64.Idx) (z : Cert.ReferenceIdeal.S64x64.Idx)
    (h0 : (z 0).val = (y 0).val) (h1 : (z 1).val = (y 1).val) :
    (iblk3 V c 2 t : Vec Ideal S64x64 .f32) y = ((V c (Pipeline.arrRef spec3 2)) : FVec Ideal Cert.ReferenceIdeal.S64x64 .f32) z := by
  obtain ⟨-, -, -, -, e0, e1, -⟩ := block_indices t
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 64 + 1 * (y 0).val = (z 0).val; rw [e0, h0]; omega
  | ⟨1, _⟩ => show win3_2.index t (1 : Fin 2) * 64 + 1 * (y 1).val = (z 1).val; rw [e1, h1]; omega

/-- The second weight window's block at every point: the whole matrix. -/
theorem block3_apply (c : Dev nD) (t : Fin cfg3.N) (y : S64x64.Idx) (z : Cert.ReferenceIdeal.S64x64.Idx)
    (h0 : (z 0).val = (y 0).val) (h1 : (z 1).val = (y 1).val) :
    (iblk3 V c 3 t : Vec Ideal S64x64 .f32) y = ((V c (Pipeline.arrRef spec3 3)) : FVec Ideal Cert.ReferenceIdeal.S64x64 .f32) z := by
  obtain ⟨-, -, -, -, -, -, e0, e1, -⟩ := block_indices t
  unfold iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 64 + 1 * (y 0).val = (z 0).val; rw [e0, h0]; omega
  | ⟨1, _⟩ => show win3_3.index t (1 : Fin 2) * 64 + 1 * (y 1).val = (z 1).val; rw [e1, h1]; omega

/-- What point t writes back is block t of the stage function of the arrays as the region finds them. -/
theorem flushed_eq (c : Dev nD) (t : Fin cfg3.N) :
    (dat3 (F := Ideal) V c).flushed 4 t = ((cfg3.win 4).blk t).view.read (Elt Ideal)
      (Cert.Stages.combine (F := Ideal) 0x3F20E136#32 0x3EBE3D94#32 (V c (Pipeline.arrRef spec3 0)) (V c (Pipeline.arrRef spec3 1))
          (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero zero_offsets]
  simp only [View.ld_unit_zero (S := S5000x64) zero_offsets, View.ld_unit_zero (S := S64x64) zero_offsets]
  obtain ⟨-, -, -, -, -, -, -, -, e0, e1⟩ := block_indices t
  funext j
  refine (congrFun (RegionCombine.k3_pay1_eq _ _ _ _) j).trans ?_
  refine RegionCombine.pay_eq_combine _ _ t.val _ _ _ _ _ _ _ _
    (block0_apply V c t) (block1_apply V c t) (block2_apply V c t) (block3_apply V c t) j _ ?_ ?_
  · show win3_4.index t (0 : Fin 2) * 5000 + 1 * (j 0).val = 5000 * t.val + (j 0).val
    rw [e0]; omega
  · show win3_4.index t (1 : Fin 2) * 64 + 1 * (j 1).val = (j 1).val
    rw [e1]; omega

end

/-- An index of the output array is in point t's block iff each coordinate is in the block's range on its axis. -/
theorem mem_block (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole (Pipeline.arrRef spec3 4)).slice (win3_4.rect t)).set ↔ _
  rw [View.set_slice_whole, Rect.mem_set_unit]
  exact Iff.rfl

/-- Every row lies in a block: row r in block r / 5000. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  have ht : (i 0).val / 5000 < cfg3.N := by show (i 0).val / 5000 < grid3.N; rw [hN]; omega
  obtain ⟨-, -, -, -, -, -, -, -, e0, e1⟩ := block_indices ⟨(i 0).val / 5000, ht⟩
  refine ⟨⟨(i 0).val / 5000, ht⟩, flush3_4 _, ?_⟩
  rw [mem_block]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e1]; omega

end RegionCombine3

/-- Region 3's output array after the region: the layer's dense half of the four input arrays. -/
theorem region3_value (V : (c : Dev nD) → (b : Ref sig .tc) → Buf (Elt Ideal) ((c : Thread nD τ).loc b)) (c : Dev nD) :
    (dat3 (F := Ideal) V c).arrAt 4 cfg3.N
      = Cert.Stages.combine (F := Ideal) 0x3F20E136#32 0x3EBE3D94#32 (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => RegionCombine3.flushed_eq V c t) RegionCombine3.covered

end Cert.KernelValue

end
-- ==== Proof.RegionCombine4.lean ====
/-
  Region 4 (one propagation layer's dense half) as ONE function of its input arrays.

  The region runs over 20 row blocks of 5000 rows.  At point t the two activation windows hold rows 5000·t … 5000·t + 4999
  of their arrays and the two weight windows hold the whole 64 × 64 matrices; what the point writes back is therefore
  block t of the stage function of the whole arrays (one element at a time: the block's payload reads exactly the elements
  the stage function reads).  The 20 blocks tile the 100000 rows, row r lying in block r / 5000, so the output array ends
  as the stage function.
-/
import proofs.«111039_j16252156248255_1_alg».proof.Proof.Gen.KernelIdeal.Frame
import proofs.«111039_j16252156248255_1_alg».proof.Proof.RegionCombineCore
import Idealize.ShloMosaic.Lib.Pipeline.Value

set_option maxRecDepth 16384

noncomputable section

namespace Cert.KernelValue

open Idealize.ShloMosaic Idealize.ShloMosaic.TcCoe Idealize.SL.Sem
open Cert.KernelIdeal Cert.KernelIdeal.Gen
open Idealize.ShloMosaic.Pipeline (Dat)

namespace RegionCombine4

theorem zero_offsets : (![0, 0] : Fin 2 → Nat) = fun _ => 0 := funext fun a => by fin_cases a <;> rfl

/-- The block indices at a point, decided over the 20 points: the activation windows and the output move down the rows
    with the point, the weight windows stay at block 0. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

section
variable (V : (c : Dev nD) → (b : Ref sig .tc) → Buf (Elt Ideal) ((c : Thread nD τ).loc b))

/-- The first activation window's block at point t: rows 5000·t … of its array. -/
theorem block0_apply (c : Dev nD) (t : Fin cfg4.N) (y : S5000x64.Idx) (z : Cert.ReferenceIdeal.S100000x64.Idx)
    (h0 : (z 0).val = 5000 * t.val + (y 0).val) (h1 : (z 1).val = (y 1).val) :
    (iblk4 V c 0 t : Vec Ideal S5000x64 .f32) y = ((V c (Pipeline.arrRef spec4 0)) : FVec Ideal Cert.ReferenceIdeal.S100000x64 .f32) z := by
  obtain ⟨e0, e1, -⟩ := block_indices t
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 5000 + 1 * (y 0).val = (z 0).val; rw [e0, h0]; omega
  | ⟨1, _⟩ => show win4_0.index t (1 : Fin 2) * 64 + 1 * (y 1).val = (z 1).val; rw [e1, h1]; omega

/-- The second activation window's block at point t: rows 5000·t … of its array. -/
theorem block1_apply (c : Dev nD) (t : Fin cfg4.N) (y : S5000x64.Idx) (z : Cert.ReferenceIdeal.S100000x64.Idx)
    (h0 : (z 0).val = 5000 * t.val + (y 0).val) (h1 : (z 1).val = (y 1).val) :
    (iblk4 V c 1 t : Vec Ideal S5000x64 .f32) y = ((V c (Pipeline.arrRef spec4 1)) : FVec Ideal Cert.ReferenceIdeal.S100000x64 .f32) z := by
  obtain ⟨-, -, e0, e1, -⟩ := block_indices t
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 5000 + 1 * (y 0).val = (z 0).val; rw [e0, h0]; omega
  | ⟨1, _⟩ => show win4_1.index t (1 : Fin 2) * 64 + 1 * (y 1).val = (z 1).val; rw [e1, h1]; omega

/-- The first weight window's block at every point: the whole matrix. -/
theorem block2_apply (c : Dev nD) (t : Fin cfg4.N) (y : S64x64.Idx) (z : Cert.ReferenceIdeal.S64x64.Idx)
    (h0 : (z 0).val = (y 0).val) (h1 : (z 1).val = (y 1).val) :
    (iblk4 V c 2 t : Vec Ideal S64x64 .f32) y = ((V c (Pipeline.arrRef spec4 2)) : FVec Ideal Cert.ReferenceIdeal.S64x64 .f32) z := by
  obtain ⟨-, -, -, -, e0, e1, -⟩ := block_indices t
  unfold iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 64 + 1 * (y 0).val = (z 0).val; rw [e0, h0]; omega
  | ⟨1, _⟩ => show win4_2.index t (1 : Fin 2) * 64 + 1 * (y 1).val = (z 1).val; rw [e1, h1]; omega

/-- The second weight window's block at every point: the whole matrix. -/
theorem block3_apply (c : Dev nD) (t : Fin cfg4.N) (y : S64x64.Idx) (z : Cert.ReferenceIdeal.S64x64.Idx)
    (h0 : (z 0).val = (y 0).val) (h1 : (z 1).val = (y 1).val) :
    (iblk4 V c 3 t : Vec Ideal S64x64 .f32) y = ((V c (Pipeline.arrRef spec4 3)) : FVec Ideal Cert.ReferenceIdeal.S64x64 .f32) z := by
  obtain ⟨-, -, -, -, -, -, e0, e1, -⟩ := block_indices t
  unfold iblk4
  rw [View.read_apply]
  show V c (Pipeline.arrRef spec4 3) _ = V c (Pipeline.arrRef spec4 3) _
  refine congrArg _ (funext fun a => Fin.ext ?_)
  match a with
  | ⟨0, _⟩ => show win4_3.index t (0 : Fin 2) * 64 + 1 * (y 0).val = (z 0).val; rw [e0, h0]; omega
  | ⟨1, _⟩ => show win4_3.index t (1 : Fin 2) * 64 + 1 * (y 1).val = (z 1).val; rw [e1, h1]; omega

/-- What point t writes back is block t of the stage function of the arrays as the region finds them. -/
theorem flushed_eq (c : Dev nD) (t : Fin cfg4.N) :
    (dat4 (F := Ideal) V c).flushed 4 t = ((cfg4.win 4).blk t).view.read (Elt Ideal)
      (Cert.Stages.combine (F := Ideal) 0x3EB75EED#32 0x3F245089#32 (V c (Pipeline.arrRef spec4 0)) (V c (Pipeline.arrRef spec4 1))
          (V c (Pipeline.arrRef spec4 2)) (V c (Pipeline.arrRef spec4 3))) := by
  show (cfg4.win 4).cut (grid4.coords t) ((dat4 (F := Ideal) V c).after 4 t) = _
  rw [after4_4]
  unfold out4_4
  rw [View.canon_unit_zero zero_offsets]
  simp only [View.ld_unit_zero (S := S5000x64) zero_offsets, View.ld_unit_zero (S := S64x64) zero_offsets]
  obtain ⟨-, -, -, -, -, -, -, -, e0, e1⟩ := block_indices t
  funext j
  refine (congrFun (RegionCombine.k4_pay1_eq _ _ _ _) j).trans ?_
  refine RegionCombine.pay_eq_combine _ _ t.val _ _ _ _ _ _ _ _
    (block0_apply V c t) (block1_apply V c t) (block2_apply V c t) (block3_apply V c t) j _ ?_ ?_
  · show win4_4.index t (0 : Fin 2) * 5000 + 1 * (j 0).val = 5000 * t.val + (j 0).val
    rw [e0]; omega
  · show win4_4.index t (1 : Fin 2) * 64 + 1 * (j 1).val = (j 1).val
    rw [e1]; omega

end

/-- An index of the output array is in point t's block iff each coordinate is in the block's range on its axis. -/
theorem mem_block (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole (Pipeline.arrRef spec4 4)).slice (win4_4.rect t)).set ↔ _
  rw [View.set_slice_whole, Rect.mem_set_unit]
  exact Iff.rfl

/-- Every row lies in a block: row r in block r / 5000. -/
theorem covered (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : grid4.N = 20 := N_4
  have ht : (i 0).val / 5000 < cfg4.N := by show (i 0).val / 5000 < grid4.N; rw [hN]; omega
  obtain ⟨-, -, -, -, -, -, -, -, e0, e1⟩ := block_indices ⟨(i 0).val / 5000, ht⟩
  refine ⟨⟨(i 0).val / 5000, ht⟩, flush4_4 _, ?_⟩
  rw [mem_block]
  intro a
  match a with
  | ⟨0, _⟩ =>
    show win4_4.index ⟨(i 0).val / 5000, ht⟩ (0 : Fin 2) * 5000 ≤ (i 0).val
      ∧ (i 0).val < win4_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_4.index ⟨(i 0).val / 5000, ht⟩ (1 : Fin 2) * 64 ≤ (i 1).val
      ∧ (i 1).val < win4_4.index ⟨(i 0).val / 5000, ht⟩ (1 : Fin 2) * 64 + 64
    rw [e1]; omega

end RegionCombine4

/-- Region 4's output array after the region: the layer's dense half of the four input arrays. -/
theorem region4_value (V : (c : Dev nD) → (b : Ref sig .tc) → Buf (Elt Ideal) ((c : Thread nD τ).loc b)) (c : Dev nD) :
    (dat4 (F := Ideal) V c).arrAt 4 cfg4.N
      = Cert.Stages.combine (F := Ideal) 0x3EB75EED#32 0x3F245089#32 (V c (Pipeline.arrRef spec4 0)) (V c (Pipeline.arrRef spec4 1))
          (V c (Pipeline.arrRef spec4 2)) (V c (Pipeline.arrRef spec4 3)) :=
  (dat4 (F := Ideal) V c).arrAt_eq_of_cover 4 _ (fun t _ => RegionCombine4.flushed_eq V c t) RegionCombine4.covered

end Cert.KernelValue

end
-- ==== Proof.RegionCombine5.lean ====
/-
  Region 5 (one propagation layer's dense half) as ONE function of its input arrays.

  The region runs over 20 row blocks of 5000 rows.  At point t the two activation windows hold rows 5000·t … 5000·t + 4999
  of their arrays and the two weight windows hold the whole 64 × 64 matrices; what the point writes back is therefore
  block t of the stage function of the whole arrays (one element at a time: the block's payload reads exactly the elements
  the stage function reads).  The 20 blocks tile the 100000 rows, row r lying in block r / 5000, so the output array ends
  as the stage function.
-/
import proofs.«111039_j16252156248255_1_alg».proof.Proof.Gen.KernelIdeal.Frame
import proofs.«111039_j16252156248255_1_alg».proof.Proof.RegionCombineCore
import Idealize.ShloMosaic.Lib.Pipeline.Value

set_option maxRecDepth 16384

noncomputable section

namespace Cert.KernelValue

open Idealize.ShloMosaic Idealize.ShloMosaic.TcCoe Idealize.SL.Sem
open Cert.KernelIdeal Cert.KernelIdeal.Gen
open Idealize.ShloMosaic.Pipeline (Dat)

namespace RegionCombine5

theorem zero_offsets : (![0, 0] : Fin 2 → Nat) = fun _ => 0 := funext fun a => by fin_cases a <;> rfl

/-- The block indices at a point, decided over the 20 points: the activation windows and the output move down the rows
    with the point, the weight windows stay at block 0. -/
theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

section
variable (V : (c : Dev nD) → (b : Ref sig .tc) → Buf (Elt Ideal) ((c : Thread nD τ).loc b))

/-- The first activation window's block at point t: rows 5000·t … of its array. -/
theorem block0_apply (c : Dev nD) (t : Fin cfg5.N) (y : S5000x64.Idx) (z : Cert.ReferenceIdeal.S100000x64.Idx)
    (h0 : (z 0).val = 5000 * t.val + (y 0).val) (h1 : (z 1).val = (y 1).val) :
    (iblk5 V c 0 t : Vec Ideal S5000x64 .f32) y = ((V c (Pipeline.arrRef spec5 0)) : FVec Ideal Cert.ReferenceIdeal.S100000x64 .f32) z := by
  obtain ⟨e0, e1, -⟩ := block_indices t
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 5000 + 1 * (y 0).val = (z 0).val; rw [e0, h0]; omega
  | ⟨1, _⟩ => show win5_0.index t (1 : Fin 2) * 64 + 1 * (y 1).val = (z 1).val; rw [e1, h1]; omega

/-- The second activation window's block at point t: rows 5000·t … of its array. -/
theorem block1_apply (c : Dev nD) (t : Fin cfg5.N) (y : S5000x64.Idx) (z : Cert.ReferenceIdeal.S100000x64.Idx)
    (h0 : (z 0).val = 5000 * t.val + (y 0).val) (h1 : (z 1).val = (y 1).val) :
    (iblk5 V c 1 t : Vec Ideal S5000x64 .f32) y = ((V c (Pipeline.arrRef spec5 1)) : FVec Ideal Cert.ReferenceIdeal.S100000x64 .f32) z := by
  obtain ⟨-, -, e0, e1, -⟩ := block_indices t
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 5000 + 1 * (y 0).val = (z 0).val; rw [e0, h0]; omega
  | ⟨1, _⟩ => show win5_1.index t (1 : Fin 2) * 64 + 1 * (y 1).val = (z 1).val; rw [e1, h1]; omega

/-- The first weight window's block at every point: the whole matrix. -/
theorem block2_apply (c : Dev nD) (t : Fin cfg5.N) (y : S64x64.Idx) (z : Cert.ReferenceIdeal.S64x64.Idx)
    (h0 : (z 0).val = (y 0).val) (h1 : (z 1).val = (y 1).val) :
    (iblk5 V c 2 t : Vec Ideal S64x64 .f32) y = ((V c (Pipeline.arrRef spec5 2)) : FVec Ideal Cert.ReferenceIdeal.S64x64 .f32) z := by
  obtain ⟨-, -, -, -, e0, e1, -⟩ := block_indices t
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 64 + 1 * (y 0).val = (z 0).val; rw [e0, h0]; omega
  | ⟨1, _⟩ => show win5_2.index t (1 : Fin 2) * 64 + 1 * (y 1).val = (z 1).val; rw [e1, h1]; omega

/-- The second weight window's block at every point: the whole matrix. -/
theorem block3_apply (c : Dev nD) (t : Fin cfg5.N) (y : S64x64.Idx) (z : Cert.ReferenceIdeal.S64x64.Idx)
    (h0 : (z 0).val = (y 0).val) (h1 : (z 1).val = (y 1).val) :
    (iblk5 V c 3 t : Vec Ideal S64x64 .f32) y = ((V c (Pipeline.arrRef spec5 3)) : FVec Ideal Cert.ReferenceIdeal.S64x64 .f32) z := by
  obtain ⟨-, -, -, -, -, -, e0, e1, -⟩ := block_indices t
  unfold iblk5
  rw [View.read_apply]
  show V c (Pipeline.arrRef spec5 3) _ = V c (Pipeline.arrRef spec5 3) _
  refine congrArg _ (funext fun a => Fin.ext ?_)
  match a with
  | ⟨0, _⟩ => show win5_3.index t (0 : Fin 2) * 64 + 1 * (y 0).val = (z 0).val; rw [e0, h0]; omega
  | ⟨1, _⟩ => show win5_3.index t (1 : Fin 2) * 64 + 1 * (y 1).val = (z 1).val; rw [e1, h1]; omega

/-- What point t writes back is block t of the stage function of the arrays as the region finds them. -/
theorem flushed_eq (c : Dev nD) (t : Fin cfg5.N) :
    (dat5 (F := Ideal) V c).flushed 4 t = ((cfg5.win 4).blk t).view.read (Elt Ideal)
      (Cert.Stages.combine (F := Ideal) 0x3F20E136#32 0x3EBE3D94#32 (V c (Pipeline.arrRef spec5 0)) (V c (Pipeline.arrRef spec5 1))
          (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero zero_offsets]
  simp only [View.ld_unit_zero (S := S5000x64) zero_offsets, View.ld_unit_zero (S := S64x64) zero_offsets]
  obtain ⟨-, -, -, -, -, -, -, -, e0, e1⟩ := block_indices t
  funext j
  refine (congrFun (RegionCombine.k5_pay1_eq _ _ _ _) j).trans ?_
  refine RegionCombine.pay_eq_combine _ _ t.val _ _ _ _ _ _ _ _
    (block0_apply V c t) (block1_apply V c t) (block2_apply V c t) (block3_apply V c t) j _ ?_ ?_
  · show win5_4.index t (0 : Fin 2) * 5000 + 1 * (j 0).val = 5000 * t.val + (j 0).val
    rw [e0]; omega
  · show win5_4.index t (1 : Fin 2) * 64 + 1 * (j 1).val = (j 1).val
    rw [e1]; omega

end

/-- An index of the output array is in point t's block iff each coordinate is in the block's range on its axis. -/
theorem mem_block (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole (Pipeline.arrRef spec5 4)).slice (win5_4.rect t)).set ↔ _
  rw [View.set_slice_whole, Rect.mem_set_unit]
  exact Iff.rfl

/-- Every row lies in a block: row r in block r / 5000. -/
theorem covered (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : grid5.N = 20 := N_5
  have ht : (i 0).val / 5000 < cfg5.N := by show (i 0).val / 5000 < grid5.N; rw [hN]; omega
  obtain ⟨-, -, -, -, -, -, -, -, e0, e1⟩ := block_indices ⟨(i 0).val / 5000, ht⟩
  refine ⟨⟨(i 0).val / 5000, ht⟩, flush5_4 _, ?_⟩
  rw [mem_block]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val
      ∧ (i 1).val < win5_4.index ⟨(i 0).val / 5000, ht⟩ (1 : Fin 2) * 64 + 64
    rw [e1]; omega

end RegionCombine5

/-- Region 5's output array after the region: the layer's dense half of the four input arrays. -/
theorem region5_value (V : (c : Dev nD) → (b : Ref sig .tc) → Buf (Elt Ideal) ((c : Thread nD τ).loc b)) (c : Dev nD) :
    (dat5 (F := Ideal) V c).arrAt 4 cfg5.N
      = Cert.Stages.combine (F := Ideal) 0x3F20E136#32 0x3EBE3D94#32 (V c (Pipeline.arrRef spec5 0)) (V c (Pipeline.arrRef spec5 1))
          (V c (Pipeline.arrRef spec5 2)) (V c (Pipeline.arrRef spec5 3)) :=
  (dat5 (F := Ideal) V c).arrAt_eq_of_cover 4 _ (fun t _ => RegionCombine5.flushed_eq V c t) RegionCombine5.covered

end Cert.KernelValue

end
-- ==== Proof.RegionProject.lean ====
/-
  The output projection (the last tiled region): each of its two output columns, after the twenty row blocks have
  been written back, is ONE whole-array function of the region's input arrays — row `R` of the output is the dot
  product of row `R` of the hidden array with the 64-entry weight column, plus the one bias entry.

  * the host's dot product and the body's matmul, each read at an index as a sum over the 64 contracted entries;
  * the stage function and the body's payload, each at an index (rounding to the narrower format is the identity on
    the extended reals, and a matmul into the zero accumulator is the plain sum);
  * a block's element (r, j) at grid point t is the array's element (5000 t + r, j); the weight and bias windows are
    the whole arrays at every point;
  * what point t writes back is block t of the stage function; row R is covered by point R / 5000; hence the array.
-/
import proofs.«111039_j16252156248255_1_alg».proof.Proof.Gen.KernelIdeal.Frame
import proofs.«111039_j16252156248255_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelValue

open Idealize.ShloMosaic Idealize.ShloMosaic.TcCoe Idealize.SL.Sem
open Cert.KernelIdeal Cert.KernelIdeal.Gen
open Idealize.ShloMosaic.ValueIdx

namespace RegionProject

/-! ## The host's dot product and the body's matmul, each read at an index -/

/-- The reference-side dot: rows of the 100000×64 array against the 64×1 column. -/
abbrev dotH := Cert.ReferenceIdeal.dot_S100000x64_S64x1_S100000x1_1_0_0_1_n_n
/-- The body's dot: rows of a 5000×64 block against the 64×1 column. -/
abbrev dotB := dot_S5000x64_S64x1_S5000x1_1_0_0_1_n_n

theorem dotH_lhs0 (i : Cert.ReferenceIdeal.S100000x1.Idx) (q : dotH.contr.Idx) : (dotH.lhsIdx i q 0).val = (i 0).val := by
  unfold DotDims.lhsIdx
  rw [dif_neg (show ¬(0 : Fin Cert.ReferenceIdeal.S100000x64.rank) ∈ dotH.lhsBatch by decide), dif_pos (show (0 : Fin Cert.ReferenceIdeal.S100000x64.rank) ∈ dotH.lhsNonContracting by decide)]
  rfl
theorem dotH_lhs1 (i : Cert.ReferenceIdeal.S100000x1.Idx) (q : dotH.contr.Idx) : (dotH.lhsIdx i q 1).val = (q ⟨0, by decide⟩).val :=
  dotH.lhsIdx_val_of_single rfl i q
theorem dotH_rhs0 (i : Cert.ReferenceIdeal.S100000x1.Idx) (q : dotH.contr.Idx) : (dotH.rhsIdx i q 0).val = (q ⟨0, by decide⟩).val :=
  dotH.rhsIdx_val_of_single rfl i q
theorem dotH_rhs1 (i : Cert.ReferenceIdeal.S100000x1.Idx) (q : dotH.contr.Idx) : (dotH.rhsIdx i q 1).val = (i 1).val := by
  unfold DotDims.rhsIdx
  rw [dif_neg (show ¬(1 : Fin Cert.ReferenceIdeal.S64x1.rank) ∈ dotH.rhsBatch by decide), dif_pos (show (1 : Fin Cert.ReferenceIdeal.S64x1.rank) ∈ dotH.rhsNonContracting by decide)]
  rfl

theorem dotH_apply (h : FVec Ideal S100000x64 .f32) (w : FVec Ideal S64x1 .f32) (r : Fin 100000) (q : Fin 1) :
    Host.dotGeneral dotH none h w (ix2 r q) = ∑ k : Fin 64, h (ix2 r k) * w (ix2 k q) := by
  simp only [Host.dotGeneral]
  rw [Ideal.dotGeneral_apply, ← Equiv.sum_comp (contrEquiv1 dotH 64 rfl rfl).symm]
  refine Finset.sum_congr rfl fun k _ => ?_
  have hk := contrEquiv1_symm_val dotH 64 rfl rfl k
  have el : dotH.lhsIdx (ix2 r q) ((contrEquiv1 dotH 64 rfl rfl).symm k) = ix2 r k := funext fun a => Fin.ext (by
    match a with
    | ⟨0, _⟩ => exact dotH_lhs0 _ _
    | ⟨1, _⟩ => exact (dotH_lhs1 _ _).trans hk)
  have er : dotH.rhsIdx (ix2 r q) ((contrEquiv1 dotH 64 rfl rfl).symm k) = ix2 k q := funext fun a => Fin.ext (by
    match a with
    | ⟨0, _⟩ => exact (dotH_rhs0 _ _).trans hk
    | ⟨1, _⟩ => exact dotH_rhs1 _ _)
  rw [el, er]

theorem dotB_lhs0 (i : S5000x1.Idx) (q : dotB.contr.Idx) : (dotB.lhsIdx i q 0).val = (i 0).val := by
  unfold DotDims.lhsIdx
  rw [dif_neg (show ¬(0 : Fin S5000x64.rank) ∈ dotB.lhsBatch by decide), dif_pos (show (0 : Fin S5000x64.rank) ∈ dotB.lhsNonContracting by decide)]
  rfl
theorem dotB_lhs1 (i : S5000x1.Idx) (q : dotB.contr.Idx) : (dotB.lhsIdx i q 1).val = (q ⟨0, by decide⟩).val :=
  dotB.lhsIdx_val_of_single rfl i q
theorem dotB_rhs0 (i : S5000x1.Idx) (q : dotB.contr.Idx) : (dotB.rhsIdx i q 0).val = (q ⟨0, by decide⟩).val :=
  dotB.rhsIdx_val_of_single rfl i q
theorem dotB_rhs1 (i : S5000x1.Idx) (q : dotB.contr.Idx) : (dotB.rhsIdx i q 1).val = (i 1).val := by
  unfold DotDims.rhsIdx
  rw [dif_neg (show ¬(1 : Fin S64x1.rank) ∈ dotB.rhsBatch by decide), dif_pos (show (1 : Fin S64x1.rank) ∈ dotB.rhsNonContracting by decide)]
  rfl

theorem dotB_apply (x : FVec Ideal S5000x64 .bf16) (w : FVec Ideal S64x1 .bf16) (r : Fin 5000) (q : Fin 1) :
    matmul dotB none x w (constant S5000x1 .f32 0x00000000#32) (ix2 r q) = ∑ k : Fin 64, x (ix2 r k) * w (ix2 k q) := by
  simp only [matmul]
  rw [Ideal.matmul_constant_zero_apply, ← Equiv.sum_comp (contrEquiv1 dotB 64 rfl rfl).symm]
  refine Finset.sum_congr rfl fun k _ => ?_
  have hk := contrEquiv1_symm_val dotB 64 rfl rfl k
  have el : dotB.lhsIdx (ix2 r q) ((contrEquiv1 dotB 64 rfl rfl).symm k) = ix2 r k := funext fun a => Fin.ext (by
    match a with
    | ⟨0, _⟩ => exact dotB_lhs0 _ _
    | ⟨1, _⟩ => exact (dotB_lhs1 _ _).trans hk)
  have er : dotB.rhsIdx (ix2 r q) ((contrEquiv1 dotB 64 rfl rfl).symm k) = ix2 k q := funext fun a => Fin.ext (by
    match a with
    | ⟨0, _⟩ => exact (dotB_rhs0 _ _).trans hk
    | ⟨1, _⟩ => exact dotB_rhs1 _ _)
  rw [el, er]

/-- One output column of the projection at row `r`: the row of `h` against the column `w`, plus the one bias entry. -/
theorem project_apply (h : FVec Ideal S100000x64 .f32) (w : FVec Ideal S64x1 .f32) (b : FVec Ideal S1x1 .f32)
    (r : Fin 100000) (q : Fin 1) :
    Cert.Stages.project (F := Ideal) h w b (ix2 r q) = (∑ k : Fin 64, h (ix2 r k) * w (ix2 k q)) + b (ix2 0 0) := by
  unfold Cert.Stages.project
  rw [addf_apply]
  refine congrArg₂ (· + ·) (dotH_apply h w r q) ?_
  exact broadcastInDim_apply _ _ b (ix2 r q) (ix2 0 0) (fun a => match a with
    | ⟨0, _⟩ => by show 0 = if (1 : Nat) = 1 then 0 else r.val; rw [if_pos rfl]
    | ⟨1, _⟩ => by show 0 = if (1 : Nat) = 1 then 0 else q.val; rw [if_pos rfl])

/-- The body's payload at row `r` of the block: the block's row against the column, plus the one bias entry. -/
theorem pay1_apply (x0 : Vec Ideal S5000x64 .f32) (x2 : Vec Ideal S64x1 .f32) (x3 : Vec Ideal S1x1 .f32)
    (r : Fin 5000) (q : Fin 1) :
    k6_pay1 x0 x2 x3 (ix2 r q) = (∑ k : Fin 64, x0 (ix2 r k) * x2 (ix2 k q)) + x3 (ix2 0 0) := by
  unfold k6_pay1
  rw [addf_apply]
  refine congrArg₂ (· + ·) ?_ ?_
  · rw [dotB_apply]
    refine Finset.sum_congr rfl fun k _ => ?_
    rw [truncf_apply, truncf_apply, shapeCast_self]
  · rw [shapeCast_self]
    exact broadcastTo_apply _ _ (ix2 r q) (ix2 0 0) (fun a => match a with
      | ⟨0, _⟩ => by show 0 = if (1 : Nat) = 1 then 0 else r.val; rw [if_pos rfl]
      | ⟨1, _⟩ => by show 0 = if (1 : Nat) = 1 then 0 else q.val; rw [if_pos rfl])

/-- The second payload at row `r` of the block: the same dot product and bias over the second set of windows. -/
theorem pay2_apply (x1 : Vec Ideal S5000x64 .f32) (x4 : Vec Ideal S64x1 .f32) (x5 : Vec Ideal S1x1 .f32)
    (r : Fin 5000) (q : Fin 1) :
    k6_pay2 x1 x4 x5 (ix2 r q) = (∑ k : Fin 64, x1 (ix2 r k) * x4 (ix2 k q)) + x5 (ix2 0 0) := by
  unfold k6_pay2
  rw [addf_apply]
  refine congrArg₂ (· + ·) ?_ ?_
  · rw [dotB_apply]
    refine Finset.sum_congr rfl fun k _ => ?_
    rw [truncf_apply, truncf_apply, shapeCast_self]
  · rw [shapeCast_self]
    exact broadcastTo_apply _ _ (ix2 r q) (ix2 0 0) (fun a => match a with
      | ⟨0, _⟩ => by show 0 = if (1 : Nat) = 1 then 0 else r.val; rw [if_pos rfl]
      | ⟨1, _⟩ => by show 0 = if (1 : Nat) = 1 then 0 else q.val; rw [if_pos rfl])

/-! ## From blocks to the array: the first output column -/

theorem hz : (![0, 0] : Fin 2 → Nat) = fun _ => 0 := funext fun a => by fin_cases a <;> rfl

/-- The printed index maps over the grid: the row windows sit at block (t, 0), the weight and bias windows at block (0, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

/-- Row `r` of the row window's block at point `t` is row `5000 t + r` of its array. -/
theorem blk0_apply (V : (c : Dev nD) → (b : Ref sig .tc) → Buf (Elt Ideal) ((c : Thread nD τ).loc b)) (c : Dev nD) (t : Fin cfg6.N)
    (r : Fin 5000) (k : Fin 64) (R : Fin 100000) (hR : R.val = 5000 * t.val + r.val) :
    (iblk6 (F := Ideal) V c 0 t : Vec Ideal S5000x64 .f32) (ix2 r k)
      = (V c (Pipeline.arrRef spec6 0) : S100000x64.Idx → Elt Ideal .f32) (ix2 R k) := by
  obtain ⟨e0, e1, -⟩ := idx_facts t
  show (V c (Pipeline.arrRef spec6 0) : S100000x64.Idx → Elt Ideal .f32) (((cfg6.win 0).blk t).view.emb (ix2 r k : S5000x64.Idx)) = _
  refine congrArg (V c (Pipeline.arrRef spec6 0) : S100000x64.Idx → Elt Ideal .f32) (funext fun a => Fin.ext ?_)
  match a with
  | ⟨0, _⟩ => show win6_0.index t (0 : Fin 2) * 5000 + 1 * r.val = R.val; rw [e0, hR]; omega
  | ⟨1, _⟩ => show win6_0.index t (1 : Fin 2) * 64 + 1 * k.val = k.val; rw [e1]; omega

/-- The weight window's block at every point is the whole column. -/
theorem blk2_apply (V : (c : Dev nD) → (b : Ref sig .tc) → Buf (Elt Ideal) ((c : Thread nD τ).loc b)) (c : Dev nD) (t : Fin cfg6.N) (k : Fin 64) (q : Fin 1) :
    (iblk6 (F := Ideal) V c 2 t : Vec Ideal S64x1 .f32) (ix2 k q)
      = (V c (Pipeline.arrRef spec6 2) : S64x1.Idx → Elt Ideal .f32) (ix2 k q) := by
  obtain ⟨-, -, -, -, e0, e1, -⟩ := idx_facts t
  show (V c (Pipeline.arrRef spec6 2) : S64x1.Idx → Elt Ideal .f32) (((cfg6.win 2).blk t).view.emb (ix2 k q : S64x1.Idx)) = _
  refine congrArg (V c (Pipeline.arrRef spec6 2) : S64x1.Idx → Elt Ideal .f32) (funext fun a => Fin.ext ?_)
  match a with
  | ⟨0, _⟩ => show win6_2.index t (0 : Fin 2) * 64 + 1 * k.val = k.val; rw [e0]; omega
  | ⟨1, _⟩ => show win6_2.index t (1 : Fin 2) * 1 + 1 * q.val = q.val; rw [e1]; omega

/-- The bias window's block at every point is the one entry. -/
theorem blk3_apply (V : (c : Dev nD) → (b : Ref sig .tc) → Buf (Elt Ideal) ((c : Thread nD τ).loc b)) (c : Dev nD) (t : Fin cfg6.N) (p q : Fin 1) :
    (iblk6 (F := Ideal) V c 3 t : Vec Ideal S1x1 .f32) (ix2 p q)
      = (V c (Pipeline.arrRef spec6 3) : S1x1.Idx → Elt Ideal .f32) (ix2 p q) := by
  obtain ⟨-, -, -, -, -, -, e0, e1, -⟩ := idx_facts t
  show (V c (Pipeline.arrRef spec6 3) : S1x1.Idx → Elt Ideal .f32) (((cfg6.win 3).blk t).view.emb (ix2 p q : S1x1.Idx)) = _
  refine congrArg (V c (Pipeline.arrRef spec6 3) : S1x1.Idx → Elt Ideal .f32) (funext fun a => Fin.ext ?_)
  match a with
  | ⟨0, _⟩ => show win6_3.index t (0 : Fin 2) * 1 + 1 * p.val = p.val; rw [e0]; omega
  | ⟨1, _⟩ => show win6_3.index t (1 : Fin 2) * 1 + 1 * q.val = q.val; rw [e1]; omega

/-- Row `r` of the output block at point `t` is row `5000 t + r` of the output array. -/
theorem emb6_apply (t : Fin cfg6.N) (r : Fin 5000) (q : Fin 1) (R : Fin 100000) (hR : R.val = 5000 * t.val + r.val) :
    ((cfg6.win 6).blk t).view.emb (ix2 r q : S5000x1.Idx) = (ix2 R q : S100000x1.Idx) := by
  obtain ⟨-, -, -, -, -, -, -, -, -, -, -, -, e0, e1, -⟩ := idx_facts t
  refine funext fun a => Fin.ext ?_
  match a with
  | ⟨0, _⟩ => show win6_6.index t (0 : Fin 2) * 5000 + 1 * r.val = R.val; rw [e0, hR]; omega
  | ⟨1, _⟩ => show win6_6.index t (1 : Fin 2) * 1 + 1 * q.val = q.val; rw [e1]; omega

/-- At every row of the block the body's payload over the windows' blocks is the projection of the whole arrays. -/
theorem point6_eq (V : (c : Dev nD) → (b : Ref sig .tc) → Buf (Elt Ideal) ((c : Thread nD τ).loc b)) (c : Dev nD) (t : Fin cfg6.N) (r : Fin 5000) (q : Fin 1) :
    k6_pay1 (iblk6 (F := Ideal) V c 0 t) (iblk6 (F := Ideal) V c 2 t) (iblk6 (F := Ideal) V c 3 t) (ix2 r q)
      = Cert.Stages.project (F := Ideal) (V c (Pipeline.arrRef spec6 0)) (V c (Pipeline.arrRef spec6 2)) (V c (Pipeline.arrRef spec6 3))
          (((cfg6.win 6).blk t).view.emb (ix2 r q : S5000x1.Idx)) := by
  have ht : t.val < 20 := lt_of_lt_of_eq t.isLt N_6
  have hr : r.val < 5000 := r.isLt
  obtain ⟨R, hR⟩ : ∃ R : Fin 100000, R.val = 5000 * t.val + r.val := ⟨⟨5000 * t.val + r.val, by omega⟩, rfl⟩
  rw [emb6_apply t r q R hR]
  refine (pay1_apply _ _ _ r q).trans (Eq.trans ?_ (project_apply _ _ _ R q).symm)
  refine congrArg₂ (· + ·) (Finset.sum_congr rfl fun k _ => congrArg₂ (· * ·) (blk0_apply V c t r k R hR) (blk2_apply V c t k q)) (blk3_apply V c t 0 0)

/-- What point `t` writes back to the first output is block `t` of the projection of the whole arrays. -/
theorem flushed6_eq (V : (c : Dev nD) → (b : Ref sig .tc) → Buf (Elt Ideal) ((c : Thread nD τ).loc b)) (c : Dev nD) (t : Fin cfg6.N) :
    (dat6 (F := Ideal) V c).flushed 6 t = ((cfg6.win 6).blk t).view.read (Elt Ideal)
      (Cert.Stages.project (F := Ideal) (V c (Pipeline.arrRef spec6 0)) (V c (Pipeline.arrRef spec6 2)) (V c (Pipeline.arrRef spec6 3))) := by
  show (cfg6.win 6).cut (grid6.coords t) ((dat6 V c).after 6 t) = _
  rw [after6_6]
  unfold out6_6
  rw [View.canon_unit_zero hz]
  simp only [View.ld_unit_zero (S := S5000x64) hz, View.ld_unit_zero (S := S64x1) hz, View.ld_unit_zero (S := S1x1) hz]
  funext j
  obtain ⟨r, q, rfl⟩ : ∃ (r : Fin 5000) (q : Fin 1), j = ix2 r q := ⟨j 0, j 1, eq_ix2 j⟩
  exact point6_eq V c t r q

/-- An index of the output array is in point `t`'s block iff each coordinate is in the block's range on its axis. -/
theorem mem_blk6 (t : Fin cfg6.N) (i : S100000x1.Idx) :
    i ∈ ((cfg6.win 6).blk t).view.set ↔ ∀ a : Fin 2, win6_6.index t a * S5000x1.size a ≤ (i a).val ∧ (i a).val < win6_6.index t a * S5000x1.size a + S5000x1.size a := by
  show i ∈ ((View.whole main_v111_0).slice (win6_6.rect t)).set ↔ _
  rw [View.set_slice_whole, Rect.mem_set_unit]
  exact Iff.rfl

/-- Row `R` of the output is written by point `R / 5000`. -/
theorem cover6 (i : S100000x1.Idx) : ∃ t : Fin cfg6.N, (cfg6.win 6).flush t = true ∧ i ∈ ((cfg6.win 6).blk t).view.set := by
  have hi0 : (i 0).val < 100000 := (i 0).isLt
  have hi1 : (i 1).val < 1 := (i 1).isLt
  obtain ⟨t, ht⟩ : ∃ t : Fin cfg6.N, t.val = (i 0).val / 5000 := ⟨⟨(i 0).val / 5000, by rw [show cfg6.N = 20 from N_6]; omega⟩, rfl⟩
  obtain ⟨-, -, -, -, -, -, -, -, -, -, -, -, e0, e1, -⟩ := idx_facts t
  refine ⟨t, flush6_6 t, ?_⟩
  rw [mem_blk6]
  intro a
  match a with
  | ⟨0, _⟩ => show win6_6.index t (0 : Fin 2) * 5000 ≤ (i 0).val ∧ (i 0).val < win6_6.index t (0 : Fin 2) * 5000 + 5000; rw [e0, ht]; omega
  | ⟨1, _⟩ => show win6_6.index t (1 : Fin 2) * 1 ≤ (i 1).val ∧ (i 1).val < win6_6.index t (1 : Fin 2) * 1 + 1; rw [e1]; omega

/-! ## From blocks to the array: the second output column -/

/-- Row `r` of the second row window's block at point `t` is row `5000 t + r` of its array. -/
theorem blk1_apply (V : (c : Dev nD) → (b : Ref sig .tc) → Buf (Elt Ideal) ((c : Thread nD τ).loc b)) (c : Dev nD) (t : Fin cfg6.N)
    (r : Fin 5000) (k : Fin 64) (R : Fin 100000) (hR : R.val = 5000 * t.val + r.val) :
    (iblk6 (F := Ideal) V c 1 t : Vec Ideal S5000x64 .f32) (ix2 r k)
      = (V c (Pipeline.arrRef spec6 1) : S100000x64.Idx → Elt Ideal .f32) (ix2 R k) := by
  obtain ⟨-, -, e0, e1, -⟩ := idx_facts t
  show (V c (Pipeline.arrRef spec6 1) : S100000x64.Idx → Elt Ideal .f32) (((cfg6.win 1).blk t).view.emb (ix2 r k : S5000x64.Idx)) = _
  refine congrArg (V c (Pipeline.arrRef spec6 1) : S100000x64.Idx → Elt Ideal .f32) (funext fun a => Fin.ext ?_)
  match a with
  | ⟨0, _⟩ => show win6_1.index t (0 : Fin 2) * 5000 + 1 * r.val = R.val; rw [e0, hR]; omega
  | ⟨1, _⟩ => show win6_1.index t (1 : Fin 2) * 64 + 1 * k.val = k.val; rw [e1]; omega

/-- The second weight window's block at every point is the whole column. -/
theorem blk4_apply (V : (c : Dev nD) → (b : Ref sig .tc) → Buf (Elt Ideal) ((c : Thread nD τ).loc b)) (c : Dev nD) (t : Fin cfg6.N) (k : Fin 64) (q : Fin 1) :
    (iblk6 (F := Ideal) V c 4 t : Vec Ideal S64x1 .f32) (ix2 k q)
      = (V c (Pipeline.arrRef spec6 4) : S64x1.Idx → Elt Ideal .f32) (ix2 k q) := by
  obtain ⟨-, -, -, -, -, -, -, -, e0, e1, -⟩ := idx_facts t
  show (V c (Pipeline.arrRef spec6 4) : S64x1.Idx → Elt Ideal .f32) (((cfg6.win 4).blk t).view.emb (ix2 k q : S64x1.Idx)) = _
  refine congrArg (V c (Pipeline.arrRef spec6 4) : S64x1.Idx → Elt Ideal .f32) (funext fun a => Fin.ext ?_)
  match a with
  | ⟨0, _⟩ => show win6_4.index t (0 : Fin 2) * 64 + 1 * k.val = k.val; rw [e0]; omega
  | ⟨1, _⟩ => show win6_4.index t (1 : Fin 2) * 1 + 1 * q.val = q.val; rw [e1]; omega

/-- The second bias window's block at every point is the one entry. -/
theorem blk5_apply (V : (c : Dev nD) → (b : Ref sig .tc) → Buf (Elt Ideal) ((c : Thread nD τ).loc b)) (c : Dev nD) (t : Fin cfg6.N) (p q : Fin 1) :
    (iblk6 (F := Ideal) V c 5 t : Vec Ideal S1x1 .f32) (ix2 p q)
      = (V c (Pipeline.arrRef spec6 5) : S1x1.Idx → Elt Ideal .f32) (ix2 p q) := by
  obtain ⟨-, -, -, -, -, -, -, -, -, -, e0, e1, -⟩ := idx_facts t
  show (V c (Pipeline.arrRef spec6 5) : S1x1.Idx → Elt Ideal .f32) (((cfg6.win 5).blk t).view.emb (ix2 p q : S1x1.Idx)) = _
  refine congrArg (V c (Pipeline.arrRef spec6 5) : S1x1.Idx → Elt Ideal .f32) (funext fun a => Fin.ext ?_)
  match a with
  | ⟨0, _⟩ => show win6_5.index t (0 : Fin 2) * 1 + 1 * p.val = p.val; rw [e0]; omega
  | ⟨1, _⟩ => show win6_5.index t (1 : Fin 2) * 1 + 1 * q.val = q.val; rw [e1]; omega

/-- Row `r` of the second output block at point `t` is row `5000 t + r` of the second output array. -/
theorem emb7_apply (t : Fin cfg6.N) (r : Fin 5000) (q : Fin 1) (R : Fin 100000) (hR : R.val = 5000 * t.val + r.val) :
    ((cfg6.win 7).blk t).view.emb (ix2 r q : S5000x1.Idx) = (ix2 R q : S100000x1.Idx) := by
  obtain ⟨-, -, -, -, -, -, -, -, -, -, -, -, -, -, e0, e1⟩ := idx_facts t
  refine funext fun a => Fin.ext ?_
  match a with
  | ⟨0, _⟩ => show win6_7.index t (0 : Fin 2) * 5000 + 1 * r.val = R.val; rw [e0, hR]; omega
  | ⟨1, _⟩ => show win6_7.index t (1 : Fin 2) * 1 + 1 * q.val = q.val; rw [e1]; omega

/-- At every row of the block the second payload over the windows' blocks is the projection of the whole arrays. -/
theorem point7_eq (V : (c : Dev nD) → (b : Ref sig .tc) → Buf (Elt Ideal) ((c : Thread nD τ).loc b)) (c : Dev nD) (t : Fin cfg6.N) (r : Fin 5000) (q : Fin 1) :
    k6_pay2 (iblk6 (F := Ideal) V c 1 t) (iblk6 (F := Ideal) V c 4 t) (iblk6 (F := Ideal) V c 5 t) (ix2 r q)
      = Cert.Stages.project (F := Ideal) (V c (Pipeline.arrRef spec6 1)) (V c (Pipeline.arrRef spec6 4)) (V c (Pipeline.arrRef spec6 5))
          (((cfg6.win 7).blk t).view.emb (ix2 r q : S5000x1.Idx)) := by
  have ht : t.val < 20 := lt_of_lt_of_eq t.isLt N_6
  have hr : r.val < 5000 := r.isLt
  obtain ⟨R, hR⟩ : ∃ R : Fin 100000, R.val = 5000 * t.val + r.val := ⟨⟨5000 * t.val + r.val, by omega⟩, rfl⟩
  rw [emb7_apply t r q R hR]
  refine (pay2_apply _ _ _ r q).trans (Eq.trans ?_ (project_apply _ _ _ R q).symm)
  refine congrArg₂ (· + ·) (Finset.sum_congr rfl fun k _ => congrArg₂ (· * ·) (blk1_apply V c t r k R hR) (blk4_apply V c t k q)) (blk5_apply V c t 0 0)

/-- What point `t` writes back to the second output is block `t` of the projection of the whole arrays. -/
theorem flushed7_eq (V : (c : Dev nD) → (b : Ref sig .tc) → Buf (Elt Ideal) ((c : Thread nD τ).loc b)) (c : Dev nD) (t : Fin cfg6.N) :
    (dat6 (F := Ideal) V c).flushed 7 t = ((cfg6.win 7).blk t).view.read (Elt Ideal)
      (Cert.Stages.project (F := Ideal) (V c (Pipeline.arrRef spec6 1)) (V c (Pipeline.arrRef spec6 4)) (V c (Pipeline.arrRef spec6 5))) := by
  show (cfg6.win 7).cut (grid6.coords t) ((dat6 V c).after 7 t) = _
  rw [after6_7]
  unfold out6_7
  rw [View.canon_unit_zero hz]
  simp only [View.ld_unit_zero (S := S5000x64) hz, View.ld_unit_zero (S := S64x1) hz, View.ld_unit_zero (S := S1x1) hz]
  funext j
  obtain ⟨r, q, rfl⟩ : ∃ (r : Fin 5000) (q : Fin 1), j = ix2 r q := ⟨j 0, j 1, eq_ix2 j⟩
  exact point7_eq V c t r q

/-- An index of the second output array is in point `t`'s block iff each coordinate is in the block's range on its axis. -/
theorem mem_blk7 (t : Fin cfg6.N) (i : S100000x1.Idx) :
    i ∈ ((cfg6.win 7).blk t).view.set ↔ ∀ a : Fin 2, win6_7.index t a * S5000x1.size a ≤ (i a).val ∧ (i a).val < win6_7.index t a * S5000x1.size a + S5000x1.size a := by
  show i ∈ ((View.whole main_v111_1).slice (win6_7.rect t)).set ↔ _
  rw [View.set_slice_whole, Rect.mem_set_unit]
  exact Iff.rfl

/-- Row `R` of the second output is written by point `R / 5000`. -/
theorem cover7 (i : S100000x1.Idx) : ∃ t : Fin cfg6.N, (cfg6.win 7).flush t = true ∧ i ∈ ((cfg6.win 7).blk t).view.set := by
  have hi0 : (i 0).val < 100000 := (i 0).isLt
  have hi1 : (i 1).val < 1 := (i 1).isLt
  obtain ⟨t, ht⟩ : ∃ t : Fin cfg6.N, t.val = (i 0).val / 5000 := ⟨⟨(i 0).val / 5000, by rw [show cfg6.N = 20 from N_6]; omega⟩, rfl⟩
  obtain ⟨-, -, -, -, -, -, -, -, -, -, -, -, -, -, e0, e1⟩ := idx_facts t
  refine ⟨t, flush6_7 t, ?_⟩
  rw [mem_blk7]
  intro a
  match a with
  | ⟨0, _⟩ => show win6_7.index t (0 : Fin 2) * 5000 ≤ (i 0).val ∧ (i 0).val < win6_7.index t (0 : Fin 2) * 5000 + 5000; rw [e0, ht]; omega
  | ⟨1, _⟩ => show win6_7.index t (1 : Fin 2) * 1 ≤ (i 1).val ∧ (i 1).val < win6_7.index t (1 : Fin 2) * 1 + 1; rw [e1]; omega

end RegionProject

/-- The first output array after the region is the projection of the region's first set of input arrays. -/
theorem region6_value0 (V : (c : Dev nD) → (b : Ref sig .tc) → Buf (Elt Ideal) ((c : Thread nD τ).loc b)) (c : Dev nD) :
    (dat6 (F := Ideal) V c).arrAt 6 cfg6.N
      = Cert.Stages.project (F := Ideal) (V c (Pipeline.arrRef spec6 0)) (V c (Pipeline.arrRef spec6 2)) (V c (Pipeline.arrRef spec6 3)) :=
  (dat6 (F := Ideal) V c).arrAt_eq_of_cover 6 _ (fun t _ => RegionProject.flushed6_eq V c t) RegionProject.cover6

/-- The second output array after the region is the projection of the region's second set of input arrays. -/
theorem region6_value1 (V : (c : Dev nD) → (b : Ref sig .tc) → Buf (Elt Ideal) ((c : Thread nD τ).loc b)) (c : Dev nD) :
    (dat6 (F := Ideal) V c).arrAt 7 cfg6.N
      = Cert.Stages.project (F := Ideal) (V c (Pipeline.arrRef spec6 1)) (V c (Pipeline.arrRef spec6 4)) (V c (Pipeline.arrRef spec6 5)) :=
  (dat6 (F := Ideal) V c).arrAt_eq_of_cover 7 _ (fun t _ => RegionProject.flushed7_eq V c t) RegionProject.cover7

end Cert.KernelValue
end
-- ==== Proof.KernelValue.lean ====
/-
  The idealized kernel's two result arrays as functions of its fifteen arguments: the contents of every buffer that a
  later region or host stretch reads, boundary by boundary through @main, each as a stage of Stages.lean applied to
  the launch contents of the arguments — the host stretches by FoldSteps, the buffers carried along by FoldKeep, each
  region's output array by its value lemma.
-/
import proofs.«111039_j16252156248255_1_alg».proof.Proof.KernelRun
import proofs.«111039_j16252156248255_1_alg».proof.Proof.FoldKeep
import proofs.«111039_j16252156248255_1_alg».proof.Proof.FoldSteps
import proofs.«111039_j16252156248255_1_alg».proof.Proof.BiasLayout
import proofs.«111039_j16252156248255_1_alg».proof.Proof.RegionLinear0
import proofs.«111039_j16252156248255_1_alg».proof.Proof.RegionLinear1
import proofs.«111039_j16252156248255_1_alg».proof.Proof.RegionCombine2
import proofs.«111039_j16252156248255_1_alg».proof.Proof.RegionCombine3
import proofs.«111039_j16252156248255_1_alg».proof.Proof.RegionCombine4
import proofs.«111039_j16252156248255_1_alg».proof.Proof.RegionCombine5
import proofs.«111039_j16252156248255_1_alg».proof.Proof.RegionProject

set_option maxRecDepth 16384

noncomputable section

namespace Cert.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The arguments at the boundaries where something reads them -/

theorem W3_arg0 (c : Dev nD) :
    W3 m ρ c (Proc.devRef .tc main_arg0)
      = m ((c : Thread nD τ).loc main_arg0) :=
  keep_arg0_3_0 m ρ c

theorem W3_arg3 (c : Dev nD) :
    W3 m ρ c (Proc.devRef .tc main_arg3)
      = m ((c : Thread nD τ).loc main_arg3) :=
  keep_arg3_3_0 m ρ c

theorem W2_arg4 (c : Dev nD) :
    W2 m ρ c (Proc.devRef .tc main_arg4)
      = m ((c : Thread nD τ).loc main_arg4) :=
  keep_arg4_2_0 m ρ c

theorem W4_arg8 (c : Dev nD) :
    W4 m ρ c (Proc.devRef .tc main_arg8)
      = m ((c : Thread nD τ).loc main_arg8) :=
  keep_arg8_4_0 m ρ c

theorem W5_arg1 (c : Dev nD) :
    W5 m ρ c (Proc.devRef .tc main_arg1)
      = m ((c : Thread nD τ).loc main_arg1) :=
  keep_arg1_5_0 m ρ c

theorem W5_arg7 (c : Dev nD) :
    W5 m ρ c (Proc.devRef .tc main_arg7)
      = m ((c : Thread nD τ).loc main_arg7) :=
  keep_arg7_5_0 m ρ c

theorem W6_arg11 (c : Dev nD) :
    W6 m ρ c (Proc.devRef .tc main_arg11)
      = m ((c : Thread nD τ).loc main_arg11) :=
  keep_arg11_6_0 m ρ c

theorem W6_arg12 (c : Dev nD) :
    W6 m ρ c (Proc.devRef .tc main_arg12)
      = m ((c : Thread nD τ).loc main_arg12) :=
  keep_arg12_6_0 m ρ c

theorem W8_arg11 (c : Dev nD) :
    W8 m ρ c (Proc.devRef .tc main_arg11)
      = m ((c : Thread nD τ).loc main_arg11) :=
  (keep_arg11_8_6 m ρ c).trans (W6_arg11 m ρ c)

theorem W8_arg12 (c : Dev nD) :
    W8 m ρ c (Proc.devRef .tc main_arg12)
      = m ((c : Thread nD τ).loc main_arg12) :=
  (keep_arg12_8_6 m ρ c).trans (W6_arg12 m ρ c)

theorem W12_arg13 (c : Dev nD) :
    W12 m ρ c (Proc.devRef .tc main_arg13)
      = m ((c : Thread nD τ).loc main_arg13) :=
  (keep_arg13_16_12 m ρ c).symm.trans (W16_main_arg13 m ρ c)

theorem W10_arg13 (c : Dev nD) :
    W10 m ρ c (Proc.devRef .tc main_arg13)
      = m ((c : Thread nD τ).loc main_arg13) :=
  (keep_arg13_12_10 m ρ c).symm.trans (W12_arg13 m ρ c)

theorem W12_arg14 (c : Dev nD) :
    W12 m ρ c (Proc.devRef .tc main_arg14)
      = m ((c : Thread nD τ).loc main_arg14) :=
  (keep_arg14_16_12 m ρ c).symm.trans (W16_main_arg14 m ρ c)

theorem W10_arg14 (c : Dev nD) :
    W10 m ρ c (Proc.devRef .tc main_arg14)
      = m ((c : Thread nD τ).loc main_arg14) :=
  (keep_arg14_12_10 m ρ c).symm.trans (W12_arg14 m ρ c)

theorem W14_arg6 (c : Dev nD) :
    W14 m ρ c (Proc.devRef .tc main_arg6)
      = m ((c : Thread nD τ).loc main_arg6) :=
  (keep_arg6_16_14 m ρ c).symm.trans (W16_main_arg6 m ρ c)

theorem W14_arg10 (c : Dev nD) :
    W14 m ρ c (Proc.devRef .tc main_arg10)
      = m ((c : Thread nD τ).loc main_arg10) :=
  (keep_arg10_16_14 m ρ c).symm.trans (W16_main_arg10 m ρ c)

theorem W15_arg5 (c : Dev nD) :
    W15 m ρ c (Proc.devRef .tc main_arg5)
      = m ((c : Thread nD τ).loc main_arg5) :=
  (keep_arg5_16_15 m ρ c).symm.trans (W16_main_arg5 m ρ c)

theorem W15_arg9 (c : Dev nD) :
    W15 m ρ c (Proc.devRef .tc main_arg9)
      = m ((c : Thread nD τ).loc main_arg9) :=
  (keep_arg9_16_15 m ρ c).symm.trans (W16_main_arg9 m ρ c)

/-! ## The edge list's rows and the edge weights -/

theorem W1_v1 (c : Dev nD) :
    W1 m ρ c (Proc.devRef .tc main_v1)
      = Cert.Stages.srcOf (F := Ideal) (m ((c : Thread nD τ).loc main_arg2)) :=
  ops0_v1 (W0 m ρ c)

theorem W1_v3 (c : Dev nD) :
    W1 m ρ c (Proc.devRef .tc main_v3)
      = Cert.Stages.dstOf (F := Ideal) (m ((c : Thread nD τ).loc main_arg2)) :=
  ops0_v3 (W0 m ρ c)

theorem W1_v9 (c : Dev nD) :
    W1 m ρ c (Proc.devRef .tc main_v9)
      = cmpf .ogt (Cert.Stages.degree (F := Ideal) (Cert.Stages.dstOf (F := Ideal) (m ((c : Thread nD τ).loc main_arg2))))
          (broadcastInDim S100000 ![] bcast_S_S100000 (constant (F := Ideal) S_ .f32 0x00000000#32)) :=
  ops0_v9 (W0 m ρ c)

theorem W1_v12 (c : Dev nD) :
    W1 m ρ c (Proc.devRef .tc main_v12)
      = Host.rsqrt (maximumf (Cert.Stages.degree (F := Ideal) (Cert.Stages.dstOf (F := Ideal) (m ((c : Thread nD τ).loc main_arg2))))
          (broadcastInDim S100000 ![] bcast_S_S100000 (constant (F := Ideal) S_ .f32 0x2B8CBCCC#32))) :=
  ops0_v12 (W0 m ρ c)

theorem W1_cst_3 (c : Dev nD) :
    W1 m ρ c (Proc.devRef .tc main_cst_3)
      = constant (F := Ideal) S_ .f32 0x00000000#32 :=
  ops0_cst_3 (W0 m ρ c)

theorem W2_v13 (c : Dev nD) :
    W2 m ρ c (Proc.devRef .tc main_v13)
      = Cert.Stages.invSqrtDegree (F := Ideal) (Cert.Stages.dstOf (F := Ideal) (m ((c : Thread nD τ).loc main_arg2))) :=
  (ops0_1_v13 (W1 m ρ c)).trans (by rw [W1_v9 m ρ c, W1_v12 m ρ c, W1_cst_3 m ρ c]; rfl)

theorem W3_v28 (c : Dev nD) :
    W3 m ρ c (Proc.devRef .tc main_v28)
      = Cert.Stages.edgeWeight (F := Ideal) (Cert.Stages.srcOf (F := Ideal) (m ((c : Thread nD τ).loc main_arg2))) (Cert.Stages.dstOf (F := Ideal) (m ((c : Thread nD τ).loc main_arg2))) :=
  (ops0_2_v28 (W2 m ρ c)).trans (by
    rw [W2_v13 m ρ c, keep_v1_2_1 m ρ c, W1_v1 m ρ c, keep_v3_2_1 m ρ c, W1_v3 m ρ c]; rfl)

theorem W6_v1 (c : Dev nD) :
    W6 m ρ c (Proc.devRef .tc main_v1)
      = Cert.Stages.srcOf (F := Ideal) (m ((c : Thread nD τ).loc main_arg2)) :=
  (keep_v1_6_2 m ρ c).trans ((keep_v1_2_1 m ρ c).trans (W1_v1 m ρ c))

theorem W6_v3 (c : Dev nD) :
    W6 m ρ c (Proc.devRef .tc main_v3)
      = Cert.Stages.dstOf (F := Ideal) (m ((c : Thread nD τ).loc main_arg2)) :=
  (keep_v3_6_2 m ρ c).trans ((keep_v3_2_1 m ρ c).trans (W1_v3 m ρ c))

theorem W6_v28 (c : Dev nD) :
    W6 m ρ c (Proc.devRef .tc main_v28)
      = Cert.Stages.edgeWeight (F := Ideal) (Cert.Stages.srcOf (F := Ideal) (m ((c : Thread nD τ).loc main_arg2))) (Cert.Stages.dstOf (F := Ideal) (m ((c : Thread nD τ).loc main_arg2))) :=
  (keep_v28_6_3 m ρ c).trans (W3_v28 m ρ c)

theorem W8_v1 (c : Dev nD) :
    W8 m ρ c (Proc.devRef .tc main_v1)
      = Cert.Stages.srcOf (F := Ideal) (m ((c : Thread nD τ).loc main_arg2)) :=
  (keep_v1_8_6 m ρ c).trans (W6_v1 m ρ c)

theorem W8_v3 (c : Dev nD) :
    W8 m ρ c (Proc.devRef .tc main_v3)
      = Cert.Stages.dstOf (F := Ideal) (m ((c : Thread nD τ).loc main_arg2)) :=
  (keep_v3_8_6 m ρ c).trans (W6_v3 m ρ c)

theorem W8_v28 (c : Dev nD) :
    W8 m ρ c (Proc.devRef .tc main_v28)
      = Cert.Stages.edgeWeight (F := Ideal) (Cert.Stages.srcOf (F := Ideal) (m ((c : Thread nD τ).loc main_arg2))) (Cert.Stages.dstOf (F := Ideal) (m ((c : Thread nD τ).loc main_arg2))) :=
  (keep_v28_8_6 m ρ c).trans (W6_v28 m ρ c)

theorem W10_v1 (c : Dev nD) :
    W10 m ρ c (Proc.devRef .tc main_v1)
      = Cert.Stages.srcOf (F := Ideal) (m ((c : Thread nD τ).loc main_arg2)) :=
  (keep_v1_10_8 m ρ c).trans (W8_v1 m ρ c)

theorem W10_v3 (c : Dev nD) :
    W10 m ρ c (Proc.devRef .tc main_v3)
      = Cert.Stages.dstOf (F := Ideal) (m ((c : Thread nD τ).loc main_arg2)) :=
  (keep_v3_10_8 m ρ c).trans (W8_v3 m ρ c)

theorem W10_v28 (c : Dev nD) :
    W10 m ρ c (Proc.devRef .tc main_v28)
      = Cert.Stages.edgeWeight (F := Ideal) (Cert.Stages.srcOf (F := Ideal) (m ((c : Thread nD τ).loc main_arg2))) (Cert.Stages.dstOf (F := Ideal) (m ((c : Thread nD τ).loc main_arg2))) :=
  (keep_v28_10_8 m ρ c).trans (W8_v28 m ρ c)

theorem W12_v1 (c : Dev nD) :
    W12 m ρ c (Proc.devRef .tc main_v1)
      = Cert.Stages.srcOf (F := Ideal) (m ((c : Thread nD τ).loc main_arg2)) :=
  (keep_v1_12_10 m ρ c).trans (W10_v1 m ρ c)

theorem W12_v3 (c : Dev nD) :
    W12 m ρ c (Proc.devRef .tc main_v3)
      = Cert.Stages.dstOf (F := Ideal) (m ((c : Thread nD τ).loc main_arg2)) :=
  (keep_v3_12_10 m ρ c).trans (W10_v3 m ρ c)

theorem W12_v28 (c : Dev nD) :
    W12 m ρ c (Proc.devRef .tc main_v28)
      = Cert.Stages.edgeWeight (F := Ideal) (Cert.Stages.srcOf (F := Ideal) (m ((c : Thread nD τ).loc main_arg2))) (Cert.Stages.dstOf (F := Ideal) (m ((c : Thread nD τ).loc main_arg2))) :=
  (keep_v28_12_10 m ρ c).trans (W10_v28 m ρ c)

/-! ## The two input layers -/

theorem W3_v29 (c : Dev nD) :
    W3 m ρ c (Proc.devRef .tc main_v29)
      = Cert.Stages.biasRow (F := Ideal) (m ((c : Thread nD τ).loc main_arg4)) :=
  (ops0_2_v29 (W2 m ρ c)).trans (by rw [W2_arg4 m ρ c]; exact biasRow_eq _ _)

set_option maxHeartbeats 2000000 in
theorem W4_v30 (c : Dev nD) :
    W4 m ρ c (Proc.devRef .tc main_v30)
      = Cert.Stages.linRelu500 (F := Ideal) (m ((c : Thread nD τ).loc main_arg0)) (m ((c : Thread nD τ).loc main_arg3)) (Cert.Stages.biasRow (F := Ideal) (m ((c : Thread nD τ).loc main_arg4))) :=
  (W4_arr m ρ c 3).trans ((region0_value (V3 m ρ) c).trans (by
    rw [show V3 m ρ c (Pipeline.arrRef spec0 0) = m ((c : Thread nD τ).loc main_arg0) from W3_arg0 m ρ c,
      show V3 m ρ c (Pipeline.arrRef spec0 1) = m ((c : Thread nD τ).loc main_arg3) from W3_arg3 m ρ c,
      show V3 m ρ c (Pipeline.arrRef spec0 2) = Cert.Stages.biasRow (F := Ideal) (m ((c : Thread nD τ).loc main_arg4)) from W3_v29 m ρ c]))

theorem W5_v31 (c : Dev nD) :
    W5 m ρ c (Proc.devRef .tc main_v31)
      = Cert.Stages.biasRow (F := Ideal) (m ((c : Thread nD τ).loc main_arg8)) :=
  (ops1_v31 (W4 m ρ c)).trans (by rw [W4_arg8 m ρ c]; exact biasRow_eq _ _)

set_option maxHeartbeats 2000000 in
theorem W6_v32 (c : Dev nD) :
    W6 m ρ c (Proc.devRef .tc main_v32)
      = Cert.Stages.linRelu58 (F := Ideal) (m ((c : Thread nD τ).loc main_arg1)) (m ((c : Thread nD τ).loc main_arg7)) (Cert.Stages.biasRow (F := Ideal) (m ((c : Thread nD τ).loc main_arg8))) :=
  (W6_arr m ρ c 3).trans ((region1_value (V5 m ρ) c).trans (by
    rw [show V5 m ρ c (Pipeline.arrRef spec1 0) = m ((c : Thread nD τ).loc main_arg1) from W5_arg1 m ρ c,
      show V5 m ρ c (Pipeline.arrRef spec1 1) = m ((c : Thread nD τ).loc main_arg7) from W5_arg7 m ρ c,
      show V5 m ρ c (Pipeline.arrRef spec1 2) = Cert.Stages.biasRow (F := Ideal) (m ((c : Thread nD τ).loc main_arg8)) from W5_v31 m ρ c]))

theorem W6_v30 (c : Dev nD) :
    W6 m ρ c (Proc.devRef .tc main_v30)
      = Cert.Stages.linRelu500 (F := Ideal) (m ((c : Thread nD τ).loc main_arg0)) (m ((c : Thread nD τ).loc main_arg3)) (Cert.Stages.biasRow (F := Ideal) (m ((c : Thread nD τ).loc main_arg4))) :=
  (keep_v30_6_4 m ρ c).trans (W4_v30 m ρ c)

/-! ## The first stack -/

theorem W7_v34 (c : Dev nD) :
    W7 m ρ c (Proc.devRef .tc main_v34)
      = mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4)))) :=
  (ops2_v34 (W6 m ρ c)).trans (by rw [W6_v30 m ρ c])

theorem W7_v47 (c : Dev nD) :
    W7 m ρ c (Proc.devRef .tc main_v47)
      = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4)))) :=
  (ops2_v47 (W6 m ρ c)).trans (by rw [W6_v1 m ρ c, W6_v3 m ρ c, W6_v28 m ρ c, W6_v30 m ρ c])

theorem W7_v49 (c : Dev nD) :
    W7 m ρ c (Proc.devRef .tc main_v49)
      = Cert.Stages.layer0 (F := Ideal) (m ((c : Thread nD τ).loc main_arg11)) :=
  (ops2_v49 (W6 m ρ c)).trans (by rw [W6_arg11 m ρ c])

theorem W7_v51 (c : Dev nD) :
    W7 m ρ c (Proc.devRef .tc main_v51)
      = Cert.Stages.layer0 (F := Ideal) (m ((c : Thread nD τ).loc main_arg12)) :=
  (ops2_v51 (W6 m ρ c)).trans (by rw [W6_arg12 m ρ c])

set_option maxHeartbeats 2000000 in
theorem W8_v52 (c : Dev nD) :
    W8 m ρ c (Proc.devRef .tc main_v52)
      = Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12))) :=
  (W8_arr m ρ c 4).trans ((region2_value (V7 m ρ) c).trans (by
    rw [show V7 m ρ c (Pipeline.arrRef spec2 0) = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4)))) from W7_v47 m ρ c,
      show V7 m ρ c (Pipeline.arrRef spec2 1) = mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4)))) from W7_v34 m ρ c,
      show V7 m ρ c (Pipeline.arrRef spec2 2) = Cert.Stages.layer0 (F := Ideal) (m ((c : Thread nD τ).loc main_arg11)) from W7_v49 m ρ c,
      show V7 m ρ c (Pipeline.arrRef spec2 3) = Cert.Stages.layer0 (F := Ideal) (m ((c : Thread nD τ).loc main_arg12)) from W7_v51 m ρ c]))

theorem W9_v34 (c : Dev nD) :
    W9 m ρ c (Proc.devRef .tc main_v34)
      = mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4)))) :=
  (keep_v34_9_7 m ρ c).trans (W7_v34 m ρ c)

theorem W9_v65 (c : Dev nD) :
    W9 m ρ c (Proc.devRef .tc main_v65)
      = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12)))) :=
  (ops3_v65 (W8 m ρ c)).trans (by rw [W8_v1 m ρ c, W8_v3 m ρ c, W8_v28 m ρ c, W8_v52 m ρ c])

theorem W9_v67 (c : Dev nD) :
    W9 m ρ c (Proc.devRef .tc main_v67)
      = Cert.Stages.layer1 (F := Ideal) (m ((c : Thread nD τ).loc main_arg11)) :=
  (ops3_v67 (W8 m ρ c)).trans (by rw [W8_arg11 m ρ c])

theorem W9_v69 (c : Dev nD) :
    W9 m ρ c (Proc.devRef .tc main_v69)
      = Cert.Stages.layer1 (F := Ideal) (m ((c : Thread nD τ).loc main_arg12)) :=
  (ops3_v69 (W8 m ρ c)).trans (by rw [W8_arg12 m ρ c])

set_option maxHeartbeats 2000000 in
theorem W10_v70 (c : Dev nD) :
    W10 m ρ c (Proc.devRef .tc main_v70)
      = Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer1 (F := Ideal) (m ((c : Thread nD τ).loc main_arg11))) (Cert.Stages.layer1 (F := Ideal) (m ((c : Thread nD τ).loc main_arg12))) :=
  (W10_arr m ρ c 4).trans ((region3_value (V9 m ρ) c).trans (by
    rw [show V9 m ρ c (Pipeline.arrRef spec3 0) = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12)))) from W9_v65 m ρ c,
      show V9 m ρ c (Pipeline.arrRef spec3 1) = mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4)))) from W9_v34 m ρ c,
      show V9 m ρ c (Pipeline.arrRef spec3 2) = Cert.Stages.layer1 (F := Ideal) (m ((c : Thread nD τ).loc main_arg11)) from W9_v67 m ρ c,
      show V9 m ρ c (Pipeline.arrRef spec3 3) = Cert.Stages.layer1 (F := Ideal) (m ((c : Thread nD τ).loc main_arg12)) from W9_v69 m ρ c]))

/-! ## The second stack -/

theorem W10_v32 (c : Dev nD) :
    W10 m ρ c (Proc.devRef .tc main_v32)
      = Cert.Stages.linRelu58 (F := Ideal) (m ((c : Thread nD τ).loc main_arg1)) (m ((c : Thread nD τ).loc main_arg7)) (Cert.Stages.biasRow (F := Ideal) (m ((c : Thread nD τ).loc main_arg8))) :=
  (keep_v32_10_6 m ρ c).trans (W6_v32 m ρ c)

theorem W11_v72 (c : Dev nD) :
    W11 m ρ c (Proc.devRef .tc main_v72)
      = mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8)))) :=
  (ops4_v72 (W10 m ρ c)).trans (by rw [W10_v32 m ρ c])

theorem W11_v85 (c : Dev nD) :
    W11 m ρ c (Proc.devRef .tc main_v85)
      = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8)))) :=
  (ops4_v85 (W10 m ρ c)).trans (by rw [W10_v1 m ρ c, W10_v3 m ρ c, W10_v28 m ρ c, W10_v32 m ρ c])

theorem W11_v87 (c : Dev nD) :
    W11 m ρ c (Proc.devRef .tc main_v87)
      = Cert.Stages.layer0 (F := Ideal) (m ((c : Thread nD τ).loc main_arg13)) :=
  (ops4_v87 (W10 m ρ c)).trans (by rw [W10_arg13 m ρ c])

theorem W11_v89 (c : Dev nD) :
    W11 m ρ c (Proc.devRef .tc main_v89)
      = Cert.Stages.layer0 (F := Ideal) (m ((c : Thread nD τ).loc main_arg14)) :=
  (ops4_v89 (W10 m ρ c)).trans (by rw [W10_arg14 m ρ c])

set_option maxHeartbeats 2000000 in
theorem W12_v90 (c : Dev nD) :
    W12 m ρ c (Proc.devRef .tc main_v90)
      = Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14))) :=
  (W12_arr m ρ c 4).trans ((region4_value (V11 m ρ) c).trans (by
    rw [show V11 m ρ c (Pipeline.arrRef spec4 0) = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8)))) from W11_v85 m ρ c,
      show V11 m ρ c (Pipeline.arrRef spec4 1) = mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8)))) from W11_v72 m ρ c,
      show V11 m ρ c (Pipeline.arrRef spec4 2) = Cert.Stages.layer0 (F := Ideal) (m ((c : Thread nD τ).loc main_arg13)) from W11_v87 m ρ c,
      show V11 m ρ c (Pipeline.arrRef spec4 3) = Cert.Stages.layer0 (F := Ideal) (m ((c : Thread nD τ).loc main_arg14)) from W11_v89 m ρ c]))

theorem W13_v72 (c : Dev nD) :
    W13 m ρ c (Proc.devRef .tc main_v72)
      = mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8)))) :=
  (keep_v72_13_11 m ρ c).trans (W11_v72 m ρ c)

theorem W13_v103 (c : Dev nD) :
    W13 m ρ c (Proc.devRef .tc main_v103)
      = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14)))) :=
  (ops5_v103 (W12 m ρ c)).trans (by rw [W12_v1 m ρ c, W12_v3 m ρ c, W12_v28 m ρ c, W12_v90 m ρ c])

theorem W13_v105 (c : Dev nD) :
    W13 m ρ c (Proc.devRef .tc main_v105)
      = Cert.Stages.layer1 (F := Ideal) (m ((c : Thread nD τ).loc main_arg13)) :=
  (ops5_v105 (W12 m ρ c)).trans (by rw [W12_arg13 m ρ c])

theorem W13_v107 (c : Dev nD) :
    W13 m ρ c (Proc.devRef .tc main_v107)
      = Cert.Stages.layer1 (F := Ideal) (m ((c : Thread nD τ).loc main_arg14)) :=
  (ops5_v107 (W12 m ρ c)).trans (by rw [W12_arg14 m ρ c])

set_option maxHeartbeats 2000000 in
theorem W14_v108 (c : Dev nD) :
    W14 m ρ c (Proc.devRef .tc main_v108)
      = Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer1 (F := Ideal) (m ((c : Thread nD τ).loc main_arg13))) (Cert.Stages.layer1 (F := Ideal) (m ((c : Thread nD τ).loc main_arg14))) :=
  (W14_arr m ρ c 4).trans ((region5_value (V13 m ρ) c).trans (by
    rw [show V13 m ρ c (Pipeline.arrRef spec5 0) = Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14)))) from W13_v103 m ρ c,
      show V13 m ρ c (Pipeline.arrRef spec5 1) = mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8)))) from W13_v72 m ρ c,
      show V13 m ρ c (Pipeline.arrRef spec5 2) = Cert.Stages.layer1 (F := Ideal) (m ((c : Thread nD τ).loc main_arg13)) from W13_v105 m ρ c,
      show V13 m ρ c (Pipeline.arrRef spec5 3) = Cert.Stages.layer1 (F := Ideal) (m ((c : Thread nD τ).loc main_arg14)) from W13_v107 m ρ c]))

/-! ## The two projections -/

theorem W15_v70 (c : Dev nD) :
    W15 m ρ c (Proc.devRef .tc main_v70)
      = Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer1 (F := Ideal) (m ((c : Thread nD τ).loc main_arg11))) (Cert.Stages.layer1 (F := Ideal) (m ((c : Thread nD τ).loc main_arg12))) :=
  (keep_v70_15_10 m ρ c).trans (W10_v70 m ρ c)

theorem W15_v108 (c : Dev nD) :
    W15 m ρ c (Proc.devRef .tc main_v108)
      = Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer1 (F := Ideal) (m ((c : Thread nD τ).loc main_arg13))) (Cert.Stages.layer1 (F := Ideal) (m ((c : Thread nD τ).loc main_arg14))) :=
  (keep_v108_15_14 m ρ c).trans (W14_v108 m ρ c)

theorem W15_v109 (c : Dev nD) :
    W15 m ρ c (Proc.devRef .tc main_v109)
      = Cert.Stages.biasOne (F := Ideal) (m ((c : Thread nD τ).loc main_arg6)) :=
  (ops6_v109 (W14 m ρ c)).trans (by rw [W14_arg6 m ρ c]; exact biasOne_eq _ _)

theorem W15_v110 (c : Dev nD) :
    W15 m ρ c (Proc.devRef .tc main_v110)
      = Cert.Stages.biasOne (F := Ideal) (m ((c : Thread nD τ).loc main_arg10)) :=
  (ops6_v110 (W14 m ρ c)).trans (by rw [W14_arg10 m ρ c]; exact biasOne_eq _ _)

set_option maxHeartbeats 2000000 in
theorem W16_out0 (c : Dev nD) :
    W16 m ρ c (Proc.devRef .tc main_v111_0)
      = Cert.Stages.project (F := Ideal) (Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer1 (F := Ideal) (m ((c : Thread nD τ).loc main_arg11))) (Cert.Stages.layer1 (F := Ideal) (m ((c : Thread nD τ).loc main_arg12)))) (m ((c : Thread nD τ).loc main_arg5)) (Cert.Stages.biasOne (F := Ideal) (m ((c : Thread nD τ).loc main_arg6))) :=
  (W16_arr m ρ c 6).trans ((region6_value0 (V15 m ρ) c).trans (by
    rw [show V15 m ρ c (Pipeline.arrRef spec6 0) = Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu500 (F := Ideal) (m ((c : Thread nD τ).loc main_arg0)) (m ((c : Thread nD τ).loc main_arg3)) (Cert.Stages.biasRow (F := Ideal) (m ((c : Thread nD τ).loc main_arg4))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer0 (F := Ideal) (m ((c : Thread nD τ).loc main_arg11))) (Cert.Stages.layer0 (F := Ideal) (m ((c : Thread nD τ).loc main_arg12))))) (mulf (Cert.Stages.splat64 (F := Ideal) 0x3ECCCCCD#32) (Cert.Stages.linRelu500 (F := Ideal) (m ((c : Thread nD τ).loc main_arg0)) (m ((c : Thread nD τ).loc main_arg3)) (Cert.Stages.biasRow (F := Ideal) (m ((c : Thread nD τ).loc main_arg4))))) (Cert.Stages.layer1 (F := Ideal) (m ((c : Thread nD τ).loc main_arg11))) (Cert.Stages.layer1 (F := Ideal) (m ((c : Thread nD τ).loc main_arg12))) from W15_v70 m ρ c,
      show V15 m ρ c (Pipeline.arrRef spec6 2) = m ((c : Thread nD τ).loc main_arg5) from W15_arg5 m ρ c,
      show V15 m ρ c (Pipeline.arrRef spec6 3) = Cert.Stages.biasOne (F := Ideal) (m ((c : Thread nD τ).loc main_arg6)) from W15_v109 m ρ c]))

set_option maxHeartbeats 2000000 in
theorem W16_out1 (c : Dev nD) :
    W16 m ρ c (Proc.devRef .tc main_v111_1)
      = Cert.Stages.project (F := Ideal) (Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer1 (F := Ideal) (m ((c : Thread nD τ).loc main_arg13))) (Cert.Stages.layer1 (F := Ideal) (m ((c : Thread nD τ).loc main_arg14)))) (m ((c : Thread nD τ).loc main_arg9)) (Cert.Stages.biasOne (F := Ideal) (m ((c : Thread nD τ).loc main_arg10))) :=
  (W16_arr m ρ c 7).trans ((region6_value1 (V15 m ρ) c).trans (by
    rw [show V15 m ρ c (Pipeline.arrRef spec6 1) = Cert.Stages.combine (F := Ideal) 0x3F20E136#32 0x3EBE3D94#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.combine (F := Ideal) 0x3EB75EED#32 0x3F245089#32 (Cert.Stages.aggregate (F := Ideal) (Cert.Stages.srcOf (F := Ideal) (m ((c : Thread nD τ).loc main_arg2))) (Cert.Stages.dstOf (F := Ideal) (m ((c : Thread nD τ).loc main_arg2))) (Cert.Stages.edgeWeight (F := Ideal) (Cert.Stages.srcOf (F := Ideal) (m ((c : Thread nD τ).loc main_arg2))) (Cert.Stages.dstOf (F := Ideal) (m ((c : Thread nD τ).loc main_arg2)))) (Cert.Stages.linRelu58 (F := Ideal) (m ((c : Thread nD τ).loc main_arg1)) (m ((c : Thread nD τ).loc main_arg7)) (Cert.Stages.biasRow (F := Ideal) (m ((c : Thread nD τ).loc main_arg8))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer0 (F := Ideal) (m ((c : Thread nD τ).loc main_arg13))) (Cert.Stages.layer0 (F := Ideal) (m ((c : Thread nD τ).loc main_arg14))))) (mulf (Cert.Stages.splat64 (F := Ideal) 0x3ECCCCCD#32) (Cert.Stages.linRelu58 (F := Ideal) (m ((c : Thread nD τ).loc main_arg1)) (m ((c : Thread nD τ).loc main_arg7)) (Cert.Stages.biasRow (F := Ideal) (m ((c : Thread nD τ).loc main_arg8))))) (Cert.Stages.layer1 (F := Ideal) (m ((c : Thread nD τ).loc main_arg13))) (Cert.Stages.layer1 (F := Ideal) (m ((c : Thread nD τ).loc main_arg14))) from W15_v108 m ρ c,
      show V15 m ρ c (Pipeline.arrRef spec6 4) = m ((c : Thread nD τ).loc main_arg9) from W15_arg9 m ρ c,
      show V15 m ρ c (Pipeline.arrRef spec6 5) = Cert.Stages.biasOne (F := Ideal) (m ((c : Thread nD τ).loc main_arg10)) from W15_v110 m ρ c]))

/-- The first result array is the network's first output of the arguments. -/
theorem out0_eq (c : Dev nD) :
    W16 m ρ c (Proc.devRef .tc main_v111_0)
      = Cert.Stages.result0 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) :=
  (W16_out0 m ρ c).trans rfl

/-- The second result array is the network's second output of the arguments. -/
theorem out1_eq (c : Dev nD) :
    W16 m ρ c (Proc.devRef .tc main_v111_1)
      = Cert.Stages.result1 (F := Ideal) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) :=
  (W16_out1 m ρ c).trans rfl

end Cert.KernelValue

end
-- ==== Proof.RefValue.lean ====
/-
  The reference program's two results are the network's two outputs of its arguments: its run's composed terms,
  operation by operation, are the stages of Stages.lean nested as Stages.result0 and Stages.result1 nest them.
-/
import proofs.«111039_j16252156248255_1_alg».proof.Proof.RefRunP
import proofs.«111039_j16252156248255_1_alg».proof.Proof.Stages

set_option maxRecDepth 16384

noncomputable section

namespace Cert.ReferenceValue

open Idealize.ShloMosaic Idealize.ShloMosaic.TcCoe Idealize.SL.Sem
open Cert.ReferenceIdeal Cert.ReferenceIdeal.Gen

variable (m : (ℓ : Loc nD τ sig) → Buf (Elt Ideal) ℓ)

theorem res0_eq (c : Dev nD) :
    Cert.ReferenceIdeal.ValueP.res_main_v186 (F := Ideal) m c
      = Cert.Stages.result0 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) := by
  unfold Cert.ReferenceIdeal.ValueP.res_main_v186
  rfl

theorem res1_eq (c : Dev nD) :
    Cert.ReferenceIdeal.ValueP.res_main_v190 (F := Ideal) m c
      = Cert.Stages.result1 (F := Ideal) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) := by
  unfold Cert.ReferenceIdeal.ValueP.res_main_v190
  rfl

end Cert.ReferenceValue

end
-- ==== Proof.lean ====
/- The proof of `Cert.Claim` (proofs.«111039_j16252156248255_1_alg».proof.Defs).

   The kernel is a two-stack graph network on 100000 nodes and 1200000 edges. Its sparse half — the in-degrees, the
   edge weights 1/sqrt(deg) · 1/sqrt(deg), the gather of source rows and the sum into destination rows — is the same
   list of host operations in both programs. Its dense half is seven tiled kernels: max(x·w + b, 0) twice; four times the
   layer step max(p·h + q·(h·w₁) + p·x + q·(x·w₂), 0) with h = (3/5-word)·agg; and the two projections h·w + b. Each
   tiled kernel writes, block of 5000 rows by block, exactly the rows of one whole-array function of its input arrays
   (a matrix product into a zero accumulator is the plain sum over the contracted axis; a change of float format is the
   identity on the extended reals), and that function is the reference's own host expression. So both programs end at
   Stages.result0 and Stages.result1 of the arguments: no law of arithmetic joins the two sides, only that every
   operation reads the same elements; the precondition is never opened.

   frame: the generated frames (the reference's from its run with the results dropped). preserves: the idealization
   rewrote no operation. algebraic: the kernel's run with its results named (KernelRun), read boundary by boundary
   down to the arguments (KernelValue), against the reference's run (RefRunP) and its composed terms (RefValue). -/
import proofs.«111039_j16252156248255_1_alg».proof.Defs
import proofs.«111039_j16252156248255_1_alg».proof.Proof.Gen.Kernel
import proofs.«111039_j16252156248255_1_alg».proof.Proof.Gen.Kernel.Frame
import proofs.«111039_j16252156248255_1_alg».proof.Proof.Gen.KernelIdeal
import proofs.«111039_j16252156248255_1_alg».proof.Proof.Gen.KernelIdeal.Frame
import proofs.«111039_j16252156248255_1_alg».proof.Proof.Gen.ReferenceIdeal
import proofs.«111039_j16252156248255_1_alg».proof.Proof.Gen.Pre_finite_inputs
import proofs.«111039_j16252156248255_1_alg».proof.Proof.KernelValue
import proofs.«111039_j16252156248255_1_alg».proof.Proof.RefRunP
import proofs.«111039_j16252156248255_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the arguments both programs end with the network's two outputs of those arguments. -/
theorem algebraic : Cert.algebraic_KernelIdeal_ReferenceIdeal := by
  intro m ρ m' ρ' _ hagree
  refine ⟨fun c => Cert.Stages.result0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Stages.result1 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelValue.out0_eq m ρ c), (h c).2.1.trans (Cert.KernelValue.out1_eq m ρ c), (h c).2.2⟩)
      (Cert.KernelIdeal.Gen.run_named (F := Ideal) m ρ)
  · refine (θ_run Cert.ReferenceIdeal.defs _ _).mono (fun _ h c => ?_) (Cert.ReferenceIdeal.ValueP.run (F := Ideal) m' ρ')
    obtain ⟨a0, a1, a2, a3, a4, a5, a6, a7, a8, a9, a10, a11, a12, a13, a14⟩ := hagree c
    refine ⟨(h c).1.trans ((Cert.ReferenceValue.res0_eq m' c).trans ?_), (h c).2.1.trans ((Cert.ReferenceValue.res1_eq m' c).trans ?_), (h c).2.2⟩
    · rw [a0, a2, a3, a4, a5, a6, a11, a12]
    · rw [a1, a2, a7, a8, a9, a10, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
